-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x12288 : Shape := ⟨2, ![12288, 12288]⟩
abbrev S_ : Shape := ⟨0, ![]⟩

class Facts : Prop where
  bcast_S_S12288x12288 : S_.BroadcastsInDim S12288x12288 (![] : Fin 0 → Fin S12288x12288.rank)
  reducesTo_S12288x12288_S_d0_1 : S12288x12288.ReducesTo [0, 1] S_
  h_S_ : 0 < S_.numel

variable [Facts]

def fn {F : FTy → Type} [FloatOps F] (main_arg0 : FVec F S12288x12288 .f32) : IVec S_ 1 :=
  let main_v0 : FVec F S12288x12288 .f32 := Host.absf main_arg0
  let main_cst : FVec F S_ .f32 := constant S_ .f32 0x7F800000#32
  let main_v1 : FVec F S12288x12288 .f32 := broadcastInDim S12288x12288 ![] bcast_S_S12288x12288 main_cst
  let main_v2 : IVec S12288x12288 1 := cmpf .olt main_v0 main_v1
  let main_c : IVec S_ 1 := constantI S_ 1 1#1
  let main_v3 : IVec S_ 1 := (fun x v => Host.reduce IntOp.andi x v reducesTo_S12288x12288_S_d0_1 h_S_) main_v2 main_c
  main_v3
-- ==== Kernel.lean ====
abbrev S12288x12288 : Shape := ⟨2, ![12288, 12288]⟩
abbrev S1024x2048 : Shape := ⟨2, ![1024, 2048]⟩
abbrev S_ : Shape := ⟨0, ![]⟩
abbrev S150994944 : Shape := ⟨1, ![150994944]⟩
abbrev S3200000 : Shape := ⟨1, ![3200000]⟩
abbrev S150994944x1 : Shape := ⟨2, ![150994944, 1]⟩
abbrev S1x3200000 : Shape := ⟨2, ![1, 3200000]⟩
abbrev S2x3200000 : Shape := ⟨2, ![2, 3200000]⟩
abbrev S3200000x2 : Shape := ⟨2, ![3200000, 2]⟩
abbrev S3200000x1 : Shape := ⟨2, ![3200000, 1]⟩

abbrev nBuf : Space → Nat
  | .hbm => 131
  | .vmem => 4
  | .smem => 0
  | _ => 0

abbrev hbmTy0_0 (i : Nat) : BufTy := match i % 128 with
  | 0 => ⟨S12288x12288, .f32⟩
  | 1 => ⟨S12288x12288, .i32⟩
  | 2 => ⟨S_, .i32⟩
  | 3 => ⟨S12288x12288, .i32⟩
  | 4 => ⟨S12288x12288, .i1⟩
  | 5 => ⟨S12288x12288, .i1⟩
  | 6 => ⟨S150994944, .i1⟩
  | 7 => ⟨S150994944, .i32⟩
  | 8 => ⟨S_, .i32⟩
  | 9 => ⟨S_, .i32⟩
  | 10 => ⟨S150994944, .i32⟩
  | 11 => ⟨S_, .i32⟩
  | 12 => ⟨S3200000, .i32⟩
  | 13 => ⟨S_, .i32⟩
  | 14 => ⟨S_, .i32⟩
  | 15 => ⟨S150994944, .i32⟩
  | 16 => ⟨S150994944, .i32⟩
  | 17 => ⟨S_, .i32⟩
  | 18 => ⟨S150994944, .i32⟩
  | 19 => ⟨S150994944, .i1⟩
  | 20 => ⟨S_, .i32⟩
  | 21 => ⟨S150994944, .i32⟩
  | 22 => ⟨S150994944, .i32⟩
  | 23 => ⟨S150994944, .i32⟩
  | 24 => ⟨S150994944x1, .i32⟩
  | 25 => ⟨S_, .i32⟩
  | 26 => ⟨S150994944, .i32⟩
  | 27 => ⟨S3200000, .i32⟩
  | 28 => ⟨S_, .i32⟩
  | 29 => ⟨S_, .i32⟩
  | 30 => ⟨S3200000, .i32⟩
  | 31 => ⟨S_, .i32⟩
  | 32 => ⟨S3200000, .i32⟩
  | 33 => ⟨S3200000, .i32⟩
  | 34 => ⟨S3200000, .i32⟩
  | 35 => ⟨S_, .i32⟩
  | 36 => ⟨S3200000, .i32⟩
  | 37 => ⟨S3200000, .i1⟩
  | 38 => ⟨S3200000, .i32⟩
  | 39 => ⟨S3200000, .i32⟩
  | 40 => ⟨S_, .i32⟩
  | 41 => ⟨S3200000, .i32⟩
  | 42 => ⟨S3200000, .i1⟩
  | 43 => ⟨S3200000, .i1⟩
  | 44 => ⟨S_, .i32⟩
  | 45 => ⟨S3200000, .i32⟩
  | 46 => ⟨S3200000, .i32⟩
  | 47 => ⟨S3200000, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S3200000, .i32⟩
  | 55 => ⟨S3200000, .i32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i1⟩
  | 62 => ⟨S_, .i32⟩
  | 63 => ⟨S_, .i1⟩
  | 64 => ⟨S3200000, .i1⟩
  | 65 => ⟨S3200000, .i1⟩
  | 66 => ⟨S3200000, .i1⟩
  | 67 => ⟨S3200000, .i32⟩
  | 68 => ⟨S3200000, .i32⟩
  | 69 => ⟨S3200000, .i32⟩
  | 70 => ⟨S_, .i32⟩
  | 71 => ⟨S3200000, .i32⟩
  | 72 => ⟨S3200000, .i32⟩
  | 73 => ⟨S3200000, .i32⟩
  | 74 => ⟨S_, .i32⟩
  | 75 => ⟨S3200000, .i32⟩
  | 76 => ⟨S3200000, .i1⟩
  | 77 => ⟨S3200000, .i32⟩
  | 78 => ⟨S3200000, .i32⟩
  | 79 => ⟨S_, .i32⟩
  | 80 => ⟨S3200000, .i32⟩
  | 81 => ⟨S3200000, .i1⟩
  | 82 => ⟨S3200000, .i1⟩
  | 83 => ⟨S_, .i32⟩
  | 84 => ⟨S3200000, .i32⟩
  | 85 => ⟨S3200000, .i32⟩
  | 86 => ⟨S3200000, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S3200000, .i32⟩
  | 94 => ⟨S3200000, .i32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i1⟩
  | 101 => ⟨S_, .i32⟩
  | 102 => ⟨S_, .i1⟩
  | 103 => ⟨S3200000, .i1⟩
  | 104 => ⟨S3200000, .i1⟩
  | 105 => ⟨S3200000, .i1⟩
  | 106 => ⟨S3200000, .i32⟩
  | 107 => ⟨S3200000, .i32⟩
  | 108 => ⟨S3200000, .i32⟩
  | 109 => ⟨S3200000, .i32⟩
  | 110 => ⟨S12288x12288, .i32⟩
  | 111 => ⟨S_, .i32⟩
  | 112 => ⟨S_, .i32⟩
  | 113 => ⟨S3200000, .i32⟩
  | 114 => ⟨S3200000, .i1⟩
  | 115 => ⟨S_, .i32⟩
  | 116 => ⟨S_, .i32⟩
  | 117 => ⟨S3200000, .i32⟩
  | 118 => ⟨S3200000, .i32⟩
  | 119 => ⟨S_, .i32⟩
  | 120 => ⟨S_, .i32⟩
  | 121 => ⟨S3200000, .i32⟩
  | 122 => ⟨S3200000, .i32⟩
  | 123 => ⟨S1x3200000, .i32⟩
  | 124 => ⟨S1x3200000, .i32⟩
  | 125 => ⟨S2x3200000, .i32⟩
  | 126 => ⟨S3200000x2, .i32⟩
  | 127 => ⟨S3200000x1, .i32⟩
  | _ => ⟨S12288x12288, .f32⟩

abbrev hbmTy0_1 (i : Nat) : BufTy := match i % 128 with
  | 0 => ⟨S3200000, .i32⟩
  | 1 => ⟨S3200000x1, .i32⟩
  | 2 => ⟨S3200000, .i32⟩
  | _ => ⟨S12288x12288, .f32⟩

abbrev hbmTy (i : Nat) : BufTy := match i / 128 with
  | 0 => hbmTy0_0 i
  | 1 => hbmTy0_1 i
  | _ => ⟨S12288x12288, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S1024x2048, .i32⟩
  | .local _ .vmem, ⟨3, _⟩ => ⟨S1024x2048, .i32⟩
  | _, _ => ⟨S12288x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call1_v0 : Ref sig .tc := ⟨.hbm, 6, rfl⟩
abbrev main_call1_v1 : Ref sig .tc := ⟨.hbm, 7, rfl⟩
abbrev main_call1_call0_c : Ref sig .tc := ⟨.hbm, 8, rfl⟩
abbrev main_call1_call0_v0 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_c_1 : Ref sig .tc := ⟨.hbm, 13, rfl⟩
abbrev main_call2_v0 : Ref sig .tc := ⟨.hbm, 14, rfl⟩
abbrev main_call2_v1 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_call3_call0_c : Ref sig .tc := ⟨.hbm, 28, rfl⟩
abbrev main_call3_call0_v0 : Ref sig .tc := ⟨.hbm, 29, rfl⟩
abbrev main_v16 : Ref sig .tc := ⟨.hbm, 30, rfl⟩
abbrev main_c_5 : Ref sig .tc := ⟨.hbm, 31, rfl⟩
abbrev main_call4_v0 : Ref sig .tc := ⟨.hbm, 32, rfl⟩
abbrev main_call4_v1 : Ref sig .tc := ⟨.hbm, 33, rfl⟩
abbrev main_call4_v2 : Ref sig .tc := ⟨.hbm, 34, rfl⟩
abbrev main_call4_v3 : Ref sig .tc := ⟨.hbm, 35, rfl⟩
abbrev main_call4_v4 : Ref sig .tc := ⟨.hbm, 36, rfl⟩
abbrev main_call4_v5 : Ref sig .tc := ⟨.hbm, 37, rfl⟩
abbrev main_call4_v6 : Ref sig .tc := ⟨.hbm, 38, rfl⟩
abbrev main_call4_v7 : Ref sig .tc := ⟨.hbm, 39, rfl⟩
abbrev main_call4_c : Ref sig .tc := ⟨.hbm, 40, rfl⟩
abbrev main_call4_v8 : Ref sig .tc := ⟨.hbm, 41, rfl⟩
abbrev main_call4_v9 : Ref sig .tc := ⟨.hbm, 42, rfl⟩
abbrev main_call4_v10 : Ref sig .tc := ⟨.hbm, 43, rfl⟩
abbrev main_call4_c_0 : Ref sig .tc := ⟨.hbm, 44, rfl⟩
abbrev main_call4_v11 : Ref sig .tc := ⟨.hbm, 45, rfl⟩
abbrev main_call4_v12 : Ref sig .tc := ⟨.hbm, 46, rfl⟩
abbrev main_v17 : Ref sig .tc := ⟨.hbm, 47, rfl⟩
abbrev main_c_6 : Ref sig .tc := ⟨.hbm, 48, rfl⟩
abbrev main_call5_v0 : Ref sig .tc := ⟨.hbm, 49, rfl⟩
abbrev main_call5_c : Ref sig .tc := ⟨.hbm, 50, rfl⟩
abbrev main_call5_v1 : Ref sig .tc := ⟨.hbm, 51, rfl⟩
abbrev main_call5_c_0 : Ref sig .tc := ⟨.hbm, 52, rfl⟩
abbrev main_call5_v2 : Ref sig .tc := ⟨.hbm, 53, rfl⟩
abbrev main_call5_v3 : Ref sig .tc := ⟨.hbm, 54, rfl⟩
abbrev main_call5_v4 : Ref sig .tc := ⟨.hbm, 55, rfl⟩
abbrev main_call5_c_1 : Ref sig .tc := ⟨.hbm, 56, rfl⟩
abbrev main_call5_v5 : Ref sig .tc := ⟨.hbm, 57, rfl⟩
abbrev main_call5_v6 : Ref sig .tc := ⟨.hbm, 58, rfl⟩
abbrev main_call5_c_2 : Ref sig .tc := ⟨.hbm, 59, rfl⟩
abbrev main_call5_v7 : Ref sig .tc := ⟨.hbm, 60, rfl⟩
abbrev main_call5_v8 : Ref sig .tc := ⟨.hbm, 61, rfl⟩
abbrev main_call5_c_3 : Ref sig .tc := ⟨.hbm, 62, rfl⟩
abbrev main_call5_v9 : Ref sig .tc := ⟨.hbm, 63, rfl⟩
abbrev main_call5_v10 : Ref sig .tc := ⟨.hbm, 64, rfl⟩
abbrev main_call5_v11 : Ref sig .tc := ⟨.hbm, 65, rfl⟩
abbrev main_call5_v12 : Ref sig .tc := ⟨.hbm, 66, rfl⟩
abbrev main_call5_v13 : Ref sig .tc := ⟨.hbm, 67, rfl⟩
abbrev main_call5_v14 : Ref sig .tc := ⟨.hbm, 68, rfl⟩
abbrev main_v18 : Ref sig .tc := ⟨.hbm, 69, rfl⟩
abbrev main_c_7 : Ref sig .tc := ⟨.hbm, 70, rfl⟩
abbrev main_call6_v0 : Ref sig .tc := ⟨.hbm, 71, rfl⟩
abbrev main_call6_v1 : Ref sig .tc := ⟨.hbm, 72, rfl⟩
abbrev main_call6_v2 : Ref sig .tc := ⟨.hbm, 73, rfl⟩
abbrev main_call6_v3 : Ref sig .tc := ⟨.hbm, 74, rfl⟩
abbrev main_call6_v4 : Ref sig .tc := ⟨.hbm, 75, rfl⟩
abbrev main_call6_v5 : Ref sig .tc := ⟨.hbm, 76, rfl⟩
abbrev main_call6_v6 : Ref sig .tc := ⟨.hbm, 77, rfl⟩
abbrev main_call6_v7 : Ref sig .tc := ⟨.hbm, 78, rfl⟩
abbrev main_call6_c : Ref sig .tc := ⟨.hbm, 79, rfl⟩
abbrev main_call6_v8 : Ref sig .tc := ⟨.hbm, 80, rfl⟩
abbrev main_call6_v9 : Ref sig .tc := ⟨.hbm, 81, rfl⟩
abbrev main_call6_v10 : Ref sig .tc := ⟨.hbm, 82, rfl⟩
abbrev main_call6_c_0 : Ref sig .tc := ⟨.hbm, 83, rfl⟩
abbrev main_call6_v11 : Ref sig .tc := ⟨.hbm, 84, rfl⟩
abbrev main_call6_v12 : Ref sig .tc := ⟨.hbm, 85, rfl⟩
abbrev main_v19 : Ref sig .tc := ⟨.hbm, 86, rfl⟩
abbrev main_c_8 : Ref sig .tc := ⟨.hbm, 87, rfl⟩
abbrev main_call7_v0 : Ref sig .tc := ⟨.hbm, 88, rfl⟩
abbrev main_call7_c : Ref sig .tc := ⟨.hbm, 89, rfl⟩
abbrev main_call7_v1 : Ref sig .tc := ⟨.hbm, 90, rfl⟩
abbrev main_call7_c_0 : Ref sig .tc := ⟨.hbm, 91, rfl⟩
abbrev main_call7_v2 : Ref sig .tc := ⟨.hbm, 92, rfl⟩
abbrev main_call7_v3 : Ref sig .tc := ⟨.hbm, 93, rfl⟩
abbrev main_call7_v4 : Ref sig .tc := ⟨.hbm, 94, rfl⟩
abbrev main_call7_c_1 : Ref sig .tc := ⟨.hbm, 95, rfl⟩
abbrev main_call7_v5 : Ref sig .tc := ⟨.hbm, 96, rfl⟩
abbrev main_call7_v6 : Ref sig .tc := ⟨.hbm, 97, rfl⟩
abbrev main_call7_c_2 : Ref sig .tc := ⟨.hbm, 98, rfl⟩
abbrev main_call7_v7 : Ref sig .tc := ⟨.hbm, 99, rfl⟩
abbrev main_call7_v8 : Ref sig .tc := ⟨.hbm, 100, rfl⟩
abbrev main_call7_c_3 : Ref sig .tc := ⟨.hbm, 101, rfl⟩
abbrev main_call7_v9 : Ref sig .tc := ⟨.hbm, 102, rfl⟩
abbrev main_call7_v10 : Ref sig .tc := ⟨.hbm, 103, rfl⟩
abbrev main_call7_v11 : Ref sig .tc := ⟨.hbm, 104, rfl⟩
abbrev main_call7_v12 : Ref sig .tc := ⟨.hbm, 105, rfl⟩
abbrev main_call7_v13 : Ref sig .tc := ⟨.hbm, 106, rfl⟩
abbrev main_call7_v14 : Ref sig .tc := ⟨.hbm, 107, rfl⟩
abbrev main_v20 : Ref sig .tc := ⟨.hbm, 108, rfl⟩
abbrev main_v21 : Ref sig .tc := ⟨.hbm, 109, rfl⟩
abbrev main_v22 : Ref sig .tc := ⟨.hbm, 110, rfl⟩
abbrev main_c_9 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_c_10 : Ref sig .tc := ⟨.hbm, 115, rfl⟩
abbrev main_call8_v0 : Ref sig .tc := ⟨.hbm, 116, rfl⟩
abbrev main_call8_v1 : Ref sig .tc := ⟨.hbm, 117, rfl⟩
abbrev main_v26 : Ref sig .tc := ⟨.hbm, 118, rfl⟩
abbrev main_c_11 : Ref sig .tc := ⟨.hbm, 119, rfl⟩
abbrev main_call9_v0 : Ref sig .tc := ⟨.hbm, 120, rfl⟩
abbrev main_call9_v1 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![12, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1024x2048_S1024x2048_0_0 : ∀ a, (![0, 0] : Fin 2 → Nat) a + S1024x2048.size a ≤ S1024x2048.size a
  h_S1024x2048 : 0 < S1024x2048.numel
  natLt_1_32 : 1 < 32
  bcast_S_S12288x12288 : S_.BroadcastsInDim S12288x12288 (![] : Fin 0 → Fin S12288x12288.rank)
  shapeCasts_S12288x12288_S150994944 : S12288x12288.ShapeCasts S150994944
  bcast_S_S_ : S_.BroadcastsInDim S_ (![] : Fin 0 → Fin S_.rank)
  reduceWindows_S150994944_S150994944_w150994944s1p150994943_0 : S150994944.ReduceWindows (![150994944] : Fin 1 → Nat) ![1] ![150994943] ![0] S150994944
  h_S_ : 0 < S_.numel
  bcast_S_S3200000 : S_.BroadcastsInDim S3200000 (![] : Fin 0 → Fin S3200000.rank)
  bcast_S_S150994944 : S_.BroadcastsInDim S150994944 (![] : Fin 0 → Fin S150994944.rank)
  bcast_S150994944_S150994944x1_0 : S150994944.BroadcastsInDim S150994944x1 (![0] : Fin 1 → Fin S150994944x1.rank)
  reduceWindows_S3200000_S3200000_w3200000s1p3199999_0 : S3200000.ReduceWindows (![3200000] : Fin 1 → Nat) ![1] ![3199999] ![0] S3200000
  reducesTo_S12288x12288_S_d0_1 : S12288x12288.ReducesTo [0, 1] S_
  bcast_S3200000_S1x3200000_1 : S3200000.BroadcastsInDim S1x3200000 (![1] : Fin 1 → Fin S1x3200000.rank)
  concatenates_S1x3200000_S1x3200000_S2x3200000_d0 : Shape.Concatenates [S1x3200000, S1x3200000] S2x3200000 0
  transposes_S2x3200000_S3200000x2_1_0 : S2x3200000.Transposes [1, 0] S3200000x2
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  scatter_S3200000_S150994944x1_S150994944_n_0_0_1_wf : ScatterDims.WF S3200000 S150994944x1 S150994944 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S12288x12288.size a
  hwx0_0 : ∀ i : grid0.Coords, EltTy.bits .f32 = 32 ∨ (Rect.block (s := S12288x12288) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S12288x12288.size a
  hwx0_1 : ∀ i : grid0.Coords, EltTy.bits .i32 = 32 ∨ (Rect.block (s := S12288x12288) S1024x2048.size (cc0_transform_1 i) (hinb0_1 i)).WholeWords (EltTy.packing .i32)

variable [Facts₀]

def scatter_S3200000_S150994944x1_S150994944_n_0_0_1 : ScatterDims S3200000 S150994944x1 S150994944 where
  updateWindowDims := []
  insertedWindowDims := [0]
  scatterDimsToOperandDims := [0]
  indexVectorDim := 1
  wf := scatter_S3200000_S150994944x1_S150994944_n_0_0_1_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S12288x12288 : Shape := ⟨2, ![12288, 12288]⟩
abbrev S_ : Shape := ⟨0, ![]⟩
abbrev S150994944 : Shape := ⟨1, ![150994944]⟩
abbrev S3200000 : Shape := ⟨1, ![3200000]⟩
abbrev S150994944x1 : Shape := ⟨2, ![150994944, 1]⟩
abbrev S1x3200000 : Shape := ⟨2, ![1, 3200000]⟩
abbrev S2x3200000 : Shape := ⟨2, ![2, 3200000]⟩
abbrev S3200000x2 : Shape := ⟨2, ![3200000, 2]⟩
abbrev S3200000x1 : Shape := ⟨2, ![3200000, 1]⟩

abbrev nBuf : Space → Nat
  | .hbm => 129
  | .vmem => 0
  | .smem => 0
  | _ => 0

abbrev hbmTy0_0 (i : Nat) : BufTy := match i % 128 with
  | 0 => ⟨S12288x12288, .f32⟩
  | 1 => ⟨S_, .f32⟩
  | 2 => ⟨S12288x12288, .f32⟩
  | 3 => ⟨S12288x12288, .i1⟩
  | 4 => ⟨S150994944, .i1⟩
  | 5 => ⟨S150994944, .i32⟩
  | 6 => ⟨S_, .i32⟩
  | 7 => ⟨S_, .i32⟩
  | 8 => ⟨S150994944, .i32⟩
  | 9 => ⟨S_, .i32⟩
  | 10 => ⟨S3200000, .i32⟩
  | 11 => ⟨S_, .i32⟩
  | 12 => ⟨S_, .i32⟩
  | 13 => ⟨S150994944, .i32⟩
  | 14 => ⟨S150994944, .i32⟩
  | 15 => ⟨S_, .i32⟩
  | 16 => ⟨S150994944, .i32⟩
  | 17 => ⟨S150994944, .i1⟩
  | 18 => ⟨S_, .i32⟩
  | 19 => ⟨S150994944, .i32⟩
  | 20 => ⟨S150994944, .i32⟩
  | 21 => ⟨S150994944, .i32⟩
  | 22 => ⟨S150994944x1, .i32⟩
  | 23 => ⟨S_, .i32⟩
  | 24 => ⟨S150994944, .i32⟩
  | 25 => ⟨S3200000, .i32⟩
  | 26 => ⟨S_, .i32⟩
  | 27 => ⟨S_, .i32⟩
  | 28 => ⟨S3200000, .i32⟩
  | 29 => ⟨S_, .i32⟩
  | 30 => ⟨S3200000, .i32⟩
  | 31 => ⟨S3200000, .i32⟩
  | 32 => ⟨S3200000, .i32⟩
  | 33 => ⟨S_, .i32⟩
  | 34 => ⟨S3200000, .i32⟩
  | 35 => ⟨S3200000, .i1⟩
  | 36 => ⟨S3200000, .i32⟩
  | 37 => ⟨S3200000, .i32⟩
  | 38 => ⟨S_, .i32⟩
  | 39 => ⟨S3200000, .i32⟩
  | 40 => ⟨S3200000, .i1⟩
  | 41 => ⟨S3200000, .i1⟩
  | 42 => ⟨S_, .i32⟩
  | 43 => ⟨S3200000, .i32⟩
  | 44 => ⟨S3200000, .i32⟩
  | 45 => ⟨S3200000, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S3200000, .i32⟩
  | 53 => ⟨S3200000, .i32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i1⟩
  | 60 => ⟨S_, .i32⟩
  | 61 => ⟨S_, .i1⟩
  | 62 => ⟨S3200000, .i1⟩
  | 63 => ⟨S3200000, .i1⟩
  | 64 => ⟨S3200000, .i1⟩
  | 65 => ⟨S3200000, .i32⟩
  | 66 => ⟨S3200000, .i32⟩
  | 67 => ⟨S3200000, .i32⟩
  | 68 => ⟨S_, .i32⟩
  | 69 => ⟨S3200000, .i32⟩
  | 70 => ⟨S3200000, .i32⟩
  | 71 => ⟨S3200000, .i32⟩
  | 72 => ⟨S_, .i32⟩
  | 73 => ⟨S3200000, .i32⟩
  | 74 => ⟨S3200000, .i1⟩
  | 75 => ⟨S3200000, .i32⟩
  | 76 => ⟨S3200000, .i32⟩
  | 77 => ⟨S_, .i32⟩
  | 78 => ⟨S3200000, .i32⟩
  | 79 => ⟨S3200000, .i1⟩
  | 80 => ⟨S3200000, .i1⟩
  | 81 => ⟨S_, .i32⟩
  | 82 => ⟨S3200000, .i32⟩
  | 83 => ⟨S3200000, .i32⟩
  | 84 => ⟨S3200000, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S3200000, .i32⟩
  | 92 => ⟨S3200000, .i32⟩
  | 93 => ⟨S_, .i32⟩
  | 94 => ⟨S3200000, .i32⟩
  | 95 => ⟨S3200000, .i1⟩
  | 96 => ⟨S_, .i32⟩
  | 97 => ⟨S3200000, .i32⟩
  | 98 => ⟨S3200000, .i1⟩
  | 99 => ⟨S_, .i32⟩
  | 100 => ⟨S_, .i1⟩
  | 101 => ⟨S3200000, .i1⟩
  | 102 => ⟨S3200000, .i1⟩
  | 103 => ⟨S3200000, .i1⟩
  | 104 => ⟨S3200000, .i32⟩
  | 105 => ⟨S3200000, .i32⟩
  | 106 => ⟨S3200000, .i32⟩
  | 107 => ⟨S3200000, .i32⟩
  | 108 => ⟨S12288x12288, .i32⟩
  | 109 => ⟨S_, .i32⟩
  | 110 => ⟨S_, .i32⟩
  | 111 => ⟨S3200000, .i32⟩
  | 112 => ⟨S3200000, .i1⟩
  | 113 => ⟨S_, .i32⟩
  | 114 => ⟨S_, .i32⟩
  | 115 => ⟨S3200000, .i32⟩
  | 116 => ⟨S3200000, .i32⟩
  | 117 => ⟨S_, .i32⟩
  | 118 => ⟨S_, .i32⟩
  | 119 => ⟨S3200000, .i32⟩
  | 120 => ⟨S3200000, .i32⟩
  | 121 => ⟨S1x3200000, .i32⟩
  | 122 => ⟨S1x3200000, .i32⟩
  | 123 => ⟨S2x3200000, .i32⟩
  | 124 => ⟨S3200000x2, .i32⟩
  | 125 => ⟨S3200000x1, .i32⟩
  | 126 => ⟨S3200000, .i32⟩
  | 127 => ⟨S3200000x1, .i32⟩
  | _ => ⟨S12288x12288, .f32⟩

abbrev hbmTy0_1 (i : Nat) : BufTy := match i % 128 with
  | 0 => ⟨S3200000, .i32⟩
  | _ => ⟨S12288x12288, .f32⟩

abbrev hbmTy (i : Nat) : BufTy := match i / 128 with
  | 0 => hbmTy0_0 i
  | 1 => hbmTy0_1 i
  | _ => ⟨S12288x12288, .f32⟩

abbrev bufTy : (tb : Table) → Fin (tcTables nBuf tb) → BufTy
  | .hbm, ⟨i, _⟩ => hbmTy i
  | _, _ => ⟨S12288x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call1_v0 : Ref sig .tc := ⟨.hbm, 4, rfl⟩
abbrev main_call1_v1 : Ref sig .tc := ⟨.hbm, 5, rfl⟩
abbrev main_call1_call0_c : Ref sig .tc := ⟨.hbm, 6, rfl⟩
abbrev main_call1_call0_v0 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_c_0 : Ref sig .tc := ⟨.hbm, 11, rfl⟩
abbrev main_call2_v0 : Ref sig .tc := ⟨.hbm, 12, rfl⟩
abbrev main_call2_v1 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_call3_call0_c : Ref sig .tc := ⟨.hbm, 26, rfl⟩
abbrev main_call3_call0_v0 : Ref sig .tc := ⟨.hbm, 27, rfl⟩
abbrev main_v14 : Ref sig .tc := ⟨.hbm, 28, rfl⟩
abbrev main_c_4 : Ref sig .tc := ⟨.hbm, 29, rfl⟩
abbrev main_call4_v0 : Ref sig .tc := ⟨.hbm, 30, rfl⟩
abbrev main_call4_v1 : Ref sig .tc := ⟨.hbm, 31, rfl⟩
abbrev main_call4_v2 : Ref sig .tc := ⟨.hbm, 32, rfl⟩
abbrev main_call4_v3 : Ref sig .tc := ⟨.hbm, 33, rfl⟩
abbrev main_call4_v4 : Ref sig .tc := ⟨.hbm, 34, rfl⟩
abbrev main_call4_v5 : Ref sig .tc := ⟨.hbm, 35, rfl⟩
abbrev main_call4_v6 : Ref sig .tc := ⟨.hbm, 36, rfl⟩
abbrev main_call4_v7 : Ref sig .tc := ⟨.hbm, 37, rfl⟩
abbrev main_call4_c : Ref sig .tc := ⟨.hbm, 38, rfl⟩
abbrev main_call4_v8 : Ref sig .tc := ⟨.hbm, 39, rfl⟩
abbrev main_call4_v9 : Ref sig .tc := ⟨.hbm, 40, rfl⟩
abbrev main_call4_v10 : Ref sig .tc := ⟨.hbm, 41, rfl⟩
abbrev main_call4_c_0 : Ref sig .tc := ⟨.hbm, 42, rfl⟩
abbrev main_call4_v11 : Ref sig .tc := ⟨.hbm, 43, rfl⟩
abbrev main_call4_v12 : Ref sig .tc := ⟨.hbm, 44, rfl⟩
abbrev main_v15 : Ref sig .tc := ⟨.hbm, 45, rfl⟩
abbrev main_c_5 : Ref sig .tc := ⟨.hbm, 46, rfl⟩
abbrev main_call5_v0 : Ref sig .tc := ⟨.hbm, 47, rfl⟩
abbrev main_call5_c : Ref sig .tc := ⟨.hbm, 48, rfl⟩
abbrev main_call5_v1 : Ref sig .tc := ⟨.hbm, 49, rfl⟩
abbrev main_call5_c_0 : Ref sig .tc := ⟨.hbm, 50, rfl⟩
abbrev main_call5_v2 : Ref sig .tc := ⟨.hbm, 51, rfl⟩
abbrev main_call5_v3 : Ref sig .tc := ⟨.hbm, 52, rfl⟩
abbrev main_call5_v4 : Ref sig .tc := ⟨.hbm, 53, rfl⟩
abbrev main_call5_c_1 : Ref sig .tc := ⟨.hbm, 54, rfl⟩
abbrev main_call5_v5 : Ref sig .tc := ⟨.hbm, 55, rfl⟩
abbrev main_call5_v6 : Ref sig .tc := ⟨.hbm, 56, rfl⟩
abbrev main_call5_c_2 : Ref sig .tc := ⟨.hbm, 57, rfl⟩
abbrev main_call5_v7 : Ref sig .tc := ⟨.hbm, 58, rfl⟩
abbrev main_call5_v8 : Ref sig .tc := ⟨.hbm, 59, rfl⟩
abbrev main_call5_c_3 : Ref sig .tc := ⟨.hbm, 60, rfl⟩
abbrev main_call5_v9 : Ref sig .tc := ⟨.hbm, 61, rfl⟩
abbrev main_call5_v10 : Ref sig .tc := ⟨.hbm, 62, rfl⟩
abbrev main_call5_v11 : Ref sig .tc := ⟨.hbm, 63, rfl⟩
abbrev main_call5_v12 : Ref sig .tc := ⟨.hbm, 64, rfl⟩
abbrev main_call5_v13 : Ref sig .tc := ⟨.hbm, 65, rfl⟩
abbrev main_call5_v14 : Ref sig .tc := ⟨.hbm, 66, rfl⟩
abbrev main_v16 : Ref sig .tc := ⟨.hbm, 67, rfl⟩
abbrev main_c_6 : Ref sig .tc := ⟨.hbm, 68, rfl⟩
abbrev main_call6_v0 : Ref sig .tc := ⟨.hbm, 69, rfl⟩
abbrev main_call6_v1 : Ref sig .tc := ⟨.hbm, 70, rfl⟩
abbrev main_call6_v2 : Ref sig .tc := ⟨.hbm, 71, rfl⟩
abbrev main_call6_v3 : Ref sig .tc := ⟨.hbm, 72, rfl⟩
abbrev main_call6_v4 : Ref sig .tc := ⟨.hbm, 73, rfl⟩
abbrev main_call6_v5 : Ref sig .tc := ⟨.hbm, 74, rfl⟩
abbrev main_call6_v6 : Ref sig .tc := ⟨.hbm, 75, rfl⟩
abbrev main_call6_v7 : Ref sig .tc := ⟨.hbm, 76, rfl⟩
abbrev main_call6_c : Ref sig .tc := ⟨.hbm, 77, rfl⟩
abbrev main_call6_v8 : Ref sig .tc := ⟨.hbm, 78, rfl⟩
abbrev main_call6_v9 : Ref sig .tc := ⟨.hbm, 79, rfl⟩
abbrev main_call6_v10 : Ref sig .tc := ⟨.hbm, 80, rfl⟩
abbrev main_call6_c_0 : Ref sig .tc := ⟨.hbm, 81, rfl⟩
abbrev main_call6_v11 : Ref sig .tc := ⟨.hbm, 82, rfl⟩
abbrev main_call6_v12 : Ref sig .tc := ⟨.hbm, 83, rfl⟩
abbrev main_v17 : Ref sig .tc := ⟨.hbm, 84, rfl⟩
abbrev main_c_7 : Ref sig .tc := ⟨.hbm, 85, rfl⟩
abbrev main_call7_v0 : Ref sig .tc := ⟨.hbm, 86, rfl⟩
abbrev main_call7_c : Ref sig .tc := ⟨.hbm, 87, rfl⟩
abbrev main_call7_v1 : Ref sig .tc := ⟨.hbm, 88, rfl⟩
abbrev main_call7_c_0 : Ref sig .tc := ⟨.hbm, 89, rfl⟩
abbrev main_call7_v2 : Ref sig .tc := ⟨.hbm, 90, rfl⟩
abbrev main_call7_v3 : Ref sig .tc := ⟨.hbm, 91, rfl⟩
abbrev main_call7_v4 : Ref sig .tc := ⟨.hbm, 92, rfl⟩
abbrev main_call7_c_1 : Ref sig .tc := ⟨.hbm, 93, rfl⟩
abbrev main_call7_v5 : Ref sig .tc := ⟨.hbm, 94, rfl⟩
abbrev main_call7_v6 : Ref sig .tc := ⟨.hbm, 95, rfl⟩
abbrev main_call7_c_2 : Ref sig .tc := ⟨.hbm, 96, rfl⟩
abbrev main_call7_v7 : Ref sig .tc := ⟨.hbm, 97, rfl⟩
abbrev main_call7_v8 : Ref sig .tc := ⟨.hbm, 98, rfl⟩
abbrev main_call7_c_3 : Ref sig .tc := ⟨.hbm, 99, rfl⟩
abbrev main_call7_v9 : Ref sig .tc := ⟨.hbm, 100, rfl⟩
abbrev main_call7_v10 : Ref sig .tc := ⟨.hbm, 101, rfl⟩
abbrev main_call7_v11 : Ref sig .tc := ⟨.hbm, 102, rfl⟩
abbrev main_call7_v12 : Ref sig .tc := ⟨.hbm, 103, rfl⟩
abbrev main_call7_v13 : Ref sig .tc := ⟨.hbm, 104, rfl⟩
abbrev main_call7_v14 : Ref sig .tc := ⟨.hbm, 105, rfl⟩
abbrev main_v18 : Ref sig .tc := ⟨.hbm, 106, rfl⟩
abbrev main_v19 : Ref sig .tc := ⟨.hbm, 107, rfl⟩
abbrev main_v20 : Ref sig .tc := ⟨.hbm, 108, rfl⟩
abbrev main_c_8 : Ref sig .tc := ⟨.hbm, 109, rfl⟩
abbrev main_v21 : Ref sig .tc := ⟨.hbm, 110, rfl⟩
abbrev main_v22 : Ref sig .tc := ⟨.hbm, 111, rfl⟩
abbrev main_v23 : Ref sig .tc := ⟨.hbm, 112, rfl⟩
abbrev main_c_9 : Ref sig .tc := ⟨.hbm, 113, rfl⟩
abbrev main_call8_v0 : Ref sig .tc := ⟨.hbm, 114, rfl⟩
abbrev main_call8_v1 : Ref sig .tc := ⟨.hbm, 115, rfl⟩
abbrev main_v24 : Ref sig .tc := ⟨.hbm, 116, rfl⟩
abbrev main_c_10 : Ref sig .tc := ⟨.hbm, 117, rfl⟩
abbrev main_call9_v0 : Ref sig .tc := ⟨.hbm, 118, rfl⟩
abbrev main_call9_v1 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩

abbrev nD : Nat := 1
abbrev τ : Topo := Topo.v7x

variable {F : FTy → Type} [FloatOps F]

class Facts₀ : Prop where
  bcast_S_S12288x12288 : S_.BroadcastsInDim S12288x12288 (![] : Fin 0 → Fin S12288x12288.rank)
  shapeCasts_S12288x12288_S150994944 : S12288x12288.ShapeCasts S150994944
  natLt_1_32 : 1 < 32
  bcast_S_S_ : S_.BroadcastsInDim S_ (![] : Fin 0 → Fin S_.rank)
  reduceWindows_S150994944_S150994944_w150994944s1p150994943_0 : S150994944.ReduceWindows (![150994944] : Fin 1 → Nat) ![1] ![150994943] ![0] S150994944
  h_S_ : 0 < S_.numel
  bcast_S_S3200000 : S_.BroadcastsInDim S3200000 (![] : Fin 0 → Fin S3200000.rank)
  bcast_S_S150994944 : S_.BroadcastsInDim S150994944 (![] : Fin 0 → Fin S150994944.rank)
  bcast_S150994944_S150994944x1_0 : S150994944.BroadcastsInDim S150994944x1 (![0] : Fin 1 → Fin S150994944x1.rank)
  reduceWindows_S3200000_S3200000_w3200000s1p3199999_0 : S3200000.ReduceWindows (![3200000] : Fin 1 → Nat) ![1] ![3199999] ![0] S3200000
  reducesTo_S12288x12288_S_d0_1 : S12288x12288.ReducesTo [0, 1] S_
  bcast_S3200000_S1x3200000_1 : S3200000.BroadcastsInDim S1x3200000 (![1] : Fin 1 → Fin S1x3200000.rank)
  concatenates_S1x3200000_S1x3200000_S2x3200000_d0 : Shape.Concatenates [S1x3200000, S1x3200000] S2x3200000 0
  transposes_S2x3200000_S3200000x2_1_0 : S2x3200000.Transposes [1, 0] S3200000x2
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  scatter_S3200000_S150994944x1_S150994944_n_0_0_1_wf : ScatterDims.WF S3200000 S150994944x1 S150994944 [] [0] [0] 1

variable [Facts₀]

def scatter_S3200000_S150994944x1_S150994944_n_0_0_1 : ScatterDims S3200000 S150994944x1 S150994944 where
  updateWindowDims := []
  insertedWindowDims := [0]
  scatterDimsToOperandDims := [0]
  indexVectorDim := 1
  wf := scatter_S3200000_S150994944x1_S150994944_n_0_0_1_wf

class Facts : Prop extends Facts₀ where

variable [Facts]
-- ==== Proof.KData.lean ====
/-
  The proof data of the thresholding kernel's one region, at any float instance.

  The region walks a 12 × 6 grid of 1024 × 2048 tiles.  At a point it is handed the tile of the distance matrix
  (window 0) and leaves in the tile of the word matrix (window 1) the words `extui (x < r0)` of that tile: one
  store through the whole rectangle, whose payload is a pointwise function of the input tile only.  (The body also
  loads the output tile, into a value nothing reads.)  No host line stands before the region, so the arrays the
  region finds are the launch contents.
-/
import proofs.«180157_j7541962572511_2_alg».proof.Proof.Gen.KernelIdeal.Launch
import proofs.«180157_j7541962572511_2_alg».proof.Proof.Gen.KernelIdeal.Skeleton
import proofs.«180157_j7541962572511_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The host lines after the region, stretch by stretch: the words to a mask, then the positions of its true entries. -/
abbrev opss : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16, hostOps1_17, hostOps1_18,
   hostOps1_19, hostOps1_20]

/-- Core `c`'s buffer contents when the region is entered: nothing runs before it, so the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The region finds the distance matrix as launched. -/
theorem V_main_arg0 (c : Dev nD) : V m c main_arg0 = m ((c : Thread nD τ).loc main_arg0) := rfl

/-- Window `w`'s tile at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The one rectangle the body loads and stores through: the whole tile. -/
abbrev r0_0 : Rect S1024x2048 := Rect.unit (s := S1024x2048) ![0, 0] S1024x2048.size inb_S1024x2048_S1024x2048_0_0

/-- What the body leaves in the output tile, from the input tile: its one store, whole. -/
def out0_1 (x0 : Vec F S1024x2048 .f32) : Vec F S1024x2048 .i32 :=
  View.canon [⟨r0_0, k0_pay1 (View.ld x0 r0_0)⟩]

/-- The proof data of the region on core `c`: the arrays as launched; after the body at point `t` the input's buffer
    at its tile and the output's at `out0_1` of that tile; nothing of the core's own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

end Cert.KernelIdeal.HFrame

end
-- ==== Proof.KFrameI.lean ====
/-
  The frame run of the thresholding kernel's program.

  The program is one region followed by straight lines of host operations.  The region walks a 12 × 6 grid; at a
  point it is handed one 1024 × 2048 tile of the distance matrix (window 0) and one tile of the word matrix
  (window 1).  The body reads the input tile whole, reads the output tile whole into a value nothing uses, and
  stores through the whole rectangle the words `extui (x < r0)` of the input tile: after it the input tile is
  as it was and the output tile is a pointwise function of the input tile only.  Every host line after the region
  writes a buffer of its own, never the distance matrix nor the word matrix, and allocates nothing; so the run
  ends with the distance matrix as launched.
-/
import proofs.«180157_j7541962572511_2_alg».proof.Proof.KData

set_option maxRecDepth 16384

noncomputable section

namespace Cert.KernelIdeal.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- The one store goes through the whole tile, so it covers it. -/
theorem cover0_1 (p0 : Vec F S1024x2048 .i32) (y : S1024x2048.Idx) :
    ∃ pc ∈ ([⟨r0_0, p0⟩] : List (View.Piece (Elt F) S1024x2048 .i32)), y ∈ pc.1.set :=
  View.cover_of_tiled [⟨r0_0, p0⟩] S1024x2048.size (by rfl) y

set_option maxHeartbeats 1000000 in
/-- The body on whole staging memrefs, the input's at contents `x0` and the output's at anything, runs to the
    continuation holding the input's as it was and the output's at `out0_1 x0`: the load of the output tile binds a
    value nothing reads, and the one store overwrites every element. -/
theorem sound_kernel (c : Dev nD) (E : Set ℕ) (i : grid0.Coords) (arg2 : Memref sig .tc .vmem S1024x2048 .f32) (harg2 : arg2.IsWhole)
    (arg3 : Memref sig .tc .vmem S1024x2048 .i32) (harg3 : arg3.IsWhole)
    (x0 : Vec F S1024x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__threshold_kernel i arg2 harg2 arg3 harg3) K := by
  simp only [cc0__threshold_kernel_eq_skeleton]; unfold cc0__threshold_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The input tile at a point -/

/-- The input window's current staging buffer holds its tile at every point, fetched there or not, for any proof
    data whose array is the region-entry contents and whose body leaves the tile in place: the window is never cut
    and never idle, so what is staged is what the array holds there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`: the invariant, nothing owed, the input's staging buffer at its tile and
    the output's at whatever it holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: the same with each staging buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its tile, so `sound_kernel` applies; the invariant and what is
    owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The lines after the region

Each line is one operation that reads some buffers and writes its own result buffer.  Three facts are needed of every
one of them: it allocates nothing; its buffers are unscoped TensorCore references; and its result buffer is neither
the distance matrix nor the word matrix (it may READ the word matrix: the first stretch does). -/
theorem hostOps1_fresh : (hostOps1 : List (HloOp τ sig (Elt F))).Forall fun op => op.fresh = ∅ := by
  simp only [List.Forall]; repeat' constructor
theorem hostOps1_keeps : (hostOps1 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_fresh : (hostOps1_7 : List (HloOp τ sig (Elt F))).Forall fun op => op.fresh = ∅ := by
  simp only [List.Forall]; repeat' constructor
theorem hostOps1_7_keeps : (hostOps1_7 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_fresh : (hostOps1_8 : List (HloOp τ sig (Elt F))).Forall fun op => op.fresh = ∅ := by
  simp only [List.Forall]; repeat' constructor
theorem hostOps1_8_keeps : (hostOps1_8 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_fresh : (hostOps1_9 : List (HloOp τ sig (Elt F))).Forall fun op => op.fresh = ∅ := by
  simp only [List.Forall]; repeat' constructor
theorem hostOps1_9_keeps : (hostOps1_9 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_fresh : (hostOps1_10 : List (HloOp τ sig (Elt F))).Forall fun op => op.fresh = ∅ := by
  simp only [List.Forall]; repeat' constructor
theorem hostOps1_10_keeps : (hostOps1_10 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_11_fresh : (hostOps1_11 : List (HloOp τ sig (Elt F))).Forall fun op => op.fresh = ∅ := by
  simp only [List.Forall]; repeat' constructor
theorem hostOps1_11_keeps : (hostOps1_11 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_12_fresh : (hostOps1_12 : List (HloOp τ sig (Elt F))).Forall fun op => op.fresh = ∅ := by
  simp only [List.Forall]; repeat' constructor
theorem hostOps1_12_keeps : (hostOps1_12 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_13_fresh : (hostOps1_13 : List (HloOp τ sig (Elt F))).Forall fun op => op.fresh = ∅ := by
  simp only [List.Forall]; repeat' constructor
theorem hostOps1_13_keeps : (hostOps1_13 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_14_fresh : (hostOps1_14 : List (HloOp τ sig (Elt F))).Forall fun op => op.fresh = ∅ := by
  simp only [List.Forall]; repeat' constructor
theorem hostOps1_14_keeps : (hostOps1_14 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_15_fresh : (hostOps1_15 : List (HloOp τ sig (Elt F))).Forall fun op => op.fresh = ∅ := by
  simp only [List.Forall]; repeat' constructor
theorem hostOps1_15_keeps : (hostOps1_15 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_16_fresh : (hostOps1_16 : List (HloOp τ sig (Elt F))).Forall fun op => op.fresh = ∅ := by
  simp only [List.Forall]; repeat' constructor
theorem hostOps1_16_keeps : (hostOps1_16 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_17_fresh : (hostOps1_17 : List (HloOp τ sig (Elt F))).Forall fun op => op.fresh = ∅ := by
  simp only [List.Forall]; repeat' constructor
theorem hostOps1_17_keeps : (hostOps1_17 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_18_fresh : (hostOps1_18 : List (HloOp τ sig (Elt F))).Forall fun op => op.fresh = ∅ := by
  simp only [List.Forall]; repeat' constructor
theorem hostOps1_18_keeps : (hostOps1_18 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_19_fresh : (hostOps1_19 : List (HloOp τ sig (Elt F))).Forall fun op => op.fresh = ∅ := by
  simp only [List.Forall]; repeat' constructor
theorem hostOps1_19_keeps : (hostOps1_19 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_20_fresh : (hostOps1_20 : List (HloOp τ sig (Elt F))).Forall fun op => op.fresh = ∅ := by
  simp only [List.Forall]; repeat' constructor
theorem hostOps1_20_keeps : (hostOps1_20 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-! ## @main around the region -/

/-- @main is the region and then the host lines: holding the boundary and the unscoped buffers at the launch contents it
    reduces to the region continued by those lines (nothing runs before the region, so the region finds the launch
    contents). -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opss : List (List (HloOp τ sig (Elt F)))).map StableHlo.seq)) :=
  Pipeline.hmain_around cfgs 0 defs₀ 𝒱₀ m main [] opss (by simp only [List.Forall]) (by simp only [List.Forall]) main_chain

/-- Neither array of the region is the result buffer of any line of any stretch. -/
theorem opss_keeps : ∀ ops ∈ (opss : List (List (HloOp τ sig (Elt F)))), ∀ op ∈ ops,
    Proc.devRef .tc main_arg0 ∉ op.writes ∧ Proc.devRef .tc main_v0 ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop
  · exact (List.forall_iff_forall_mem.mp hostOps1_15_keeps) op hop
  · exact (List.forall_iff_forall_mem.mp hostOps1_16_keeps) op hop
  · exact (List.forall_iff_forall_mem.mp hostOps1_17_keeps) op hop
  · exact (List.forall_iff_forall_mem.mp hostOps1_18_keeps) op hop
  · exact (List.forall_iff_forall_mem.mp hostOps1_19_keeps) op hop
  · exact (List.forall_iff_forall_mem.mp hostOps1_20_keeps) op hop

/-- The lines touch the region's arrays and the bypassing buffers only: each operation's buffers are unscoped TensorCore
    references, and with nothing prefetched every such reference is one or the other. -/
theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)

/-- They allocate nothing. -/
theorem sfx_fresh : ∀ ops ∈ (opss : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop

/-- And write no array of the region: window 0's array is the distance matrix, window 1's the word matrix. -/
theorem sfx_keeps : ∀ ops ∈ (opss : List (List (HloOp τ sig (Elt F)))), ∀ op ∈ ops,
    ∀ w, Proc.devRef .tc (Pipeline.arrRef spec0 w) ∉ op.writes := by
  intro ops hops op hop w
  have h := opss_keeps ops hops op hop
  fin_cases w
  · exact h.1
  · exact h.2

/-- After the lines the distance matrix is as launched, for any proof data whose arrays are the region-entry contents: no
    line writes it, the region leaves an input's array as it found it, and nothing runs before the region. -/
theorem W_main_arg0 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) opss c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact (opss_keeps ops hops op hop').1)]
  exact (Pipeline.withArrays_arr spec0 launch0.win.arr_inj c (V0 m c) _ 0).trans
    (((dats' 0 c).arrAt_in 0 rfl _).trans ((hA c 0).trans (V_main_arg0 m c)))

/-! ## The run and the frame -/

set_option backward.isDefEq.respectTransparency.types false in
/-- From any memory with zero counters, every weakly fair execution of @main on the TensorCores terminates, and every
    final state has each array of the region at what the library computes from the proof data and every other unscoped
    buffer as the lines after the region leave it. -/
theorem run_main : θ_run defs (onTc (τ := τ) (main (F := F))) (s₀ m ρ) (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl)

/-- What the frame run's post says of the distance matrix: it is window 0's array, an input, which the region never writes
    back; so it ends at the region-entry contents, and those are the launch contents. -/
theorem kept_arg0 (r : PUnit × MemSt nD τ sig (Elt F))
    (h : Pipeline.FramePost cfgs (dats m) 0 (Pipeline.afterTail₀ cfgs (dats m) 0 (V0 m) opss) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- The frame: the run ends with the distance matrix as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_arg0 m r h c) (run_main m ρ)

end Cert.KernelIdeal.HFrame

end
-- ==== Proof.KDataB.lean ====
/-
  The proof data of the thresholding kernel's one region, for the program as printed at the word level
  (the same text as the idealized program, in its own namespace), at any float instance.

  The region walks a 12 × 6 grid of 1024 × 2048 tiles.  At a point it is handed the tile of the distance matrix
  (window 0) and leaves in the tile of the word matrix (window 1) the words `extui (x < r0)` of that tile: one
  store through the whole rectangle, whose payload is a pointwise function of the input tile only.  (The body also
  loads the output tile, into a value nothing reads.)  No host line stands before the region, so the arrays the
  region finds are the launch contents.
-/
import proofs.«180157_j7541962572511_2_alg».proof.Proof.Gen.Kernel.Launch
import proofs.«180157_j7541962572511_2_alg».proof.Proof.Gen.Kernel.Skeleton
import proofs.«180157_j7541962572511_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The host lines after the region, stretch by stretch: the words to a mask, then the positions of its true entries. -/
abbrev opss : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16, hostOps1_17, hostOps1_18,
   hostOps1_19, hostOps1_20]

/-- Core `c`'s buffer contents when the region is entered: nothing runs before it, so the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The region finds the distance matrix as launched. -/
theorem V_main_arg0 (c : Dev nD) : V m c main_arg0 = m ((c : Thread nD τ).loc main_arg0) := rfl

/-- Window `w`'s tile at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The one rectangle the body loads and stores through: the whole tile. -/
abbrev r0_0 : Rect S1024x2048 := Rect.unit (s := S1024x2048) ![0, 0] S1024x2048.size inb_S1024x2048_S1024x2048_0_0

/-- What the body leaves in the output tile, from the input tile: its one store, whole. -/
def out0_1 (x0 : Vec F S1024x2048 .f32) : Vec F S1024x2048 .i32 :=
  View.canon [⟨r0_0, k0_pay1 (View.ld x0 r0_0)⟩]

/-- The proof data of the region on core `c`: the arrays as launched; after the body at point `t` the input's buffer
    at its tile and the output's at `out0_1` of that tile; nothing of the core's own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

end Cert.Kernel.HFrame

end
-- ==== Proof.KFrameB.lean ====
/-
  The frame run of the thresholding kernel's program as printed at the word level (the same text as the
  idealized program, in its own namespace).

  The program is one region followed by straight lines of host operations.  The region walks a 12 × 6 grid; at a
  point it is handed one 1024 × 2048 tile of the distance matrix (window 0) and one tile of the word matrix
  (window 1).  The body reads the input tile whole, reads the output tile whole into a value nothing uses, and
  stores through the whole rectangle the words `extui (x < r0)` of the input tile: after it the input tile is
  as it was and the output tile is a pointwise function of the input tile only.  Every host line after the region
  writes a buffer of its own, never the distance matrix nor the word matrix, and allocates nothing; so the run
  ends with the distance matrix as launched.
-/
import proofs.«180157_j7541962572511_2_alg».proof.Proof.KDataB

set_option maxRecDepth 16384

noncomputable section

namespace Cert.Kernel.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- The one store goes through the whole tile, so it covers it. -/
theorem cover0_1 (p0 : Vec F S1024x2048 .i32) (y : S1024x2048.Idx) :
    ∃ pc ∈ ([⟨r0_0, p0⟩] : List (View.Piece (Elt F) S1024x2048 .i32)), y ∈ pc.1.set :=
  View.cover_of_tiled [⟨r0_0, p0⟩] S1024x2048.size (by rfl) y

set_option maxHeartbeats 1000000 in
/-- The body on whole staging memrefs, the input's at contents `x0` and the output's at anything, runs to the
    continuation holding the input's as it was and the output's at `out0_1 x0`: the load of the output tile binds a
    value nothing reads, and the one store overwrites every element. -/
theorem sound_kernel (c : Dev nD) (E : Set ℕ) (i : grid0.Coords) (arg2 : Memref sig .tc .vmem S1024x2048 .f32) (harg2 : arg2.IsWhole)
    (arg3 : Memref sig .tc .vmem S1024x2048 .i32) (harg3 : arg3.IsWhole)
    (x0 : Vec F S1024x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__threshold_kernel i arg2 harg2 arg3 harg3) K := by
  simp only [cc0__threshold_kernel_eq_skeleton]; unfold cc0__threshold_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The input tile at a point -/

/-- The input window's current staging buffer holds its tile at every point, fetched there or not, for any proof
    data whose array is the region-entry contents and whose body leaves the tile in place: the window is never cut
    and never idle, so what is staged is what the array holds there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`: the invariant, nothing owed, the input's staging buffer at its tile and
    the output's at whatever it holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: the same with each staging buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its tile, so `sound_kernel` applies; the invariant and what is
    owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The lines after the region

Each line is one operation that reads some buffers and writes its own result buffer.  Three facts are needed of every
one of them: it allocates nothing; its buffers are unscoped TensorCore references; and its result buffer is neither
the distance matrix nor the word matrix (it may READ the word matrix: the first stretch does). -/
theorem hostOps1_fresh : (hostOps1 : List (HloOp τ sig (Elt F))).Forall fun op => op.fresh = ∅ := by
  simp only [List.Forall]; repeat' constructor
theorem hostOps1_keeps : (hostOps1 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_fresh : (hostOps1_7 : List (HloOp τ sig (Elt F))).Forall fun op => op.fresh = ∅ := by
  simp only [List.Forall]; repeat' constructor
theorem hostOps1_7_keeps : (hostOps1_7 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_fresh : (hostOps1_8 : List (HloOp τ sig (Elt F))).Forall fun op => op.fresh = ∅ := by
  simp only [List.Forall]; repeat' constructor
theorem hostOps1_8_keeps : (hostOps1_8 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_fresh : (hostOps1_9 : List (HloOp τ sig (Elt F))).Forall fun op => op.fresh = ∅ := by
  simp only [List.Forall]; repeat' constructor
theorem hostOps1_9_keeps : (hostOps1_9 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_fresh : (hostOps1_10 : List (HloOp τ sig (Elt F))).Forall fun op => op.fresh = ∅ := by
  simp only [List.Forall]; repeat' constructor
theorem hostOps1_10_keeps : (hostOps1_10 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_11_fresh : (hostOps1_11 : List (HloOp τ sig (Elt F))).Forall fun op => op.fresh = ∅ := by
  simp only [List.Forall]; repeat' constructor
theorem hostOps1_11_keeps : (hostOps1_11 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_12_fresh : (hostOps1_12 : List (HloOp τ sig (Elt F))).Forall fun op => op.fresh = ∅ := by
  simp only [List.Forall]; repeat' constructor
theorem hostOps1_12_keeps : (hostOps1_12 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_13_fresh : (hostOps1_13 : List (HloOp τ sig (Elt F))).Forall fun op => op.fresh = ∅ := by
  simp only [List.Forall]; repeat' constructor
theorem hostOps1_13_keeps : (hostOps1_13 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_14_fresh : (hostOps1_14 : List (HloOp τ sig (Elt F))).Forall fun op => op.fresh = ∅ := by
  simp only [List.Forall]; repeat' constructor
theorem hostOps1_14_keeps : (hostOps1_14 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_15_fresh : (hostOps1_15 : List (HloOp τ sig (Elt F))).Forall fun op => op.fresh = ∅ := by
  simp only [List.Forall]; repeat' constructor
theorem hostOps1_15_keeps : (hostOps1_15 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_16_fresh : (hostOps1_16 : List (HloOp τ sig (Elt F))).Forall fun op => op.fresh = ∅ := by
  simp only [List.Forall]; repeat' constructor
theorem hostOps1_16_keeps : (hostOps1_16 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_17_fresh : (hostOps1_17 : List (HloOp τ sig (Elt F))).Forall fun op => op.fresh = ∅ := by
  simp only [List.Forall]; repeat' constructor
theorem hostOps1_17_keeps : (hostOps1_17 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_18_fresh : (hostOps1_18 : List (HloOp τ sig (Elt F))).Forall fun op => op.fresh = ∅ := by
  simp only [List.Forall]; repeat' constructor
theorem hostOps1_18_keeps : (hostOps1_18 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_19_fresh : (hostOps1_19 : List (HloOp τ sig (Elt F))).Forall fun op => op.fresh = ∅ := by
  simp only [List.Forall]; repeat' constructor
theorem hostOps1_19_keeps : (hostOps1_19 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_20_fresh : (hostOps1_20 : List (HloOp τ sig (Elt F))).Forall fun op => op.fresh = ∅ := by
  simp only [List.Forall]; repeat' constructor
theorem hostOps1_20_keeps : (hostOps1_20 : List (HloOp τ sig (Elt F))).Forall fun op =>
    Proc.devRef .tc main_arg0 ∉ op.writes ∧ Proc.devRef .tc main_v0 ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-! ## @main around the region -/

/-- @main is the region and then the host lines: holding the boundary and the unscoped buffers at the launch contents it
    reduces to the region continued by those lines (nothing runs before the region, so the region finds the launch
    contents). -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opss : List (List (HloOp τ sig (Elt F)))).map StableHlo.seq)) :=
  Pipeline.hmain_around cfgs 0 defs₀ 𝒱₀ m main [] opss (by simp only [List.Forall]) (by simp only [List.Forall]) main_chain

/-- Neither array of the region is the result buffer of any line of any stretch. -/
theorem opss_keeps : ∀ ops ∈ (opss : List (List (HloOp τ sig (Elt F)))), ∀ op ∈ ops,
    Proc.devRef .tc main_arg0 ∉ op.writes ∧ Proc.devRef .tc main_v0 ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop
  · exact (List.forall_iff_forall_mem.mp hostOps1_15_keeps) op hop
  · exact (List.forall_iff_forall_mem.mp hostOps1_16_keeps) op hop
  · exact (List.forall_iff_forall_mem.mp hostOps1_17_keeps) op hop
  · exact (List.forall_iff_forall_mem.mp hostOps1_18_keeps) op hop
  · exact (List.forall_iff_forall_mem.mp hostOps1_19_keeps) op hop
  · exact (List.forall_iff_forall_mem.mp hostOps1_20_keeps) op hop

/-- The lines touch the region's arrays and the bypassing buffers only: each operation's buffers are unscoped TensorCore
    references, and with nothing prefetched every such reference is one or the other. -/
theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)

/-- They allocate nothing. -/
theorem sfx_fresh : ∀ ops ∈ (opss : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop

/-- And write no array of the region: window 0's array is the distance matrix, window 1's the word matrix. -/
theorem sfx_keeps : ∀ ops ∈ (opss : List (List (HloOp τ sig (Elt F)))), ∀ op ∈ ops,
    ∀ w, Proc.devRef .tc (Pipeline.arrRef spec0 w) ∉ op.writes := by
  intro ops hops op hop w
  have h := opss_keeps ops hops op hop
  fin_cases w
  · exact h.1
  · exact h.2

/-- After the lines the distance matrix is as launched, for any proof data whose arrays are the region-entry contents: no
    line writes it, the region leaves an input's array as it found it, and nothing runs before the region. -/
theorem W_main_arg0 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) opss c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact (opss_keeps ops hops op hop').1)]
  exact (Pipeline.withArrays_arr spec0 launch0.win.arr_inj c (V0 m c) _ 0).trans
    (((dats' 0 c).arrAt_in 0 rfl _).trans ((hA c 0).trans (V_main_arg0 m c)))

/-! ## The run and the frame -/

set_option backward.isDefEq.respectTransparency.types false in
/-- From any memory with zero counters, every weakly fair execution of @main on the TensorCores terminates, and every
    final state has each array of the region at what the library computes from the proof data and every other unscoped
    buffer as the lines after the region leave it. -/
theorem run_main : θ_run defs (onTc (τ := τ) (main (F := F))) (s₀ m ρ) (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl)

/-- What the frame run's post says of the distance matrix: it is window 0's array, an input, which the region never writes
    back; so it ends at the region-entry contents, and those are the launch contents. -/
theorem kept_arg0 (r : PUnit × MemSt nD τ sig (Elt F))
    (h : Pipeline.FramePost cfgs (dats m) 0 (Pipeline.afterTail₀ cfgs (dats m) 0 (V0 m) opss) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- The frame: the run ends with the distance matrix as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_arg0 m r h c) (run_main m ρ)

end Cert.Kernel.HFrame

end
-- ==== Proof.KMask.lean ====
/-
  The word matrix the region leaves, as ONE function of the distance matrix.

  Point `t` of the 12 × 6 grid writes back the tile of the output at block index (t / 6, t % 6); what it writes is the
  pointwise word `extui (x < r0)` of the input tile at the same block index.  So every tile written back is the
  corresponding tile of one whole-matrix function `words x`, the 72 tiles cover the 12288 × 12288 matrix, and the
  array after the run is `words` of the distance matrix as launched.
-/
import proofs.«180157_j7541962572511_2_alg».proof.Proof.KData
import Idealize.ShloMosaic.Lib.Pipeline.Value

set_option maxRecDepth 16384

noncomputable section

namespace Cert.KernelIdeal.HValue

open Idealize.ShloMosaic Idealize.ShloMosaic.TcCoe
open Idealize.SL Idealize.SL.Sem
open Idealize.ShloMosaic.Pipeline (Dat Cfg Window)
open Cert.KernelIdeal Cert.KernelIdeal.Gen Cert.KernelIdeal.HFrame

variable {F : FTy → Type} [FloatOps F]

variable (m : (ℓ : Loc nD τ sig) → Buf (Elt F) ℓ)

/-- One entry's word: 1 when the distance is below the threshold (the f32 word 0x3C23D70A), else 0. -/
def wordOf (a : F .f32) : BitVec 32 := (FloatOps.cmpf .olt a (FloatOps.ofBits .f32 0x3C23D70A#32)).setWidth 32

/-- The word matrix of a distance matrix, entry by entry. -/
def words (x : S12288x12288.Idx → Elt F .f32) : S12288x12288.Idx → Elt F .i32 := fun i => wordOf (x i)

/-- The body's payload is the pointwise word of the tile it loaded. -/
theorem pay_apply (x0 : Vec F S1024x2048 .f32) (j : S1024x2048.Idx) : k0_pay1 x0 j = wordOf (x0 j) := rfl

theorem hz : (![0, 0] : Fin 2 → Nat) = fun _ => 0 := funext fun a => by fin_cases a <;> rfl

/-- The two windows move together over the grid. -/
theorem idx_same : ∀ t : Fin cfg0.N, win0_0.index t (0 : Fin 2) = win0_1.index t (0 : Fin 2)
    ∧ win0_0.index t (1 : Fin 2) = win0_1.index t (1 : Fin 2)
    ∧ win0_1.index t (0 : Fin 2) ≤ 11 ∧ win0_1.index t (1 : Fin 2) ≤ 5 :=
  (by decide +kernel : ∀ t : Fin grid0.N, _)

/-- Every block index of the 12 × 6 tiling is some point's. -/
theorem idx_onto : ∀ (q0 : Fin 12) (q1 : Fin 6), ∃ t : Fin cfg0.N, win0_1.index t = ![q0.val, q1.val] :=
  (by decide +kernel : ∀ (q0 : Fin 12) (q1 : Fin 6), ∃ t : Fin grid0.N, win0_1.index t = ![q0.val, q1.val])

/-- What point `t` writes back is tile `t` of `words` of the distance matrix. -/
theorem flushed1_eq (c : Dev nD) (t : Fin cfg0.N) :
    (dats m 0 c).flushed 1 t = ((cfg0.win 1).blk t).view.read (Elt F) (words (V m c main_arg0)) := by
  show (cfg0.win 1).cut (grid0.coords t) ((dats m 0 c).after 1 t) = _
  rw [after0_1]
  unfold out0_1
  rw [View.canon_unit_zero hz]
  simp only [View.ld_unit_zero (S := S1024x2048) hz]
  obtain ⟨e0, e1, -, -⟩ := idx_same t
  funext j
  show wordOf (V m c main_arg0 (((cfg0.win 0).blk t).view.emb j)) = wordOf (V m c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 1024 + 1 * (j 0).val = win0_1.index t (0 : Fin 2) * 1024 + 1 * (j 0).val; omega
    | ⟨1, _⟩ => show win0_0.index t (1 : Fin 2) * 2048 + 1 * (j 1).val = win0_1.index t (1 : Fin 2) * 2048 + 1 * (j 1).val; omega
  rw [h0]

/-- An index of the matrix is in point `t`'s tile iff each coordinate is in the tile's range on its axis. -/
theorem mem_blk1 (t : Fin cfg0.N) (i : S12288x12288.Idx) :
    i ∈ ((cfg0.win 1).blk t).view.set ↔ ∀ a : Fin 2, win0_1.index t a * S1024x2048.size a ≤ (i a).val ∧ (i a).val < win0_1.index t a * S1024x2048.size a + S1024x2048.size a := by
  show i ∈ ((View.whole main_v0).slice (win0_1.rect t)).set ↔ _
  rw [View.set_slice_whole, Rect.mem_set_unit]
  exact Iff.rfl

/-- The 72 tiles cover the matrix: entry (r, s) lies in the tile at block index (r / 1024, s / 2048). -/
theorem cover1 (i : S12288x12288.Idx) : ∃ t : Fin cfg0.N, (cfg0.win 1).flush t = true ∧ i ∈ ((cfg0.win 1).blk t).view.set := by
  have hi0 : (i 0).val < 12288 := (i 0).isLt
  have hi1 : (i 1).val < 12288 := (i 1).isLt
  obtain ⟨t, ht⟩ := idx_onto ⟨(i 0).val / 1024, by omega⟩ ⟨(i 1).val / 2048, by omega⟩
  have q0 : win0_1.index t (0 : Fin 2) = (i 0).val / 1024 := congrFun ht 0
  have q1 : win0_1.index t (1 : Fin 2) = (i 1).val / 2048 := congrFun ht 1
  refine ⟨t, flush0_1 t, ?_⟩
  rw [mem_blk1]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 2048 ≤ (i 1).val ∧ (i 1).val < win0_1.index t (1 : Fin 2) * 2048 + 2048; omega

/-- The word matrix after the run is `words` of the distance matrix as launched. -/
theorem final1 (c : Dev nD) : (dats m 0 c).arrAt 1 cfg0.N = words (m ((c : Thread nD τ).loc main_arg0)) :=
  (dats m 0 c).arrAt_eq_of_cover 1 (words (V m c main_arg0)) (fun t _ => flushed1_eq m c t) cover1

end Cert.KernelIdeal.HValue

end
-- ==== Proof.Tail.lean ====
/-
  The host computation that follows the mask, as one pure function of the mask.

  Both programs turn a boolean mask over the 12288 × 12288 square into the list of the positions of its
  true entries, padded: the running count of true entries along the flattened mask, the scatter of ones
  at the (clipped) running counts and the running count of that scatter give, for each output slot k,
  the flat position of the k-th true entry; the row is (position div 12288) mod 12288 and the column is
  (position div 1) mod 12288; every slot at or beyond the total count of true entries is filled with -1.
  Each stage below is one stretch of operations, composed exactly as the programs state them.
-/
import proofs.«180157_j7541962572511_2_alg».proof.ReferenceIdeal
import Idealize.ShloMosaic.Lib.StableHlo
import Idealize.ShloMosaic.PureOps

noncomputable section

namespace Cert.Tail

open Idealize.ShloMosaic Idealize.ShloMosaic.TcCoe Idealize.SL.Sem
open Cert.ReferenceIdeal Cert.ReferenceIdeal.Facts₀ Cert.ReferenceIdeal.Facts

variable {F : FTy → Type} [FloatOps F] [Cert.ReferenceIdeal.Facts]

/-- The mask of the nonzero words: entry (i, j) is true exactly when the word there is not 0. -/
def maskOfWords (v : (⟨S12288x12288, .i32⟩ : BufTy).Contents (Elt F)) : (⟨S12288x12288, .i1⟩ : BufTy).Contents (Elt F) :=
  id (cmpi .ne v (broadcastInDim S12288x12288 ![] bcast_S_S12288x12288 (constantI S_ 32 0#32)))

/-- The mask of the entries below the threshold 0x3C23D70A (as a float: ordered less-than). -/
def maskOfFloats (x : (⟨S12288x12288, .f32⟩ : BufTy).Contents (Elt F)) : (⟨S12288x12288, .i1⟩ : BufTy).Contents (Elt F) :=
  cmpf .olt x (broadcastInDim S12288x12288 ![] bcast_S_S12288x12288 (constant S_ .f32 0x3C23D70A#32))

/-- The running count of true entries along the flattened mask: entry p is the number of true entries
    at flat positions ≤ p (a windowed sum over the whole prefix, from 0). -/
def cumsumFlat (mask : (⟨S12288x12288, .i1⟩ : BufTy).Contents (Elt F)) : (⟨S150994944, .i32⟩ : BufTy).Contents (Elt F) :=
  Host.reduceWindow IntOp.addi ![150994944] ![1] ![150994943] ![0]
    (extui 32 (fun i => shapeCast S150994944 mask shapeCasts_S12288x12288_S150994944 i) natLt_1_32)
    (broadcastInDim S_ ![] bcast_S_S_ (constantI S_ 32 0#32))
    reduceWindows_S150994944_S150994944_w150994944s1p150994943_0 h_S_

/-- The all-zero vector of output length: what the ones are scattered into. -/
def zerosShort : (⟨S3200000, .i32⟩ : BufTy).Contents (Elt F) :=
  broadcastInDim S3200000 ![] bcast_S_S3200000 (constantI S_ 32 0#32)

/-- Clipping from below: the entrywise signed maximum of the scalar c and x. -/
def clipLow (c : (⟨S_, .i32⟩ : BufTy).Contents (Elt F)) (x : (⟨S150994944, .i32⟩ : BufTy).Contents (Elt F)) :
    (⟨S150994944, .i32⟩ : BufTy).Contents (Elt F) :=
  maxsi (broadcastInDim S150994944 ![] bcast_S_S150994944 (id c)) x

/-- A one added into z at every index idx p (a negative index first wrapped by the output length):
    slot k ends at the number of flat positions whose clipped running count is k. -/
def scatterOnes (z : (⟨S3200000, .i32⟩ : BufTy).Contents (Elt F)) (idx : (⟨S150994944, .i32⟩ : BufTy).Contents (Elt F)) :
    (⟨S3200000, .i32⟩ : BufTy).Contents (Elt F) :=
  Host.scatter scatter_S3200000_S150994944x1_S150994944_n_0_0_1 IntOp.addi z
    (broadcastInDim S150994944x1 ![0] bcast_S150994944_S150994944x1_0
      (select (cmpi .slt idx (broadcastInDim S150994944 ![] bcast_S_S150994944 (constantI S_ 32 0#32)))
        (addi idx (broadcastInDim S150994944 ![] bcast_S_S150994944 (constantI S_ 32 3200000#32))) idx))
    (broadcastInDim S150994944 ![] bcast_S_S150994944 (constantI S_ 32 1#32))

/-- The running sum of a vector of output length: slot k is the number of flat positions whose running
    count is ≤ k, which is the flat position of the k-th true entry. -/
def cumsumShort (x : (⟨S3200000, .i32⟩ : BufTy).Contents (Elt F)) : (⟨S3200000, .i32⟩ : BufTy).Contents (Elt F) :=
  Host.reduceWindow IntOp.addi ![3200000] ![1] ![3199999] ![0] x
    (broadcastInDim S_ ![] bcast_S_S_ (constantI S_ 32 0#32))
    reduceWindows_S3200000_S3200000_w3200000s1p3199999_0 h_S_

/-- Floor division of x by the scalar d: the truncated quotient, less one where the signs differ and the
    remainder is not 0. -/
def floorDivide (x : (⟨S3200000, .i32⟩ : BufTy).Contents (Elt F)) (d : (⟨S_, .i32⟩ : BufTy).Contents (Elt F)) :
    (⟨S3200000, .i32⟩ : BufTy).Contents (Elt F) :=
  select
    (andi (cmpi .ne (signi x) (broadcastInDim S3200000 ![] bcast_S_S3200000 (signi d)))
      (cmpi .ne (Host.remsi x (broadcastInDim S3200000 ![] bcast_S_S3200000 d))
        (broadcastInDim S3200000 ![] bcast_S_S3200000 (constantI S_ 32 0#32))))
    (subi (Host.divsi x (broadcastInDim S3200000 ![] bcast_S_S3200000 d))
      (broadcastInDim S3200000 ![] bcast_S_S3200000 (constantI S_ 32 1#32)))
    (Host.divsi x (broadcastInDim S3200000 ![] bcast_S_S3200000 d))

/-- The divisor of a remainder: the scalar d, with 1 in place of 0. -/
def safeDivisor (d : (⟨S_, .i32⟩ : BufTy).Contents (Elt F)) : (⟨S_, .i32⟩ : BufTy).Contents (Elt F) :=
  select (cmpi .eq (id d) (constantI S_ 32 0#32)) (constantI S_ 32 1#32) (id d)

/-- The remainder of x by the scalar d with the sign of the divisor: the truncated remainder, plus the
    divisor where the remainder is not 0 and its sign differs from the divisor's. -/
def remainderOf (x : (⟨S3200000, .i32⟩ : BufTy).Contents (Elt F)) (d : (⟨S_, .i32⟩ : BufTy).Contents (Elt F)) :
    (⟨S3200000, .i32⟩ : BufTy).Contents (Elt F) :=
  select
    (andi
      (cmpi .ne
        (cmpi .slt (Host.remsi x (broadcastInDim S3200000 ![] bcast_S_S3200000 (safeDivisor d)))
          (broadcastInDim S3200000 ![] bcast_S_S3200000 (constantI S_ 32 0#32)))
        (broadcastInDim S3200000 ![] bcast_S_S3200000 (cmpi .slt (safeDivisor d) (constantI S_ 32 0#32))))
      (cmpi .ne (Host.remsi x (broadcastInDim S3200000 ![] bcast_S_S3200000 (safeDivisor d)))
        (broadcastInDim S3200000 ![] bcast_S_S3200000 (constantI S_ 32 0#32))))
    (addi (Host.remsi x (broadcastInDim S3200000 ![] bcast_S_S3200000 (safeDivisor d)))
      (broadcastInDim S3200000 ![] bcast_S_S3200000 (safeDivisor d)))
    (Host.remsi x (broadcastInDim S3200000 ![] bcast_S_S3200000 (safeDivisor d)))

/-- The padding mask: slot k is true exactly when k is at or beyond the total count of true entries. -/
def fillMask (mask : (⟨S12288x12288, .i1⟩ : BufTy).Contents (Elt F)) : (⟨S3200000, .i1⟩ : BufTy).Contents (Elt F) :=
  cmpi .sge (iotaInDim S3200000 32 0)
    (broadcastInDim S3200000 ![] bcast_S_S3200000
      (Host.reduce IntOp.addi (extui 32 mask natLt_1_32) (constantI S_ 32 0#32) reducesTo_S12288x12288_S_d0_1 h_S_))

/-- The scalar s where cond holds, x elsewhere. -/
def whereScalar (cond : (⟨S3200000, .i1⟩ : BufTy).Contents (Elt F)) (s : (⟨S_, .i32⟩ : BufTy).Contents (Elt F))
    (x : (⟨S3200000, .i32⟩ : BufTy).Contents (Elt F)) : (⟨S3200000, .i32⟩ : BufTy).Contents (Elt F) :=
  select cond (broadcastInDim S3200000 ![] bcast_S_S3200000 (id s)) x

/-- A vector as the one row of a 1 × n matrix. -/
def asRow (x : (⟨S3200000, .i32⟩ : BufTy).Contents (Elt F)) : (⟨S1x3200000, .i32⟩ : BufTy).Contents (Elt F) :=
  broadcastInDim S1x3200000 ![1] bcast_S3200000_S1x3200000_1 x

/-- Two rows stacked and transposed: the n × 2 matrix whose row k is (a k, b k). -/
def pairs (a b : (⟨S1x3200000, .i32⟩ : BufTy).Contents (Elt F)) : (⟨S3200000x2, .i32⟩ : BufTy).Contents (Elt F) :=
  transpose S3200000x2 [1, 0]
    (concatenate S2x3200000 0 [⟨S1x3200000, a⟩, ⟨S1x3200000, b⟩] concatenates_S1x3200000_S1x3200000_S2x3200000_d0)
    transposes_S2x3200000_S3200000x2_1_0

/-- Column 0 of the n × 2 matrix, as a vector. -/
def column0 (p : (⟨S3200000x2, .i32⟩ : BufTy).Contents (Elt F)) : (⟨S3200000, .i32⟩ : BufTy).Contents (Elt F) :=
  fun i => shapeCast S3200000 (extractStridedSlice S3200000x1 ![0, 0] p slices_S3200000x2_S3200000x1_0_0) shapeCasts_S3200000x1_S3200000 i

/-- Column 1 of the n × 2 matrix, as a vector. -/
def column1 (p : (⟨S3200000x2, .i32⟩ : BufTy).Contents (Elt F)) : (⟨S3200000, .i32⟩ : BufTy).Contents (Elt F) :=
  fun i => shapeCast S3200000 (extractStridedSlice S3200000x1 ![0, 1] p slices_S3200000x2_S3200000x1_0_1) shapeCasts_S3200000x1_S3200000 i

/-- Slot k: the flat position of the k-th true entry of the mask (0-based), for k below the count. -/
def positions (mask : (⟨S12288x12288, .i1⟩ : BufTy).Contents (Elt F)) : (⟨S3200000, .i32⟩ : BufTy).Contents (Elt F) :=
  cumsumShort (scatterOnes zerosShort (clipLow (constantI S_ 32 0#32) (cumsumFlat mask)))

/-- Slot k: the row of the k-th true entry, (position div 12288) mod 12288; -1 from the count on. -/
def rows (mask : (⟨S12288x12288, .i1⟩ : BufTy).Contents (Elt F)) : (⟨S3200000, .i32⟩ : BufTy).Contents (Elt F) :=
  whereScalar (fillMask mask) (constantI S_ 32 4294967295#32)
    (remainderOf (floorDivide (positions mask) (constantI S_ 32 12288#32)) (constantI S_ 32 12288#32))

/-- Slot k: the column of the k-th true entry, (position div 1) mod 12288; -1 from the count on. -/
def cols (mask : (⟨S12288x12288, .i1⟩ : BufTy).Contents (Elt F)) : (⟨S3200000, .i32⟩ : BufTy).Contents (Elt F) :=
  whereScalar (fillMask mask) (constantI S_ 32 4294967295#32)
    (remainderOf (floorDivide (positions mask) (constantI S_ 32 1#32)) (constantI S_ 32 12288#32))

/-- The first result: the rows of the true entries, padded with -1. -/
def res0 (mask : (⟨S12288x12288, .i1⟩ : BufTy).Contents (Elt F)) : (⟨S3200000, .i32⟩ : BufTy).Contents (Elt F) :=
  column0 (pairs (asRow (rows mask)) (asRow (cols mask)))

/-- The second result: the columns of the true entries, padded with -1. -/
def res1 (mask : (⟨S12288x12288, .i1⟩ : BufTy).Contents (Elt F)) : (⟨S3200000, .i32⟩ : BufTy).Contents (Elt F) :=
  column1 (pairs (asRow (rows mask)) (asRow (cols mask)))

end Cert.Tail

end
-- ==== Proof.Bridge.lean ====
/-
  The two masks are one: the mask of the nonzero words of the kernel's word matrix is the mask of the
  entries below the threshold.

  The kernel's word at an entry is the 1-bit comparison `x < r0` zero-extended to 32 bits; a zero-extended bit is
  nonzero exactly when the bit is 1, so comparing the word with 0 gives the bit back.  Both sides compare with the same
  f32 word 0x3C23D70A, which is never evaluated.
-/
import proofs.«180157_j7541962572511_2_alg».proof.Proof.KMask
import proofs.«180157_j7541962572511_2_alg».proof.Proof.Tail
import proofs.«180157_j7541962572511_2_alg».proof.Proof.Gen.ReferenceIdeal

noncomputable section

namespace Cert.Bridge

open Idealize.ShloMosaic Idealize.ShloMosaic.TcCoe Idealize.SL.Sem

variable {F : FTy → Type} [FloatOps F]

/-- A bit zero-extended to a word differs from the zero word exactly when the bit is set. -/
theorem ne_zero_setWidth (b : BitVec 1) : IntOp.cmpi .ne (b.setWidth 32) 0#32 = b := by
  rcases BitVec.eq_zero_or_eq_one b with h | h <;> subst h <;> decide

/-- The mask of the nonzero words of `words x` is the mask of the entries of `x` below the threshold. -/
theorem mask_eq (x : Cert.KernelIdeal.S12288x12288.Idx → Elt F .f32) :
    Cert.Tail.maskOfWords (F := F) (Cert.KernelIdeal.HValue.words x) = Cert.Tail.maskOfFloats (F := F) x := by
  funext i
  show IntOp.cmpi .ne ((FloatOps.cmpf .olt (x i) (FloatOps.ofBits .f32 0x3C23D70A#32)).setWidth 32) 0#32
    = FloatOps.cmpf .olt (x i) (FloatOps.ofBits .f32 0x3C23D70A#32)
  exact ne_zero_setWidth _

end Cert.Bridge

end
-- ==== Proof.KTailA.lean ====
/-
  The host tail of the kernel program, stretch by stretch: what each stretch of operations leaves at its result
  buffer, as the stage function of the contents of its input buffers, and that it leaves every buffer it does not
  write as it was. Each fact is over an arbitrary valuation, so that the stretches compose.
-/
import proofs.«180157_j7541962572511_2_alg».proof.Proof.Gen.KernelIdeal.Launch
import proofs.«180157_j7541962572511_2_alg».proof.Proof.Gen.ReferenceIdeal
import proofs.«180157_j7541962572511_2_alg».proof.Proof.Tail
import Idealize.ShloMosaic.Lib.StableHlo.RunLoop

noncomputable section

namespace Cert.KernelIdeal.HTail

open Idealize.ShloMosaic Idealize.ShloMosaic.TcCoe Idealize.SL.Sem
open Cert.KernelIdeal Cert.KernelIdeal.Gen

variable {F : FTy → Type} [FloatOps F]

/-! ## What each stretch computes -/

theorem st0 (W : Valuation τ sig (Elt F)) :
    StableHlo.after hostOps1 W (Proc.devRef .tc main_v3) = Cert.Tail.maskOfWords (W (Proc.devRef .tc main_v0)) := by
  after_results_simp
  rfl

theorem st1 (W : Valuation τ sig (Elt F)) :
    StableHlo.after hostOps1_1 W (Proc.devRef .tc main_v5) = Cert.Tail.cumsumFlat (W (Proc.devRef .tc main_v3)) := by
  after_results_simp
  simp only [StableHlo.TRef.toBuf, StableHlo.TRef.ofBuf, cast_eq]
  rfl

theorem st2a (W : Valuation τ sig (Elt F)) :
    StableHlo.after hostOps1_2 W (Proc.devRef .tc main_v6) = (Cert.Tail.zerosShort : (⟨S3200000, .i32⟩ : BufTy).Contents (Elt F)) := by
  after_results_simp
  rfl

theorem st2b (W : Valuation τ sig (Elt F)) :
    StableHlo.after hostOps1_2 W (Proc.devRef .tc main_c_1) = (constantI S_ 32 0#32 : (⟨S_, .i32⟩ : BufTy).Contents (Elt F)) := by
  after_results_simp

theorem st3 (W : Valuation τ sig (Elt F)) :
    StableHlo.after hostOps1_3 W (Proc.devRef .tc main_v7) = Cert.Tail.clipLow (W (Proc.devRef .tc main_c_1)) (W (Proc.devRef .tc main_v5)) := by
  after_results_simp
  simp only [StableHlo.TRef.toBuf, StableHlo.TRef.ofBuf, cast_eq]
  rfl

theorem st4 (W : Valuation τ sig (Elt F)) :
    StableHlo.after hostOps1_4 W (Proc.devRef .tc main_v15) = Cert.Tail.scatterOnes (W (Proc.devRef .tc main_v6)) (W (Proc.devRef .tc main_v7)) := by
  after_results_simp
  rfl

theorem st5 (W : Valuation τ sig (Elt F)) :
    StableHlo.after hostOps1_5 W (Proc.devRef .tc main_v16) = Cert.Tail.cumsumShort (W (Proc.devRef .tc main_v15)) := by
  after_results_simp
  simp only [StableHlo.TRef.toBuf, StableHlo.TRef.ofBuf, cast_eq]
  rfl

theorem st6 (W : Valuation τ sig (Elt F)) :
    StableHlo.after hostOps1_6 W (Proc.devRef .tc main_c_5) = (constantI S_ 32 12288#32 : (⟨S_, .i32⟩ : BufTy).Contents (Elt F)) := by
  after_results_simp

theorem st7 (W : Valuation τ sig (Elt F)) :
    StableHlo.after hostOps1_7 W (Proc.devRef .tc main_v17) = Cert.Tail.floorDivide (W (Proc.devRef .tc main_v16)) (W (Proc.devRef .tc main_c_5)) := by
  after_results_simp
  simp only [StableHlo.TRef.toBuf, StableHlo.TRef.ofBuf, cast_eq]
  rfl

theorem st8 (W : Valuation τ sig (Elt F)) :
    StableHlo.after hostOps1_8 W (Proc.devRef .tc main_c_6) = (constantI S_ 32 12288#32 : (⟨S_, .i32⟩ : BufTy).Contents (Elt F)) := by
  after_results_simp

theorem st9 (W : Valuation τ sig (Elt F)) :
    StableHlo.after hostOps1_9 W (Proc.devRef .tc main_v18) = Cert.Tail.remainderOf (W (Proc.devRef .tc main_v17)) (W (Proc.devRef .tc main_c_6)) := by
  after_results_simp
  simp only [StableHlo.TRef.toBuf, StableHlo.TRef.ofBuf, cast_eq]
  rfl

theorem st10 (W : Valuation τ sig (Elt F)) :
    StableHlo.after hostOps1_10 W (Proc.devRef .tc main_c_7) = (constantI S_ 32 1#32 : (⟨S_, .i32⟩ : BufTy).Contents (Elt F)) := by
  after_results_simp

theorem st11 (W : Valuation τ sig (Elt F)) :
    StableHlo.after hostOps1_11 W (Proc.devRef .tc main_v19) = Cert.Tail.floorDivide (W (Proc.devRef .tc main_v16)) (W (Proc.devRef .tc main_c_7)) := by
  after_results_simp
  simp only [StableHlo.TRef.toBuf, StableHlo.TRef.ofBuf, cast_eq]
  rfl

theorem st12 (W : Valuation τ sig (Elt F)) :
    StableHlo.after hostOps1_12 W (Proc.devRef .tc main_c_8) = (constantI S_ 32 12288#32 : (⟨S_, .i32⟩ : BufTy).Contents (Elt F)) := by
  after_results_simp

theorem st13 (W : Valuation τ sig (Elt F)) :
    StableHlo.after hostOps1_13 W (Proc.devRef .tc main_v20) = Cert.Tail.remainderOf (W (Proc.devRef .tc main_v19)) (W (Proc.devRef .tc main_c_8)) := by
  after_results_simp
  simp only [StableHlo.TRef.toBuf, StableHlo.TRef.ofBuf, cast_eq]
  rfl

theorem st14a (W : Valuation τ sig (Elt F)) :
    StableHlo.after hostOps1_14 W (Proc.devRef .tc main_v25) = Cert.Tail.fillMask (W (Proc.devRef .tc main_v3)) := by
  after_results_simp
  rfl

theorem st14b (W : Valuation τ sig (Elt F)) :
    StableHlo.after hostOps1_14 W (Proc.devRef .tc main_c_10) = (constantI S_ 32 4294967295#32 : (⟨S_, .i32⟩ : BufTy).Contents (Elt F)) := by
  after_results_simp

theorem st15 (W : Valuation τ sig (Elt F)) :
    StableHlo.after hostOps1_15 W (Proc.devRef .tc main_v26) = Cert.Tail.whereScalar (W (Proc.devRef .tc main_v25)) (W (Proc.devRef .tc main_c_10)) (W (Proc.devRef .tc main_v18)) := by
  after_results_simp
  simp only [StableHlo.TRef.toBuf, StableHlo.TRef.ofBuf, cast_eq]
  rfl

theorem st16 (W : Valuation τ sig (Elt F)) :
    StableHlo.after hostOps1_16 W (Proc.devRef .tc main_c_11) = (constantI S_ 32 4294967295#32 : (⟨S_, .i32⟩ : BufTy).Contents (Elt F)) := by
  after_results_simp

theorem st17 (W : Valuation τ sig (Elt F)) :
    StableHlo.after hostOps1_17 W (Proc.devRef .tc main_v27) = Cert.Tail.whereScalar (W (Proc.devRef .tc main_v25)) (W (Proc.devRef .tc main_c_11)) (W (Proc.devRef .tc main_v20)) := by
  after_results_simp
  simp only [StableHlo.TRef.toBuf, StableHlo.TRef.ofBuf, cast_eq]
  rfl

theorem st18 (W : Valuation τ sig (Elt F)) :
    StableHlo.after hostOps1_18 W (Proc.devRef .tc main_v28) = Cert.Tail.asRow (W (Proc.devRef .tc main_v26)) := by
  after_results_simp
  simp only [StableHlo.TRef.toBuf, StableHlo.TRef.ofBuf, cast_eq]
  rfl

theorem st19 (W : Valuation τ sig (Elt F)) :
    StableHlo.after hostOps1_19 W (Proc.devRef .tc main_v29) = Cert.Tail.asRow (W (Proc.devRef .tc main_v27)) := by
  after_results_simp
  simp only [StableHlo.TRef.toBuf, StableHlo.TRef.ofBuf, cast_eq]
  rfl

theorem st20a (W : Valuation τ sig (Elt F)) :
    StableHlo.after hostOps1_20 W (Proc.devRef .tc main_v33) = Cert.Tail.column0 (Cert.Tail.pairs (W (Proc.devRef .tc main_v28)) (W (Proc.devRef .tc main_v29))) := by
  after_results_simp
  rfl

theorem st20b (W : Valuation τ sig (Elt F)) :
    StableHlo.after hostOps1_20 W (Proc.devRef .tc main_v35) = Cert.Tail.column1 (Cert.Tail.pairs (W (Proc.devRef .tc main_v28)) (W (Proc.devRef .tc main_v29))) := by
  after_results_simp
  rfl

/-! ## What each stretch keeps -/

/-- Stretch 1 leaves every buffer it does not write as it was. -/
theorem kept1 (W : Valuation τ sig (Elt F)) {r : Ref sig .tc}
    (hr : r ∉ [main_call1_v0, main_call1_v1, main_call1_call0_c, main_call1_call0_v0, main_v5]) :
    StableHlo.after hostOps1_1 W (Proc.devRef .tc r) = W (Proc.devRef .tc r) :=
  StableHlo.after_of_writes_sub hostOps1_1 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 2 leaves every buffer it does not write as it was. -/
theorem kept2 (W : Valuation τ sig (Elt F)) {r : Ref sig .tc}
    (hr : r ∉ [main_c_0, main_v6, main_c_1]) :
    StableHlo.after hostOps1_2 W (Proc.devRef .tc r) = W (Proc.devRef .tc r) :=
  StableHlo.after_of_writes_sub hostOps1_2 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 3 leaves every buffer it does not write as it was. -/
theorem kept3 (W : Valuation τ sig (Elt F)) {r : Ref sig .tc}
    (hr : r ∉ [main_call2_v0, main_call2_v1, main_v7]) :
    StableHlo.after hostOps1_3 W (Proc.devRef .tc r) = W (Proc.devRef .tc r) :=
  StableHlo.after_of_writes_sub hostOps1_3 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 4 leaves every buffer it does not write as it was. -/
theorem kept4 (W : Valuation τ sig (Elt F)) {r : Ref sig .tc}
    (hr : r ∉ [main_c_2, main_v8, main_v9, main_c_3, main_v10, main_v11, main_v12, main_v13, main_c_4, main_v14, main_v15]) :
    StableHlo.after hostOps1_4 W (Proc.devRef .tc r) = W (Proc.devRef .tc r) :=
  StableHlo.after_of_writes_sub hostOps1_4 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 5 leaves every buffer it does not write as it was. -/
theorem kept5 (W : Valuation τ sig (Elt F)) {r : Ref sig .tc}
    (hr : r ∉ [main_call3_call0_c, main_call3_call0_v0, main_v16]) :
    StableHlo.after hostOps1_5 W (Proc.devRef .tc r) = W (Proc.devRef .tc r) :=
  StableHlo.after_of_writes_sub hostOps1_5 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 6 leaves every buffer it does not write as it was. -/
theorem kept6 (W : Valuation τ sig (Elt F)) {r : Ref sig .tc}
    (hr : r ∉ [main_c_5]) :
    StableHlo.after hostOps1_6 W (Proc.devRef .tc r) = W (Proc.devRef .tc r) :=
  StableHlo.after_of_writes_sub hostOps1_6 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 7 leaves every buffer it does not write as it was. -/
theorem kept7 (W : Valuation τ sig (Elt F)) {r : Ref sig .tc}
    (hr : r ∉ [main_call4_v0, main_call4_v1, main_call4_v2, main_call4_v3, main_call4_v4, main_call4_v5, main_call4_v6, main_call4_v7, main_call4_v8, main_call4_v9, main_call4_v10, main_call4_v11, main_call4_v12, main_call4_c, main_call4_c_0, main_v17]) :
    StableHlo.after hostOps1_7 W (Proc.devRef .tc r) = W (Proc.devRef .tc r) :=
  StableHlo.after_of_writes_sub hostOps1_7 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 8 leaves every buffer it does not write as it was. -/
theorem kept8 (W : Valuation τ sig (Elt F)) {r : Ref sig .tc}
    (hr : r ∉ [main_c_6]) :
    StableHlo.after hostOps1_8 W (Proc.devRef .tc r) = W (Proc.devRef .tc r) :=
  StableHlo.after_of_writes_sub hostOps1_8 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 9 leaves every buffer it does not write as it was. -/
theorem kept9 (W : Valuation τ sig (Elt F)) {r : Ref sig .tc}
    (hr : r ∉ [main_call5_v0, main_call5_v1, main_call5_v2, main_call5_v3, main_call5_v4, main_call5_v5, main_call5_v6, main_call5_v7, main_call5_v8, main_call5_v9, main_call5_v10, main_call5_v11, main_call5_v12, main_call5_v13, main_call5_v14, main_call5_c, main_call5_c_0, main_call5_c_1, main_call5_c_2, main_call5_c_3, main_v18]) :
    StableHlo.after hostOps1_9 W (Proc.devRef .tc r) = W (Proc.devRef .tc r) :=
  StableHlo.after_of_writes_sub hostOps1_9 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 10 leaves every buffer it does not write as it was. -/
theorem kept10 (W : Valuation τ sig (Elt F)) {r : Ref sig .tc}
    (hr : r ∉ [main_c_7]) :
    StableHlo.after hostOps1_10 W (Proc.devRef .tc r) = W (Proc.devRef .tc r) :=
  StableHlo.after_of_writes_sub hostOps1_10 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 11 leaves every buffer it does not write as it was. -/
theorem kept11 (W : Valuation τ sig (Elt F)) {r : Ref sig .tc}
    (hr : r ∉ [main_call6_v0, main_call6_v1, main_call6_v2, main_call6_v3, main_call6_v4, main_call6_v5, main_call6_v6, main_call6_v7, main_call6_v8, main_call6_v9, main_call6_v10, main_call6_v11, main_call6_v12, main_call6_c, main_call6_c_0, main_v19]) :
    StableHlo.after hostOps1_11 W (Proc.devRef .tc r) = W (Proc.devRef .tc r) :=
  StableHlo.after_of_writes_sub hostOps1_11 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 12 leaves every buffer it does not write as it was. -/
theorem kept12 (W : Valuation τ sig (Elt F)) {r : Ref sig .tc}
    (hr : r ∉ [main_c_8]) :
    StableHlo.after hostOps1_12 W (Proc.devRef .tc r) = W (Proc.devRef .tc r) :=
  StableHlo.after_of_writes_sub hostOps1_12 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 13 leaves every buffer it does not write as it was. -/
theorem kept13 (W : Valuation τ sig (Elt F)) {r : Ref sig .tc}
    (hr : r ∉ [main_call7_v0, main_call7_v1, main_call7_v2, main_call7_v3, main_call7_v4, main_call7_v5, main_call7_v6, main_call7_v7, main_call7_v8, main_call7_v9, main_call7_v10, main_call7_v11, main_call7_v12, main_call7_v13, main_call7_v14, main_call7_c, main_call7_c_0, main_call7_c_1, main_call7_c_2, main_call7_c_3, main_v20]) :
    StableHlo.after hostOps1_13 W (Proc.devRef .tc r) = W (Proc.devRef .tc r) :=
  StableHlo.after_of_writes_sub hostOps1_13 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 14 leaves every buffer it does not write as it was. -/
theorem kept14 (W : Valuation τ sig (Elt F)) {r : Ref sig .tc}
    (hr : r ∉ [main_v21, main_v22, main_c_9, main_v23, main_v24, main_v25, main_c_10]) :
    StableHlo.after hostOps1_14 W (Proc.devRef .tc r) = W (Proc.devRef .tc r) :=
  StableHlo.after_of_writes_sub hostOps1_14 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 15 leaves every buffer it does not write as it was. -/
theorem kept15 (W : Valuation τ sig (Elt F)) {r : Ref sig .tc}
    (hr : r ∉ [main_call8_v0, main_call8_v1, main_v26]) :
    StableHlo.after hostOps1_15 W (Proc.devRef .tc r) = W (Proc.devRef .tc r) :=
  StableHlo.after_of_writes_sub hostOps1_15 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 16 leaves every buffer it does not write as it was. -/
theorem kept16 (W : Valuation τ sig (Elt F)) {r : Ref sig .tc}
    (hr : r ∉ [main_c_11]) :
    StableHlo.after hostOps1_16 W (Proc.devRef .tc r) = W (Proc.devRef .tc r) :=
  StableHlo.after_of_writes_sub hostOps1_16 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 17 leaves every buffer it does not write as it was. -/
theorem kept17 (W : Valuation τ sig (Elt F)) {r : Ref sig .tc}
    (hr : r ∉ [main_call9_v0, main_call9_v1, main_v27]) :
    StableHlo.after hostOps1_17 W (Proc.devRef .tc r) = W (Proc.devRef .tc r) :=
  StableHlo.after_of_writes_sub hostOps1_17 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 18 leaves every buffer it does not write as it was. -/
theorem kept18 (W : Valuation τ sig (Elt F)) {r : Ref sig .tc}
    (hr : r ∉ [main_v28]) :
    StableHlo.after hostOps1_18 W (Proc.devRef .tc r) = W (Proc.devRef .tc r) :=
  StableHlo.after_of_writes_sub hostOps1_18 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 19 leaves every buffer it does not write as it was. -/
theorem kept19 (W : Valuation τ sig (Elt F)) {r : Ref sig .tc}
    (hr : r ∉ [main_v29]) :
    StableHlo.after hostOps1_19 W (Proc.devRef .tc r) = W (Proc.devRef .tc r) :=
  StableHlo.after_of_writes_sub hostOps1_19 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

/-- Stretch 20 leaves every buffer it does not write as it was. -/
theorem kept20 (W : Valuation τ sig (Elt F)) {r : Ref sig .tc}
    (hr : r ∉ [main_v30, main_v31, main_v32, main_v33, main_v34, main_v35]) :
    StableHlo.after hostOps1_20 W (Proc.devRef .tc r) = W (Proc.devRef .tc r) :=
  StableHlo.after_of_writes_sub hostOps1_20 W (by
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)) hr

end Cert.KernelIdeal.HTail

end
-- ==== Proof.KTail.lean ====
/-
  The host tail of the kernel program read as one function of the mask: its two results are the rows and the columns
  of the true entries of the mask of the nonzero words, padded with -1. The stretches are folded from the last to the
  first: `chainK` says that from any contents in which the buffers still to be read hold their values (as functions
  of the mask m), running stretches K … 20 ends with the two results at res0 m and res1 m; `chainK` follows from
  `chain(K+1)` by the stretch's stage lemma for the buffer it writes and its frame lemma for the ones it keeps.
-/
import proofs.«180157_j7541962572511_2_alg».proof.Proof.KTailA

noncomputable section

namespace Cert.KernelIdeal.HTail

open Idealize.ShloMosaic Idealize.ShloMosaic.TcCoe Idealize.SL.Sem
open Cert.KernelIdeal Cert.KernelIdeal.Gen

variable {F : FTy → Type} [FloatOps F]

/-! The values the buffers hold along the way, as functions of the mask `m`: the running count of true entries, clipped;
    the scatter of ones at the running counts; its running sum, which is the positions of the true entries; the
    positions divided by 12288 and by 1, each reduced mod 12288; and the two padded with -1 from the count on. -/
abbrev x5 (m : (⟨S12288x12288, .i1⟩ : BufTy).Contents (Elt F)) := Cert.Tail.cumsumFlat m
abbrev x7 (m : (⟨S12288x12288, .i1⟩ : BufTy).Contents (Elt F)) := Cert.Tail.clipLow (constantI S_ 32 0#32) (x5 m)
abbrev x15 (m : (⟨S12288x12288, .i1⟩ : BufTy).Contents (Elt F)) := Cert.Tail.scatterOnes Cert.Tail.zerosShort (x7 m)
abbrev x16 (m : (⟨S12288x12288, .i1⟩ : BufTy).Contents (Elt F)) := Cert.Tail.cumsumShort (x15 m)
abbrev x17 (m : (⟨S12288x12288, .i1⟩ : BufTy).Contents (Elt F)) := Cert.Tail.floorDivide (x16 m) (constantI S_ 32 12288#32)
abbrev x18 (m : (⟨S12288x12288, .i1⟩ : BufTy).Contents (Elt F)) := Cert.Tail.remainderOf (x17 m) (constantI S_ 32 12288#32)
abbrev x19 (m : (⟨S12288x12288, .i1⟩ : BufTy).Contents (Elt F)) := Cert.Tail.floorDivide (x16 m) (constantI S_ 32 1#32)
abbrev x20 (m : (⟨S12288x12288, .i1⟩ : BufTy).Contents (Elt F)) := Cert.Tail.remainderOf (x19 m) (constantI S_ 32 12288#32)
abbrev x26 (m : (⟨S12288x12288, .i1⟩ : BufTy).Contents (Elt F)) := Cert.Tail.whereScalar (Cert.Tail.fillMask m) (constantI S_ 32 4294967295#32) (x18 m)
abbrev x27 (m : (⟨S12288x12288, .i1⟩ : BufTy).Contents (Elt F)) := Cert.Tail.whereScalar (Cert.Tail.fillMask m) (constantI S_ 32 4294967295#32) (x20 m)

theorem chain20 (W : Valuation τ sig (Elt F)) (m : (⟨S12288x12288, .i1⟩ : BufTy).Contents (Elt F))
    (h_v28 : W (Proc.devRef .tc main_v28) = ((Cert.Tail.asRow (x26 m)) : (⟨S1x3200000, .i32⟩ : BufTy).Contents (Elt F)))
    (h_v29 : W (Proc.devRef .tc main_v29) = ((Cert.Tail.asRow (x27 m)) : (⟨S1x3200000, .i32⟩ : BufTy).Contents (Elt F))) :
    StableHlo.afterL [hostOps1_20] W (Proc.devRef .tc main_v33) = Cert.Tail.res0 m
      ∧ StableHlo.afterL [hostOps1_20] W (Proc.devRef .tc main_v35) = Cert.Tail.res1 m := by
  simp only [StableHlo.afterL_cons, StableHlo.afterL_nil]
  exact ⟨(st20a W).trans (by rw [h_v28, h_v29]; rfl), (st20b W).trans (by rw [h_v28, h_v29]; rfl)⟩

theorem chain19 (W : Valuation τ sig (Elt F)) (m : (⟨S12288x12288, .i1⟩ : BufTy).Contents (Elt F))
    (h_v27 : W (Proc.devRef .tc main_v27) = ((x27 m) : (⟨S3200000, .i32⟩ : BufTy).Contents (Elt F)))
    (h_v28 : W (Proc.devRef .tc main_v28) = ((Cert.Tail.asRow (x26 m)) : (⟨S1x3200000, .i32⟩ : BufTy).Contents (Elt F))) :
    StableHlo.afterL [hostOps1_19, hostOps1_20] W (Proc.devRef .tc main_v33) = Cert.Tail.res0 m
      ∧ StableHlo.afterL [hostOps1_19, hostOps1_20] W (Proc.devRef .tc main_v35) = Cert.Tail.res1 m :=
  chain20 (StableHlo.after hostOps1_19 W) m
    ((kept19 W (by decide)).trans h_v28)
    ((st19 W).trans (by rw [h_v27]))

theorem chain18 (W : Valuation τ sig (Elt F)) (m : (⟨S12288x12288, .i1⟩ : BufTy).Contents (Elt F))
    (h_v26 : W (Proc.devRef .tc main_v26) = ((x26 m) : (⟨S3200000, .i32⟩ : BufTy).Contents (Elt F)))
    (h_v27 : W (Proc.devRef .tc main_v27) = ((x27 m) : (⟨S3200000, .i32⟩ : BufTy).Contents (Elt F))) :
    StableHlo.afterL [hostOps1_18, hostOps1_19, hostOps1_20] W (Proc.devRef .tc main_v33) = Cert.Tail.res0 m
      ∧ StableHlo.afterL [hostOps1_18, hostOps1_19, hostOps1_20] W (Proc.devRef .tc main_v35) = Cert.Tail.res1 m :=
  chain19 (StableHlo.after hostOps1_18 W) m
    ((kept18 W (by decide)).trans h_v27)
    ((st18 W).trans (by rw [h_v26]))

theorem chain17 (W : Valuation τ sig (Elt F)) (m : (⟨S12288x12288, .i1⟩ : BufTy).Contents (Elt F))
    (h_v20 : W (Proc.devRef .tc main_v20) = ((x20 m) : (⟨S3200000, .i32⟩ : BufTy).Contents (Elt F)))
    (h_v25 : W (Proc.devRef .tc main_v25) = ((Cert.Tail.fillMask m) : (⟨S3200000, .i1⟩ : BufTy).Contents (Elt F)))
    (h_v26 : W (Proc.devRef .tc main_v26) = ((x26 m) : (⟨S3200000, .i32⟩ : BufTy).Contents (Elt F)))
    (h_c_11 : W (Proc.devRef .tc main_c_11) = ((constantI S_ 32 4294967295#32) : (⟨S_, .i32⟩ : BufTy).Contents (Elt F))) :
    StableHlo.afterL [hostOps1_17, hostOps1_18, hostOps1_19, hostOps1_20] W (Proc.devRef .tc main_v33) = Cert.Tail.res0 m
      ∧ StableHlo.afterL [hostOps1_17, hostOps1_18, hostOps1_19, hostOps1_20] W (Proc.devRef .tc main_v35) = Cert.Tail.res1 m :=
  chain18 (StableHlo.after hostOps1_17 W) m
    ((kept17 W (by decide)).trans h_v26)
    ((st17 W).trans (by rw [h_v25, h_c_11, h_v20]))

theorem chain16 (W : Valuation τ sig (Elt F)) (m : (⟨S12288x12288, .i1⟩ : BufTy).Contents (Elt F))
    (h_v20 : W (Proc.devRef .tc main_v20) = ((x20 m) : (⟨S3200000, .i32⟩ : BufTy).Contents (Elt F)))
    (h_v25 : W (Proc.devRef .tc main_v25) = ((Cert.Tail.fillMask m) : (⟨S3200000, .i1⟩ : BufTy).Contents (Elt F)))
    (h_v26 : W (Proc.devRef .tc main_v26) = ((x26 m) : (⟨S3200000, .i32⟩ : BufTy).Contents (Elt F))) :
    StableHlo.afterL [hostOps1_16, hostOps1_17, hostOps1_18, hostOps1_19, hostOps1_20] W (Proc.devRef .tc main_v33) = Cert.Tail.res0 m
      ∧ StableHlo.afterL [hostOps1_16, hostOps1_17, hostOps1_18, hostOps1_19, hostOps1_20] W (Proc.devRef .tc main_v35) = Cert.Tail.res1 m :=
  chain17 (StableHlo.after hostOps1_16 W) m
    ((kept16 W (by decide)).trans h_v20)
    ((kept16 W (by decide)).trans h_v25)
    ((kept16 W (by decide)).trans h_v26)
    (st16 W)

theorem chain15 (W : Valuation τ sig (Elt F)) (m : (⟨S12288x12288, .i1⟩ : BufTy).Contents (Elt F))
    (h_v18 : W (Proc.devRef .tc main_v18) = ((x18 m) : (⟨S3200000, .i32⟩ : BufTy).Contents (Elt F)))
    (h_v20 : W (Proc.devRef .tc main_v20) = ((x20 m) : (⟨S3200000, .i32⟩ : BufTy).Contents (Elt F)))
    (h_v25 : W (Proc.devRef .tc main_v25) = ((Cert.Tail.fillMask m) : (⟨S3200000, .i1⟩ : BufTy).Contents (Elt F)))
    (h_c_10 : W (Proc.devRef .tc main_c_10) = ((constantI S_ 32 4294967295#32) : (⟨S_, .i32⟩ : BufTy).Contents (Elt F))) :
    StableHlo.afterL [hostOps1_15, hostOps1_16, hostOps1_17, hostOps1_18, hostOps1_19, hostOps1_20] W (Proc.devRef .tc main_v33) = Cert.Tail.res0 m
      ∧ StableHlo.afterL [hostOps1_15, hostOps1_16, hostOps1_17, hostOps1_18, hostOps1_19, hostOps1_20] W (Proc.devRef .tc main_v35) = Cert.Tail.res1 m :=
  chain16 (StableHlo.after hostOps1_15 W) m
    ((kept15 W (by decide)).trans h_v20)
    ((kept15 W (by decide)).trans h_v25)
    ((st15 W).trans (by rw [h_v25, h_c_10, h_v18]))

theorem chain14 (W : Valuation τ sig (Elt F)) (m : (⟨S12288x12288, .i1⟩ : BufTy).Contents (Elt F))
    (h_v3 : W (Proc.devRef .tc main_v3) = (m : (⟨S12288x12288, .i1⟩ : BufTy).Contents (Elt F)))
    (h_v18 : W (Proc.devRef .tc main_v18) = ((x18 m) : (⟨S3200000, .i32⟩ : BufTy).Contents (Elt F)))
    (h_v20 : W (Proc.devRef .tc main_v20) = ((x20 m) : (⟨S3200000, .i32⟩ : BufTy).Contents (Elt F))) :
    StableHlo.afterL [hostOps1_14, hostOps1_15, hostOps1_16, hostOps1_17, hostOps1_18, hostOps1_19, hostOps1_20] W (Proc.devRef .tc main_v33) = Cert.Tail.res0 m
      ∧ StableHlo.afterL [hostOps1_14, hostOps1_15, hostOps1_16, hostOps1_17, hostOps1_18, hostOps1_19, hostOps1_20] W (Proc.devRef .tc main_v35) = Cert.Tail.res1 m :=
  chain15 (StableHlo.after hostOps1_14 W) m
    ((kept14 W (by decide)).trans h_v18)
    ((kept14 W (by decide)).trans h_v20)
    ((st14a W).trans (by rw [h_v3]))
    (st14b W)

theorem chain13 (W : Valuation τ sig (Elt F)) (m : (⟨S12288x12288, .i1⟩ : BufTy).Contents (Elt F))
    (h_v3 : W (Proc.devRef .tc main_v3) = (m : (⟨S12288x12288, .i1⟩ : BufTy).Contents (Elt F)))
    (h_v18 : W (Proc.devRef .tc main_v18) = ((x18 m) : (⟨S3200000, .i32⟩ : BufTy).Contents (Elt F)))
    (h_v19 : W (Proc.devRef .tc main_v19) = ((x19 m) : (⟨S3200000, .i32⟩ : BufTy).Contents (Elt F)))
    (h_c_8 : W (Proc.devRef .tc main_c_8) = ((constantI S_ 32 12288#32) : (⟨S_, .i32⟩ : BufTy).Contents (Elt F))) :
    StableHlo.afterL [hostOps1_13, hostOps1_14, hostOps1_15, hostOps1_16, hostOps1_17, hostOps1_18, hostOps1_19, hostOps1_20] W (Proc.devRef .tc main_v33) = Cert.Tail.res0 m
      ∧ StableHlo.afterL [hostOps1_13, hostOps1_14, hostOps1_15, hostOps1_16, hostOps1_17, hostOps1_18, hostOps1_19, hostOps1_20] W (Proc.devRef .tc main_v35) = Cert.Tail.res1 m :=
  chain14 (StableHlo.after hostOps1_13 W) m
    ((kept13 W (by decide)).trans h_v3)
    ((kept13 W (by decide)).trans h_v18)
    ((st13 W).trans (by rw [h_v19, h_c_8]))

theorem chain12 (W : Valuation τ sig (Elt F)) (m : (⟨S12288x12288, .i1⟩ : BufTy).Contents (Elt F))
    (h_v3 : W (Proc.devRef .tc main_v3) = (m : (⟨S12288x12288, .i1⟩ : BufTy).Contents (Elt F)))
    (h_v18 : W (Proc.devRef .tc main_v18) = ((x18 m) : (⟨S3200000, .i32⟩ : BufTy).Contents (Elt F)))
    (h_v19 : W (Proc.devRef .tc main_v19) = ((x19 m) : (⟨S3200000, .i32⟩ : BufTy).Contents (Elt F))) :
    StableHlo.afterL [hostOps1_12, hostOps1_13, hostOps1_14, hostOps1_15, hostOps1_16, hostOps1_17, hostOps1_18, hostOps1_19, hostOps1_20] W (Proc.devRef .tc main_v33) = Cert.Tail.res0 m
      ∧ StableHlo.afterL [hostOps1_12, hostOps1_13, hostOps1_14, hostOps1_15, hostOps1_16, hostOps1_17, hostOps1_18, hostOps1_19, hostOps1_20] W (Proc.devRef .tc main_v35) = Cert.Tail.res1 m :=
  chain13 (StableHlo.after hostOps1_12 W) m
    ((kept12 W (by decide)).trans h_v3)
    ((kept12 W (by decide)).trans h_v18)
    ((kept12 W (by decide)).trans h_v19)
    (st12 W)

theorem chain11 (W : Valuation τ sig (Elt F)) (m : (⟨S12288x12288, .i1⟩ : BufTy).Contents (Elt F))
    (h_v3 : W (Proc.devRef .tc main_v3) = (m : (⟨S12288x12288, .i1⟩ : BufTy).Contents (Elt F)))
    (h_v16 : W (Proc.devRef .tc main_v16) = ((x16 m) : (⟨S3200000, .i32⟩ : BufTy).Contents (Elt F)))
    (h_v18 : W (Proc.devRef .tc main_v18) = ((x18 m) : (⟨S3200000, .i32⟩ : BufTy).Contents (Elt F)))
    (h_c_7 : W (Proc.devRef .tc main_c_7) = ((constantI S_ 32 1#32) : (⟨S_, .i32⟩ : BufTy).Contents (Elt F))) :
    StableHlo.afterL [hostOps1_11, hostOps1_12, hostOps1_13, hostOps1_14, hostOps1_15, hostOps1_16, hostOps1_17, hostOps1_18, hostOps1_19, hostOps1_20] W (Proc.devRef .tc main_v33) = Cert.Tail.res0 m
      ∧ StableHlo.afterL [hostOps1_11, hostOps1_12, hostOps1_13, hostOps1_14, hostOps1_15, hostOps1_16, hostOps1_17, hostOps1_18, hostOps1_19, hostOps1_20] W (Proc.devRef .tc main_v35) = Cert.Tail.res1 m :=
  chain12 (StableHlo.after hostOps1_11 W) m
    ((kept11 W (by decide)).trans h_v3)
    ((kept11 W (by decide)).trans h_v18)
    ((st11 W).trans (by rw [h_v16, h_c_7]))

theorem chain10 (W : Valuation τ sig (Elt F)) (m : (⟨S12288x12288, .i1⟩ : BufTy).Contents (Elt F))
    (h_v3 : W (Proc.devRef .tc main_v3) = (m : (⟨S12288x12288, .i1⟩ : BufTy).Contents (Elt F)))
    (h_v16 : W (Proc.devRef .tc main_v16) = ((x16 m) : (⟨S3200000, .i32⟩ : BufTy).Contents (Elt F)))
    (h_v18 : W (Proc.devRef .tc main_v18) = ((x18 m) : (⟨S3200000, .i32⟩ : BufTy).Contents (Elt F))) :
    StableHlo.afterL [hostOps1_10, hostOps1_11, hostOps1_12, hostOps1_13, hostOps1_14, hostOps1_15, hostOps1_16, hostOps1_17, hostOps1_18, hostOps1_19, hostOps1_20] W (Proc.devRef .tc main_v33) = Cert.Tail.res0 m
      ∧ StableHlo.afterL [hostOps1_10, hostOps1_11, hostOps1_12, hostOps1_13, hostOps1_14, hostOps1_15, hostOps1_16, hostOps1_17, hostOps1_18, hostOps1_19, hostOps1_20] W (Proc.devRef .tc main_v35) = Cert.Tail.res1 m :=
  chain11 (StableHlo.after hostOps1_10 W) m
    ((kept10 W (by decide)).trans h_v3)
    ((kept10 W (by decide)).trans h_v16)
    ((kept10 W (by decide)).trans h_v18)
    (st10 W)

theorem chain9 (W : Valuation τ sig (Elt F)) (m : (⟨S12288x12288, .i1⟩ : BufTy).Contents (Elt F))
    (h_v3 : W (Proc.devRef .tc main_v3) = (m : (⟨S12288x12288, .i1⟩ : BufTy).Contents (Elt F)))
    (h_v16 : W (Proc.devRef .tc main_v16) = ((x16 m) : (⟨S3200000, .i32⟩ : BufTy).Contents (Elt F)))
    (h_v17 : W (Proc.devRef .tc main_v17) = ((x17 m) : (⟨S3200000, .i32⟩ : BufTy).Contents (Elt F)))
    (h_c_6 : W (Proc.devRef .tc main_c_6) = ((constantI S_ 32 12288#32) : (⟨S_, .i32⟩ : BufTy).Contents (Elt F))) :
    StableHlo.afterL [hostOps1_9, hostOps1_10, hostOps1_11, hostOps1_12, hostOps1_13, hostOps1_14, hostOps1_15, hostOps1_16, hostOps1_17, hostOps1_18, hostOps1_19, hostOps1_20] W (Proc.devRef .tc main_v33) = Cert.Tail.res0 m
      ∧ StableHlo.afterL [hostOps1_9, hostOps1_10, hostOps1_11, hostOps1_12, hostOps1_13, hostOps1_14, hostOps1_15, hostOps1_16, hostOps1_17, hostOps1_18, hostOps1_19, hostOps1_20] W (Proc.devRef .tc main_v35) = Cert.Tail.res1 m :=
  chain10 (StableHlo.after hostOps1_9 W) m
    ((kept9 W (by decide)).trans h_v3)
    ((kept9 W (by decide)).trans h_v16)
    ((st9 W).trans (by rw [h_v17, h_c_6]))

theorem chain8 (W : Valuation τ sig (Elt F)) (m : (⟨S12288x12288, .i1⟩ : BufTy).Contents (Elt F))
    (h_v3 : W (Proc.devRef .tc main_v3) = (m : (⟨S12288x12288, .i1⟩ : BufTy).Contents (Elt F)))
    (h_v16 : W (Proc.devRef .tc main_v16) = ((x16 m) : (⟨S3200000, .i32⟩ : BufTy).Contents (Elt F)))
    (h_v17 : W (Proc.devRef .tc main_v17) = ((x17 m) : (⟨S3200000, .i32⟩ : BufTy).Contents (Elt F))) :
    StableHlo.afterL [hostOps1_8, hostOps1_9, hostOps1_10, hostOps1_11, hostOps1_12, hostOps1_13, hostOps1_14, hostOps1_15, hostOps1_16, hostOps1_17, hostOps1_18, hostOps1_19, hostOps1_20] W (Proc.devRef .tc main_v33) = Cert.Tail.res0 m
      ∧ StableHlo.afterL [hostOps1_8, hostOps1_9, hostOps1_10, hostOps1_11, hostOps1_12, hostOps1_13, hostOps1_14, hostOps1_15, hostOps1_16, hostOps1_17, hostOps1_18, hostOps1_19, hostOps1_20] W (Proc.devRef .tc main_v35) = Cert.Tail.res1 m :=
  chain9 (StableHlo.after hostOps1_8 W) m
    ((kept8 W (by decide)).trans h_v3)
    ((kept8 W (by decide)).trans h_v16)
    ((kept8 W (by decide)).trans h_v17)
    (st8 W)

theorem chain7 (W : Valuation τ sig (Elt F)) (m : (⟨S12288x12288, .i1⟩ : BufTy).Contents (Elt F))
    (h_v3 : W (Proc.devRef .tc main_v3) = (m : (⟨S12288x12288, .i1⟩ : BufTy).Contents (Elt F)))
    (h_v16 : W (Proc.devRef .tc main_v16) = ((x16 m) : (⟨S3200000, .i32⟩ : BufTy).Contents (Elt F)))
    (h_c_5 : W (Proc.devRef .tc main_c_5) = ((constantI S_ 32 12288#32) : (⟨S_, .i32⟩ : BufTy).Contents (Elt F))) :
    StableHlo.afterL [hostOps1_7, hostOps1_8, hostOps1_9, hostOps1_10, hostOps1_11, hostOps1_12, hostOps1_13, hostOps1_14, hostOps1_15, hostOps1_16, hostOps1_17, hostOps1_18, hostOps1_19, hostOps1_20] W (Proc.devRef .tc main_v33) = Cert.Tail.res0 m
      ∧ StableHlo.afterL [hostOps1_7, hostOps1_8, hostOps1_9, hostOps1_10, hostOps1_11, hostOps1_12, hostOps1_13, hostOps1_14, hostOps1_15, hostOps1_16, hostOps1_17, hostOps1_18, hostOps1_19, hostOps1_20] W (Proc.devRef .tc main_v35) = Cert.Tail.res1 m :=
  chain8 (StableHlo.after hostOps1_7 W) m
    ((kept7 W (by decide)).trans h_v3)
    ((kept7 W (by decide)).trans h_v16)
    ((st7 W).trans (by rw [h_v16, h_c_5]))

theorem chain6 (W : Valuation τ sig (Elt F)) (m : (⟨S12288x12288, .i1⟩ : BufTy).Contents (Elt F))
    (h_v3 : W (Proc.devRef .tc main_v3) = (m : (⟨S12288x12288, .i1⟩ : BufTy).Contents (Elt F)))
    (h_v16 : W (Proc.devRef .tc main_v16) = ((x16 m) : (⟨S3200000, .i32⟩ : BufTy).Contents (Elt F))) :
    StableHlo.afterL [hostOps1_6, hostOps1_7, hostOps1_8, hostOps1_9, hostOps1_10, hostOps1_11, hostOps1_12, hostOps1_13, hostOps1_14, hostOps1_15, hostOps1_16, hostOps1_17, hostOps1_18, hostOps1_19, hostOps1_20] W (Proc.devRef .tc main_v33) = Cert.Tail.res0 m
      ∧ StableHlo.afterL [hostOps1_6, hostOps1_7, hostOps1_8, hostOps1_9, hostOps1_10, hostOps1_11, hostOps1_12, hostOps1_13, hostOps1_14, hostOps1_15, hostOps1_16, hostOps1_17, hostOps1_18, hostOps1_19, hostOps1_20] W (Proc.devRef .tc main_v35) = Cert.Tail.res1 m :=
  chain7 (StableHlo.after hostOps1_6 W) m
    ((kept6 W (by decide)).trans h_v3)
    ((kept6 W (by decide)).trans h_v16)
    (st6 W)

theorem chain5 (W : Valuation τ sig (Elt F)) (m : (⟨S12288x12288, .i1⟩ : BufTy).Contents (Elt F))
    (h_v3 : W (Proc.devRef .tc main_v3) = (m : (⟨S12288x12288, .i1⟩ : BufTy).Contents (Elt F)))
    (h_v15 : W (Proc.devRef .tc main_v15) = ((x15 m) : (⟨S3200000, .i32⟩ : BufTy).Contents (Elt F))) :
    StableHlo.afterL [hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20] W (Proc.devRef .tc main_v33) = Cert.Tail.res0 m
      ∧ StableHlo.afterL [hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20] W (Proc.devRef .tc main_v35) = Cert.Tail.res1 m :=
  chain6 (StableHlo.after hostOps1_5 W) m
    ((kept5 W (by decide)).trans h_v3)
    ((st5 W).trans (by rw [h_v15]))

theorem chain4 (W : Valuation τ sig (Elt F)) (m : (⟨S12288x12288, .i1⟩ : BufTy).Contents (Elt F))
    (h_v3 : W (Proc.devRef .tc main_v3) = (m : (⟨S12288x12288, .i1⟩ : BufTy).Contents (Elt F)))
    (h_v6 : W (Proc.devRef .tc main_v6) = ((Cert.Tail.zerosShort) : (⟨S3200000, .i32⟩ : BufTy).Contents (Elt F)))
    (h_v7 : W (Proc.devRef .tc main_v7) = ((x7 m) : (⟨S150994944, .i32⟩ : BufTy).Contents (Elt F))) :
    StableHlo.afterL [hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20] W (Proc.devRef .tc main_v33) = Cert.Tail.res0 m
      ∧ StableHlo.afterL [hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20] W (Proc.devRef .tc main_v35) = Cert.Tail.res1 m :=
  chain5 (StableHlo.after hostOps1_4 W) m
    ((kept4 W (by decide)).trans h_v3)
    ((st4 W).trans (by rw [h_v6, h_v7]))

theorem chain3 (W : Valuation τ sig (Elt F)) (m : (⟨S12288x12288, .i1⟩ : BufTy).Contents (Elt F))
    (h_v3 : W (Proc.devRef .tc main_v3) = (m : (⟨S12288x12288, .i1⟩ : BufTy).Contents (Elt F)))
    (h_v5 : W (Proc.devRef .tc main_v5) = ((x5 m) : (⟨S150994944, .i32⟩ : BufTy).Contents (Elt F)))
    (h_v6 : W (Proc.devRef .tc main_v6) = ((Cert.Tail.zerosShort) : (⟨S3200000, .i32⟩ : BufTy).Contents (Elt F)))
    (h_c_1 : W (Proc.devRef .tc main_c_1) = ((constantI S_ 32 0#32) : (⟨S_, .i32⟩ : BufTy).Contents (Elt F))) :
    StableHlo.afterL [hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20] W (Proc.devRef .tc main_v33) = Cert.Tail.res0 m
      ∧ StableHlo.afterL [hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20] W (Proc.devRef .tc main_v35) = Cert.Tail.res1 m :=
  chain4 (StableHlo.after hostOps1_3 W) m
    ((kept3 W (by decide)).trans h_v3)
    ((kept3 W (by decide)).trans h_v6)
    ((st3 W).trans (by rw [h_c_1, h_v5]))

theorem chain2 (W : Valuation τ sig (Elt F)) (m : (⟨S12288x12288, .i1⟩ : BufTy).Contents (Elt F))
    (h_v3 : W (Proc.devRef .tc main_v3) = (m : (⟨S12288x12288, .i1⟩ : BufTy).Contents (Elt F)))
    (h_v5 : W (Proc.devRef .tc main_v5) = ((x5 m) : (⟨S150994944, .i32⟩ : BufTy).Contents (Elt F))) :
    StableHlo.afterL [hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20] W (Proc.devRef .tc main_v33) = Cert.Tail.res0 m
      ∧ StableHlo.afterL [hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20] W (Proc.devRef .tc main_v35) = Cert.Tail.res1 m :=
  chain3 (StableHlo.after hostOps1_2 W) m
    ((kept2 W (by decide)).trans h_v3)
    ((kept2 W (by decide)).trans h_v5)
    (st2a W)
    (st2b W)

theorem chain1 (W : Valuation τ sig (Elt F)) (m : (⟨S12288x12288, .i1⟩ : BufTy).Contents (Elt F))
    (h_v3 : W (Proc.devRef .tc main_v3) = (m : (⟨S12288x12288, .i1⟩ : BufTy).Contents (Elt F))) :
    StableHlo.afterL [hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20] W (Proc.devRef .tc main_v33) = Cert.Tail.res0 m
      ∧ StableHlo.afterL [hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20] W (Proc.devRef .tc main_v35) = Cert.Tail.res1 m :=
  chain2 (StableHlo.after hostOps1_1 W) m
    ((kept1 W (by decide)).trans h_v3)
    ((st1 W).trans (by rw [h_v3]))

/-- The tail's stretches, in order. -/
abbrev opss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20]

/-- Both results of the tail, from any contents: the two coordinate lists of the mask of the nonzero words. -/
theorem read_both (W : Valuation τ sig (Elt F)) :
    StableHlo.after (List.flatten opss) W (Proc.devRef .tc main_v33) = Cert.Tail.res0 (Cert.Tail.maskOfWords (W (Proc.devRef .tc main_v0)))
      ∧ StableHlo.after (List.flatten opss) W (Proc.devRef .tc main_v35) = Cert.Tail.res1 (Cert.Tail.maskOfWords (W (Proc.devRef .tc main_v0))) := by
  rw [← StableHlo.afterL_eq_after_flatten]
  exact chain1 (StableHlo.after hostOps1 W) (Cert.Tail.maskOfWords (W (Proc.devRef .tc main_v0))) (st0 W)

theorem read0 (W : Valuation τ sig (Elt F)) :
    StableHlo.after (List.flatten opss) W (Proc.devRef .tc main_v33) = Cert.Tail.res0 (Cert.Tail.maskOfWords (W (Proc.devRef .tc main_v0))) :=
  (read_both W).1

theorem read1 (W : Valuation τ sig (Elt F)) :
    StableHlo.after (List.flatten opss) W (Proc.devRef .tc main_v35) = Cert.Tail.res1 (Cert.Tail.maskOfWords (W (Proc.devRef .tc main_v0))) :=
  (read_both W).2

end Cert.KernelIdeal.HTail

end
-- ==== Proof.ROps.lean ====
/- The reference program's @main as lists of its host operations, cut into 21 stretches: @main's own
   lines between two calls are one stretch, each outlined call (its nested calls inlined) is a stretch of its own.
   A callee's line is written over the call's typed buffer references, exactly as the body unfolds. -/
import proofs.«180157_j7541962572511_2_alg».proof.Proof.Gen.ReferenceIdeal
import Idealize.ShloMosaic.Lib.StableHlo.Run

noncomputable section

namespace Cert.ReferenceIdeal.HRun

open Cert.ReferenceIdeal Cert.ReferenceIdeal.Gen Idealize.ShloMosaic Idealize.ShloMosaic.TcCoe Idealize.SL.Sem

variable {F : FTy → Type} [FloatOps F]

/-- 3 host operations of @main, in order. -/
abbrev rops0 : List (HloOp τ sig (Elt F)) :=
  [ StableHlo.nullary main_cst (constant S_ .f32 0x3C23D70A#32),
    StableHlo.unary main_cst main_v0 (broadcastInDim S12288x12288 ![] bcast_S_S12288x12288 : (⟨S_, .f32⟩ : BufTy).Contents (Elt F) → (⟨S12288x12288, .f32⟩ : BufTy).Contents (Elt F)),
    StableHlo.binary main_arg0 main_v0 main_v1 (cmpf .olt : (⟨S12288x12288, .f32⟩ : BufTy).Contents (Elt F) → (⟨S12288x12288, .f32⟩ : BufTy).Contents (Elt F) → (⟨S12288x12288, .i1⟩ : BufTy).Contents (Elt F)) ]
/-- Each touches TensorCore references only. -/
theorem rops0_sub : (rops0 : List (HloOp τ sig (Elt F))).Forall fun op => op.bufs ⊆ StableHlo.tcRefs τ sig :=
  ⟨StableHlo.nullary_bufs_sub .., StableHlo.unary_bufs_sub .., StableHlo.binary_bufs_sub ..⟩

/-- 5 host operations of @cumsum (main_call1), in order. -/
abbrev rops1 : List (HloOp τ sig (Elt F)) :=
  [ StableHlo.TRef.reshape (.of main_v1 : StableHlo.TRef sig ⟨S12288x12288, .i1⟩) (.of main_call1_v0 : StableHlo.TRef sig ⟨S150994944, .i1⟩) rfl shapeCasts_S12288x12288_S150994944,
    StableHlo.TRef.unary (.of main_call1_v0 : StableHlo.TRef sig ⟨S150994944, .i1⟩) (.of main_call1_v1 : StableHlo.TRef sig ⟨S150994944, .i32⟩) (extui 32 · natLt_1_32),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_call1_v1 : StableHlo.TRef sig ⟨S150994944, .i32⟩) (.of main_call1_call0_v0 : StableHlo.TRef sig ⟨S_, .i32⟩) (.of main_v3 : StableHlo.TRef sig ⟨S150994944, .i32⟩) (fun x v => Host.reduceWindow IntOp.addi ![150994944] ![1] ![150994943] ![0] x v reduceWindows_S150994944_S150994944_w150994944s1p150994943_0 h_S_) ]
/-- Each touches TensorCore references only. -/
theorem rops1_sub : (rops1 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.binary_bufs_sub ..⟩

/-- 3 host operations of @main, in order. -/
abbrev rops2 : List (HloOp τ sig (Elt F)) :=
  [ StableHlo.nullary main_c (constantI S_ 32 0#32),
    StableHlo.unary main_c main_v4 (broadcastInDim S3200000 ![] bcast_S_S3200000 : (⟨S_, .i32⟩ : BufTy).Contents (Elt F) → (⟨S3200000, .i32⟩ : BufTy).Contents (Elt F)),
    StableHlo.nullary main_c_0 (constantI S_ 32 0#32) ]
/-- Each touches TensorCore references only. -/
theorem rops2_sub : (rops2 : List (HloOp τ sig (Elt F))).Forall fun op => op.bufs ⊆ StableHlo.tcRefs τ sig :=
  ⟨StableHlo.nullary_bufs_sub .., StableHlo.unary_bufs_sub .., StableHlo.nullary_bufs_sub ..⟩

/-- 3 host operations of @clip (main_call2), in order. -/
abbrev rops3 : List (HloOp τ sig (Elt F)) :=
  [ StableHlo.TRef.unary (.of main_c_0 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S150994944, .i32⟩) (broadcastInDim S150994944 ![] bcast_S_S150994944),
    StableHlo.TRef.binary (.of main_call2_v1 : StableHlo.TRef sig ⟨S150994944, .i32⟩) (.of main_v3 : StableHlo.TRef sig ⟨S150994944, .i32⟩) (.of main_v5 : StableHlo.TRef sig ⟨S150994944, .i32⟩) maxsi ]
/-- Each touches TensorCore references only. -/
theorem rops3_sub : (rops3 : List (HloOp τ sig (Elt F))).Forall fun op => op.bufs ⊆ StableHlo.tcRefs τ sig :=
  ⟨StableHlo.unary_bufs_sub .., StableHlo.unary_bufs_sub .., StableHlo.binary_bufs_sub ..⟩

/-- 11 host operations of @main, in order. -/
abbrev rops4 : List (HloOp τ sig (Elt F)) :=
  [ StableHlo.nullary main_c_1 (constantI S_ 32 0#32),
    StableHlo.unary main_c_1 main_v6 (broadcastInDim S150994944 ![] bcast_S_S150994944 : (⟨S_, .i32⟩ : BufTy).Contents (Elt F) → (⟨S150994944, .i32⟩ : BufTy).Contents (Elt F)),
    StableHlo.binary main_v5 main_v6 main_v7 (cmpi .slt : (⟨S150994944, .i32⟩ : BufTy).Contents (Elt F) → (⟨S150994944, .i32⟩ : BufTy).Contents (Elt F) → (⟨S150994944, .i1⟩ : BufTy).Contents (Elt F)),
    StableHlo.nullary main_c_2 (constantI S_ 32 3200000#32),
    StableHlo.unary main_c_2 main_v8 (broadcastInDim S150994944 ![] bcast_S_S150994944 : (⟨S_, .i32⟩ : BufTy).Contents (Elt F) → (⟨S150994944, .i32⟩ : BufTy).Contents (Elt F)),
    StableHlo.binary main_v5 main_v8 main_v9 (addi : (⟨S150994944, .i32⟩ : BufTy).Contents (Elt F) → (⟨S150994944, .i32⟩ : BufTy).Contents (Elt F) → (⟨S150994944, .i32⟩ : BufTy).Contents (Elt F)),
    StableHlo.ternary main_v7 main_v9 main_v5 main_v10 (select : (⟨S150994944, .i1⟩ : BufTy).Contents (Elt F) → (⟨S150994944, .i32⟩ : BufTy).Contents (Elt F) → (⟨S150994944, .i32⟩ : BufTy).Contents (Elt F) → (⟨S150994944, .i32⟩ : BufTy).Contents (Elt F)),
    StableHlo.unary main_v10 main_v11 (broadcastInDim S150994944x1 ![0] bcast_S150994944_S150994944x1_0 : (⟨S150994944, .i32⟩ : BufTy).Contents (Elt F) → (⟨S150994944x1, .i32⟩ : BufTy).Contents (Elt F)),
    StableHlo.nullary main_c_3 (constantI S_ 32 1#32),
    StableHlo.unary main_c_3 main_v12 (broadcastInDim S150994944 ![] bcast_S_S150994944 : (⟨S_, .i32⟩ : BufTy).Contents (Elt F) → (⟨S150994944, .i32⟩ : BufTy).Contents (Elt F)),
    StableHlo.ternary main_v4 main_v11 main_v12 main_v13 ((fun x i u => Host.scatter scatter_S3200000_S150994944x1_S150994944_n_0_0_1 IntOp.addi x i u) : (⟨S3200000, .i32⟩ : BufTy).Contents (Elt F) → (⟨S150994944x1, .i32⟩ : BufTy).Contents (Elt F) → (⟨S150994944, .i32⟩ : BufTy).Contents (Elt F) → (⟨S3200000, .i32⟩ : BufTy).Contents (Elt F)) ]
/-- Each touches TensorCore references only. -/
theorem rops4_sub : (rops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩

/-- 3 host operations of @cumsum_1 (main_call3), in order. -/
abbrev rops5 : List (HloOp τ sig (Elt F)) :=
  [ StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v13 : StableHlo.TRef sig ⟨S3200000, .i32⟩) (.of main_call3_call0_v0 : StableHlo.TRef sig ⟨S_, .i32⟩) (.of main_v14 : StableHlo.TRef sig ⟨S3200000, .i32⟩) (fun x v => Host.reduceWindow IntOp.addi ![3200000] ![1] ![3199999] ![0] x v reduceWindows_S3200000_S3200000_w3200000s1p3199999_0 h_S_) ]
/-- Each touches TensorCore references only. -/
theorem rops5_sub : (rops5 : List (HloOp τ sig (Elt F))).Forall fun op => op.bufs ⊆ StableHlo.tcRefs τ sig :=
  ⟨StableHlo.nullary_bufs_sub .., StableHlo.unary_bufs_sub .., StableHlo.binary_bufs_sub ..⟩

/-- 1 host operation of @main, in order. -/
abbrev rops6 : List (HloOp τ sig (Elt F)) :=
  [ StableHlo.nullary main_c_4 (constantI S_ 32 12288#32) ]
/-- Each touches TensorCore references only. -/
theorem rops6_sub : (rops6 : List (HloOp τ sig (Elt F))).Forall fun op => op.bufs ⊆ StableHlo.tcRefs τ sig :=
  StableHlo.nullary_bufs_sub ..

/-- 16 host operations of @floor_divide (main_call4), in order. -/
abbrev rops7 : List (HloOp τ sig (Elt F)) :=
  [ StableHlo.TRef.unary (.of main_c_4 : StableHlo.TRef sig ⟨S_, .i32⟩) (.of main_call4_v0 : StableHlo.TRef sig ⟨S3200000, .i32⟩) (broadcastInDim S3200000 ![] bcast_S_S3200000),
    StableHlo.TRef.binary (.of main_v14 : StableHlo.TRef sig ⟨S3200000, .i32⟩) (.of main_call4_v0 : StableHlo.TRef sig ⟨S3200000, .i32⟩) (.of main_call4_v1 : StableHlo.TRef sig ⟨S3200000, .i32⟩) Host.divsi,
    StableHlo.TRef.unary (.of main_v14 : StableHlo.TRef sig ⟨S3200000, .i32⟩) (.of main_call4_v2 : StableHlo.TRef sig ⟨S3200000, .i32⟩) signi,
    StableHlo.TRef.unary (.of main_c_4 : StableHlo.TRef sig ⟨S_, .i32⟩) (.of main_call4_v3 : StableHlo.TRef sig ⟨S_, .i32⟩) signi,
    StableHlo.TRef.unary (.of main_call4_v3 : StableHlo.TRef sig ⟨S_, .i32⟩) (.of main_call4_v4 : StableHlo.TRef sig ⟨S3200000, .i32⟩) (broadcastInDim S3200000 ![] bcast_S_S3200000),
    StableHlo.TRef.binary (.of main_call4_v2 : StableHlo.TRef sig ⟨S3200000, .i32⟩) (.of main_call4_v4 : StableHlo.TRef sig ⟨S3200000, .i32⟩) (.of main_call4_v5 : StableHlo.TRef sig ⟨S3200000, .i1⟩) (cmpi .ne),
    StableHlo.TRef.unary (.of main_c_4 : StableHlo.TRef sig ⟨S_, .i32⟩) (.of main_call4_v6 : StableHlo.TRef sig ⟨S3200000, .i32⟩) (broadcastInDim S3200000 ![] bcast_S_S3200000),
    StableHlo.TRef.binary (.of main_v14 : StableHlo.TRef sig ⟨S3200000, .i32⟩) (.of main_call4_v6 : StableHlo.TRef sig ⟨S3200000, .i32⟩) (.of main_call4_v7 : StableHlo.TRef sig ⟨S3200000, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v8 : StableHlo.TRef sig ⟨S3200000, .i32⟩) (broadcastInDim S3200000 ![] bcast_S_S3200000),
    StableHlo.TRef.binary (.of main_call4_v7 : StableHlo.TRef sig ⟨S3200000, .i32⟩) (.of main_call4_v8 : StableHlo.TRef sig ⟨S3200000, .i32⟩) (.of main_call4_v9 : StableHlo.TRef sig ⟨S3200000, .i1⟩) (cmpi .ne),
    StableHlo.TRef.binary (.of main_call4_v5 : StableHlo.TRef sig ⟨S3200000, .i1⟩) (.of main_call4_v9 : StableHlo.TRef sig ⟨S3200000, .i1⟩) (.of main_call4_v10 : StableHlo.TRef sig ⟨S3200000, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v11 : StableHlo.TRef sig ⟨S3200000, .i32⟩) (broadcastInDim S3200000 ![] bcast_S_S3200000),
    StableHlo.TRef.binary (.of main_call4_v1 : StableHlo.TRef sig ⟨S3200000, .i32⟩) (.of main_call4_v11 : StableHlo.TRef sig ⟨S3200000, .i32⟩) (.of main_call4_v12 : StableHlo.TRef sig ⟨S3200000, .i32⟩) subi,
    StableHlo.TRef.ternary (.of main_call4_v10 : StableHlo.TRef sig ⟨S3200000, .i1⟩) (.of main_call4_v12 : StableHlo.TRef sig ⟨S3200000, .i32⟩) (.of main_call4_v1 : StableHlo.TRef sig ⟨S3200000, .i32⟩) (.of main_v15 : StableHlo.TRef sig ⟨S3200000, .i32⟩) select ]
/-- Each touches TensorCore references only. -/
theorem rops7_sub : (rops7 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- 1 host operation of @main, in order. -/
abbrev rops8 : List (HloOp τ sig (Elt F)) :=
  [ StableHlo.nullary main_c_5 (constantI S_ 32 12288#32) ]
/-- Each touches TensorCore references only. -/
theorem rops8_sub : (rops8 : List (HloOp τ sig (Elt F))).Forall fun op => op.bufs ⊆ StableHlo.tcRefs τ sig :=
  StableHlo.nullary_bufs_sub ..

/-- 21 host operations of @remainder (main_call5), in order. -/
abbrev rops9 : List (HloOp τ sig (Elt F)) :=
  [ StableHlo.TRef.unary (.of main_c_5 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary (.of main_call5_v2 : StableHlo.TRef sig ⟨S_, .i32⟩) (.of main_call5_v3 : StableHlo.TRef sig ⟨S3200000, .i32⟩) (broadcastInDim S3200000 ![] bcast_S_S3200000),
    StableHlo.TRef.binary (.of main_v15 : StableHlo.TRef sig ⟨S3200000, .i32⟩) (.of main_call5_v3 : StableHlo.TRef sig ⟨S3200000, .i32⟩) (.of main_call5_v4 : StableHlo.TRef sig ⟨S3200000, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S3200000, .i32⟩) (broadcastInDim S3200000 ![] bcast_S_S3200000),
    StableHlo.TRef.binary (.of main_call5_v4 : StableHlo.TRef sig ⟨S3200000, .i32⟩) (.of main_call5_v5 : StableHlo.TRef sig ⟨S3200000, .i32⟩) (.of main_call5_v6 : StableHlo.TRef sig ⟨S3200000, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S3200000, .i32⟩) (broadcastInDim S3200000 ![] bcast_S_S3200000),
    StableHlo.TRef.binary (.of main_call5_v4 : StableHlo.TRef sig ⟨S3200000, .i32⟩) (.of main_call5_v7 : StableHlo.TRef sig ⟨S3200000, .i32⟩) (.of main_call5_v8 : StableHlo.TRef sig ⟨S3200000, .i1⟩) (cmpi .slt),
    StableHlo.TRef.nullary (.of main_call5_c_3 : StableHlo.TRef sig ⟨S_, .i32⟩) (constantI S_ 32 0#32),
    StableHlo.TRef.binary (.of main_call5_v2 : StableHlo.TRef sig ⟨S_, .i32⟩) (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S3200000, .i1⟩) (broadcastInDim S3200000 ![] bcast_S_S3200000),
    StableHlo.TRef.binary (.of main_call5_v8 : StableHlo.TRef sig ⟨S3200000, .i1⟩) (.of main_call5_v10 : StableHlo.TRef sig ⟨S3200000, .i1⟩) (.of main_call5_v11 : StableHlo.TRef sig ⟨S3200000, .i1⟩) (cmpi .ne),
    StableHlo.TRef.binary (.of main_call5_v11 : StableHlo.TRef sig ⟨S3200000, .i1⟩) (.of main_call5_v6 : StableHlo.TRef sig ⟨S3200000, .i1⟩) (.of main_call5_v12 : StableHlo.TRef sig ⟨S3200000, .i1⟩) andi,
    StableHlo.TRef.unary (.of main_call5_v2 : StableHlo.TRef sig ⟨S_, .i32⟩) (.of main_call5_v13 : StableHlo.TRef sig ⟨S3200000, .i32⟩) (broadcastInDim S3200000 ![] bcast_S_S3200000),
    StableHlo.TRef.binary (.of main_call5_v4 : StableHlo.TRef sig ⟨S3200000, .i32⟩) (.of main_call5_v13 : StableHlo.TRef sig ⟨S3200000, .i32⟩) (.of main_call5_v14 : StableHlo.TRef sig ⟨S3200000, .i32⟩) addi,
    StableHlo.TRef.ternary (.of main_call5_v12 : StableHlo.TRef sig ⟨S3200000, .i1⟩) (.of main_call5_v14 : StableHlo.TRef sig ⟨S3200000, .i32⟩) (.of main_call5_v4 : StableHlo.TRef sig ⟨S3200000, .i32⟩) (.of main_v16 : StableHlo.TRef sig ⟨S3200000, .i32⟩) select ]
/-- Each touches TensorCore references only. -/
theorem rops9_sub : (rops9 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- 1 host operation of @main, in order. -/
abbrev rops10 : List (HloOp τ sig (Elt F)) :=
  [ StableHlo.nullary main_c_6 (constantI S_ 32 1#32) ]
/-- Each touches TensorCore references only. -/
theorem rops10_sub : (rops10 : List (HloOp τ sig (Elt F))).Forall fun op => op.bufs ⊆ StableHlo.tcRefs τ sig :=
  StableHlo.nullary_bufs_sub ..

/-- 16 host operations of @floor_divide (main_call6), in order. -/
abbrev rops11 : List (HloOp τ sig (Elt F)) :=
  [ StableHlo.TRef.unary (.of main_c_6 : StableHlo.TRef sig ⟨S_, .i32⟩) (.of main_call6_v0 : StableHlo.TRef sig ⟨S3200000, .i32⟩) (broadcastInDim S3200000 ![] bcast_S_S3200000),
    StableHlo.TRef.binary (.of main_v14 : StableHlo.TRef sig ⟨S3200000, .i32⟩) (.of main_call6_v0 : StableHlo.TRef sig ⟨S3200000, .i32⟩) (.of main_call6_v1 : StableHlo.TRef sig ⟨S3200000, .i32⟩) Host.divsi,
    StableHlo.TRef.unary (.of main_v14 : StableHlo.TRef sig ⟨S3200000, .i32⟩) (.of main_call6_v2 : StableHlo.TRef sig ⟨S3200000, .i32⟩) signi,
    StableHlo.TRef.unary (.of main_c_6 : StableHlo.TRef sig ⟨S_, .i32⟩) (.of main_call6_v3 : StableHlo.TRef sig ⟨S_, .i32⟩) signi,
    StableHlo.TRef.unary (.of main_call6_v3 : StableHlo.TRef sig ⟨S_, .i32⟩) (.of main_call6_v4 : StableHlo.TRef sig ⟨S3200000, .i32⟩) (broadcastInDim S3200000 ![] bcast_S_S3200000),
    StableHlo.TRef.binary (.of main_call6_v2 : StableHlo.TRef sig ⟨S3200000, .i32⟩) (.of main_call6_v4 : StableHlo.TRef sig ⟨S3200000, .i32⟩) (.of main_call6_v5 : StableHlo.TRef sig ⟨S3200000, .i1⟩) (cmpi .ne),
    StableHlo.TRef.unary (.of main_c_6 : StableHlo.TRef sig ⟨S_, .i32⟩) (.of main_call6_v6 : StableHlo.TRef sig ⟨S3200000, .i32⟩) (broadcastInDim S3200000 ![] bcast_S_S3200000),
    StableHlo.TRef.binary (.of main_v14 : StableHlo.TRef sig ⟨S3200000, .i32⟩) (.of main_call6_v6 : StableHlo.TRef sig ⟨S3200000, .i32⟩) (.of main_call6_v7 : StableHlo.TRef sig ⟨S3200000, .i32⟩) Host.remsi,
    StableHlo.TRef.nullary (.of main_call6_c : StableHlo.TRef sig ⟨S_, .i32⟩) (constantI S_ 32 0#32),
    StableHlo.TRef.unary (.of main_call6_c : StableHlo.TRef sig ⟨S_, .i32⟩) (.of main_call6_v8 : StableHlo.TRef sig ⟨S3200000, .i32⟩) (broadcastInDim S3200000 ![] bcast_S_S3200000),
    StableHlo.TRef.binary (.of main_call6_v7 : StableHlo.TRef sig ⟨S3200000, .i32⟩) (.of main_call6_v8 : StableHlo.TRef sig ⟨S3200000, .i32⟩) (.of main_call6_v9 : StableHlo.TRef sig ⟨S3200000, .i1⟩) (cmpi .ne),
    StableHlo.TRef.binary (.of main_call6_v5 : StableHlo.TRef sig ⟨S3200000, .i1⟩) (.of main_call6_v9 : StableHlo.TRef sig ⟨S3200000, .i1⟩) (.of main_call6_v10 : StableHlo.TRef sig ⟨S3200000, .i1⟩) andi,
    StableHlo.TRef.nullary (.of main_call6_c_0 : StableHlo.TRef sig ⟨S_, .i32⟩) (constantI S_ 32 1#32),
    StableHlo.TRef.unary (.of main_call6_c_0 : StableHlo.TRef sig ⟨S_, .i32⟩) (.of main_call6_v11 : StableHlo.TRef sig ⟨S3200000, .i32⟩) (broadcastInDim S3200000 ![] bcast_S_S3200000),
    StableHlo.TRef.binary (.of main_call6_v1 : StableHlo.TRef sig ⟨S3200000, .i32⟩) (.of main_call6_v11 : StableHlo.TRef sig ⟨S3200000, .i32⟩) (.of main_call6_v12 : StableHlo.TRef sig ⟨S3200000, .i32⟩) subi,
    StableHlo.TRef.ternary (.of main_call6_v10 : StableHlo.TRef sig ⟨S3200000, .i1⟩) (.of main_call6_v12 : StableHlo.TRef sig ⟨S3200000, .i32⟩) (.of main_call6_v1 : StableHlo.TRef sig ⟨S3200000, .i32⟩) (.of main_v17 : StableHlo.TRef sig ⟨S3200000, .i32⟩) select ]
/-- Each touches TensorCore references only. -/
theorem rops11_sub : (rops11 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- 1 host operation of @main, in order. -/
abbrev rops12 : List (HloOp τ sig (Elt F)) :=
  [ StableHlo.nullary main_c_7 (constantI S_ 32 12288#32) ]
/-- Each touches TensorCore references only. -/
theorem rops12_sub : (rops12 : List (HloOp τ sig (Elt F))).Forall fun op => op.bufs ⊆ StableHlo.tcRefs τ sig :=
  StableHlo.nullary_bufs_sub ..

/-- 21 host operations of @remainder (main_call7), in order. -/
abbrev rops13 : List (HloOp τ sig (Elt F)) :=
  [ StableHlo.TRef.unary (.of main_c_7 : StableHlo.TRef sig ⟨S_, .i32⟩) (.of main_call7_v0 : StableHlo.TRef sig ⟨S_, .i32⟩) id,
    StableHlo.TRef.nullary (.of main_call7_c : StableHlo.TRef sig ⟨S_, .i32⟩) (constantI S_ 32 0#32),
    StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq),
    StableHlo.TRef.nullary (.of main_call7_c_0 : StableHlo.TRef sig ⟨S_, .i32⟩) (constantI S_ 32 1#32),
    StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select,
    StableHlo.TRef.unary (.of main_call7_v2 : StableHlo.TRef sig ⟨S_, .i32⟩) (.of main_call7_v3 : StableHlo.TRef sig ⟨S3200000, .i32⟩) (broadcastInDim S3200000 ![] bcast_S_S3200000),
    StableHlo.TRef.binary (.of main_v17 : StableHlo.TRef sig ⟨S3200000, .i32⟩) (.of main_call7_v3 : StableHlo.TRef sig ⟨S3200000, .i32⟩) (.of main_call7_v4 : StableHlo.TRef sig ⟨S3200000, .i32⟩) Host.remsi,
    StableHlo.TRef.nullary (.of main_call7_c_1 : StableHlo.TRef sig ⟨S_, .i32⟩) (constantI S_ 32 0#32),
    StableHlo.TRef.unary (.of main_call7_c_1 : StableHlo.TRef sig ⟨S_, .i32⟩) (.of main_call7_v5 : StableHlo.TRef sig ⟨S3200000, .i32⟩) (broadcastInDim S3200000 ![] bcast_S_S3200000),
    StableHlo.TRef.binary (.of main_call7_v4 : StableHlo.TRef sig ⟨S3200000, .i32⟩) (.of main_call7_v5 : StableHlo.TRef sig ⟨S3200000, .i32⟩) (.of main_call7_v6 : StableHlo.TRef sig ⟨S3200000, .i1⟩) (cmpi .ne),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v7 : StableHlo.TRef sig ⟨S3200000, .i32⟩) (broadcastInDim S3200000 ![] bcast_S_S3200000),
    StableHlo.TRef.binary (.of main_call7_v4 : StableHlo.TRef sig ⟨S3200000, .i32⟩) (.of main_call7_v7 : StableHlo.TRef sig ⟨S3200000, .i32⟩) (.of main_call7_v8 : StableHlo.TRef sig ⟨S3200000, .i1⟩) (cmpi .slt),
    StableHlo.TRef.nullary (.of main_call7_c_3 : StableHlo.TRef sig ⟨S_, .i32⟩) (constantI S_ 32 0#32),
    StableHlo.TRef.binary (.of main_call7_v2 : StableHlo.TRef sig ⟨S_, .i32⟩) (.of main_call7_c_3 : StableHlo.TRef sig ⟨S_, .i32⟩) (.of main_call7_v9 : StableHlo.TRef sig ⟨S_, .i1⟩) (cmpi .slt),
    StableHlo.TRef.unary (.of main_call7_v9 : StableHlo.TRef sig ⟨S_, .i1⟩) (.of main_call7_v10 : StableHlo.TRef sig ⟨S3200000, .i1⟩) (broadcastInDim S3200000 ![] bcast_S_S3200000),
    StableHlo.TRef.binary (.of main_call7_v8 : StableHlo.TRef sig ⟨S3200000, .i1⟩) (.of main_call7_v10 : StableHlo.TRef sig ⟨S3200000, .i1⟩) (.of main_call7_v11 : StableHlo.TRef sig ⟨S3200000, .i1⟩) (cmpi .ne),
    StableHlo.TRef.binary (.of main_call7_v11 : StableHlo.TRef sig ⟨S3200000, .i1⟩) (.of main_call7_v6 : StableHlo.TRef sig ⟨S3200000, .i1⟩) (.of main_call7_v12 : StableHlo.TRef sig ⟨S3200000, .i1⟩) andi,
    StableHlo.TRef.unary (.of main_call7_v2 : StableHlo.TRef sig ⟨S_, .i32⟩) (.of main_call7_v13 : StableHlo.TRef sig ⟨S3200000, .i32⟩) (broadcastInDim S3200000 ![] bcast_S_S3200000),
    StableHlo.TRef.binary (.of main_call7_v4 : StableHlo.TRef sig ⟨S3200000, .i32⟩) (.of main_call7_v13 : StableHlo.TRef sig ⟨S3200000, .i32⟩) (.of main_call7_v14 : StableHlo.TRef sig ⟨S3200000, .i32⟩) addi,
    StableHlo.TRef.ternary (.of main_call7_v12 : StableHlo.TRef sig ⟨S3200000, .i1⟩) (.of main_call7_v14 : StableHlo.TRef sig ⟨S3200000, .i32⟩) (.of main_call7_v4 : StableHlo.TRef sig ⟨S3200000, .i32⟩) (.of main_v18 : StableHlo.TRef sig ⟨S3200000, .i32⟩) select ]
/-- Each touches TensorCore references only. -/
theorem rops13_sub : (rops13 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- 7 host operations of @main, in order. -/
abbrev rops14 : List (HloOp τ sig (Elt F)) :=
  [ StableHlo.nullary main_v19 (iotaInDim S3200000 32 0),
    StableHlo.unary main_v1 main_v20 ((extui 32 · natLt_1_32) : (⟨S12288x12288, .i1⟩ : BufTy).Contents (Elt F) → (⟨S12288x12288, .i32⟩ : BufTy).Contents (Elt F)),
    StableHlo.nullary main_c_8 (constantI S_ 32 0#32),
    StableHlo.binary main_v20 main_c_8 main_v21 ((fun x v => Host.reduce IntOp.addi x v reducesTo_S12288x12288_S_d0_1 h_S_) : (⟨S12288x12288, .i32⟩ : BufTy).Contents (Elt F) → (⟨S_, .i32⟩ : BufTy).Contents (Elt F) → (⟨S_, .i32⟩ : BufTy).Contents (Elt F)),
    StableHlo.unary main_v21 main_v22 (broadcastInDim S3200000 ![] bcast_S_S3200000 : (⟨S_, .i32⟩ : BufTy).Contents (Elt F) → (⟨S3200000, .i32⟩ : BufTy).Contents (Elt F)),
    StableHlo.binary main_v19 main_v22 main_v23 (cmpi .sge : (⟨S3200000, .i32⟩ : BufTy).Contents (Elt F) → (⟨S3200000, .i32⟩ : BufTy).Contents (Elt F) → (⟨S3200000, .i1⟩ : BufTy).Contents (Elt F)),
    StableHlo.nullary main_c_9 (constantI S_ 32 4294967295#32) ]
/-- Each touches TensorCore references only. -/
theorem rops14_sub : (rops14 : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.unary_bufs_sub .., StableHlo.binary_bufs_sub .., StableHlo.nullary_bufs_sub ..⟩

/-- 3 host operations of @where_4 (main_call8), in order. -/
abbrev rops15 : List (HloOp τ sig (Elt F)) :=
  [ StableHlo.TRef.unary (.of main_c_9 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S3200000, .i32⟩) (broadcastInDim S3200000 ![] bcast_S_S3200000),
    StableHlo.TRef.ternary (.of main_v23 : StableHlo.TRef sig ⟨S3200000, .i1⟩) (.of main_call8_v1 : StableHlo.TRef sig ⟨S3200000, .i32⟩) (.of main_v16 : StableHlo.TRef sig ⟨S3200000, .i32⟩) (.of main_v24 : StableHlo.TRef sig ⟨S3200000, .i32⟩) select ]
/-- Each touches TensorCore references only. -/
theorem rops15_sub : (rops15 : List (HloOp τ sig (Elt F))).Forall fun op => op.bufs ⊆ StableHlo.tcRefs τ sig :=
  ⟨StableHlo.unary_bufs_sub .., StableHlo.unary_bufs_sub .., StableHlo.ternary_bufs_sub ..⟩

/-- 1 host operation of @main, in order. -/
abbrev rops16 : List (HloOp τ sig (Elt F)) :=
  [ StableHlo.nullary main_c_10 (constantI S_ 32 4294967295#32) ]
/-- Each touches TensorCore references only. -/
theorem rops16_sub : (rops16 : List (HloOp τ sig (Elt F))).Forall fun op => op.bufs ⊆ StableHlo.tcRefs τ sig :=
  StableHlo.nullary_bufs_sub ..

/-- 3 host operations of @where_4 (main_call9), in order. -/
abbrev rops17 : List (HloOp τ sig (Elt F)) :=
  [ StableHlo.TRef.unary (.of main_c_10 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S3200000, .i32⟩) (broadcastInDim S3200000 ![] bcast_S_S3200000),
    StableHlo.TRef.ternary (.of main_v23 : StableHlo.TRef sig ⟨S3200000, .i1⟩) (.of main_call9_v1 : StableHlo.TRef sig ⟨S3200000, .i32⟩) (.of main_v18 : StableHlo.TRef sig ⟨S3200000, .i32⟩) (.of main_v25 : StableHlo.TRef sig ⟨S3200000, .i32⟩) select ]
/-- Each touches TensorCore references only. -/
theorem rops17_sub : (rops17 : List (HloOp τ sig (Elt F))).Forall fun op => op.bufs ⊆ StableHlo.tcRefs τ sig :=
  ⟨StableHlo.unary_bufs_sub .., StableHlo.unary_bufs_sub .., StableHlo.ternary_bufs_sub ..⟩

/-- 1 host operation of @atleast_2d (main_call10), in order. -/
abbrev rops18 : List (HloOp τ sig (Elt F)) :=
  [ StableHlo.TRef.unary (.of main_v24 : StableHlo.TRef sig ⟨S3200000, .i32⟩) (.of main_v26 : StableHlo.TRef sig ⟨S1x3200000, .i32⟩) (broadcastInDim S1x3200000 ![1] bcast_S3200000_S1x3200000_1) ]
/-- Each touches TensorCore references only. -/
theorem rops18_sub : (rops18 : List (HloOp τ sig (Elt F))).Forall fun op => op.bufs ⊆ StableHlo.tcRefs τ sig :=
  StableHlo.unary_bufs_sub ..

/-- 1 host operation of @atleast_2d (main_call11), in order. -/
abbrev rops19 : List (HloOp τ sig (Elt F)) :=
  [ StableHlo.TRef.unary (.of main_v25 : StableHlo.TRef sig ⟨S3200000, .i32⟩) (.of main_v27 : StableHlo.TRef sig ⟨S1x3200000, .i32⟩) (broadcastInDim S1x3200000 ![1] bcast_S3200000_S1x3200000_1) ]
/-- Each touches TensorCore references only. -/
theorem rops19_sub : (rops19 : List (HloOp τ sig (Elt F))).Forall fun op => op.bufs ⊆ StableHlo.tcRefs τ sig :=
  StableHlo.unary_bufs_sub ..

/-- 6 host operations of @main, in order. -/
abbrev rops20 : List (HloOp τ sig (Elt F)) :=
  [ StableHlo.binary main_v26 main_v27 main_v28 ((fun a b => concatenate S2x3200000 0 [⟨S1x3200000, a⟩, ⟨S1x3200000, b⟩] concatenates_S1x3200000_S1x3200000_S2x3200000_d0) : (⟨S1x3200000, .i32⟩ : BufTy).Contents (Elt F) → (⟨S1x3200000, .i32⟩ : BufTy).Contents (Elt F) → (⟨S2x3200000, .i32⟩ : BufTy).Contents (Elt F)),
    StableHlo.unary main_v28 main_v29 ((transpose S3200000x2 [1, 0] · transposes_S2x3200000_S3200000x2_1_0) : (⟨S2x3200000, .i32⟩ : BufTy).Contents (Elt F) → (⟨S3200000x2, .i32⟩ : BufTy).Contents (Elt F)),
    StableHlo.unary main_v29 main_v30 ((extractStridedSlice S3200000x1 ![0, 0] · slices_S3200000x2_S3200000x1_0_0) : (⟨S3200000x2, .i32⟩ : BufTy).Contents (Elt F) → (⟨S3200000x1, .i32⟩ : BufTy).Contents (Elt F)),
    StableHlo.reshape main_v30 main_v31 rfl shapeCasts_S3200000x1_S3200000,
    StableHlo.unary main_v29 main_v32 ((extractStridedSlice S3200000x1 ![0, 1] · slices_S3200000x2_S3200000x1_0_1) : (⟨S3200000x2, .i32⟩ : BufTy).Contents (Elt F) → (⟨S3200000x1, .i32⟩ : BufTy).Contents (Elt F)),
    StableHlo.reshape main_v32 main_v33 rfl shapeCasts_S3200000x1_S3200000 ]
/-- Each touches TensorCore references only. -/
theorem rops20_sub : (rops20 : List (HloOp τ sig (Elt F))).Forall fun op => op.bufs ⊆ StableHlo.tcRefs τ sig :=
  ⟨StableHlo.binary_bufs_sub .., StableHlo.unary_bufs_sub .., StableHlo.unary_bufs_sub .., StableHlo.reshape_bufs_sub .., StableHlo.unary_bufs_sub .., StableHlo.reshape_bufs_sub ..⟩

/-- The 21 stretches, in order: @main is their concatenation run as one line. -/
abbrev ropss : List (List (HloOp τ sig (Elt F))) :=
  [ rops0, rops1, rops2, rops3, rops4, rops5, rops6, rops7, rops8, rops9, rops10, rops11, rops12, rops13, rops14, rops15, rops16, rops17, rops18, rops19, rops20 ]

end Cert.ReferenceIdeal.HRun

end
-- ==== Proof.RRun.lean ====
/- The reference program's run: @main is the straight line of its 128 host operations (the 21 stretches
   of ROps.lean, concatenated), so every weakly fair execution terminates with each buffer at the fold of the
   operations' results over the launch contents; no operation writes the argument, which is therefore kept. -/
import proofs.«180157_j7541962572511_2_alg».proof.Proof.ROps
import Idealize.ShloMosaic.Lib.Pipeline.Regions

set_option maxRecDepth 1052

noncomputable section

namespace Cert.ReferenceIdeal.HRun

open Cert.ReferenceIdeal Cert.ReferenceIdeal.Gen Idealize.ShloMosaic Idealize.ShloMosaic.TcCoe Idealize.SL.Sem

variable {F : FTy → Type} [FloatOps F]

/-! ## @main as one straight line -/

/-- A chain of straight lines is the straight line of their concatenation: by induction on the list of lines,
    two lines run one after the other being their concatenation run as one. -/
theorem chain_map_seq : ∀ L : List (List (HloOp τ sig (Elt F))),
    (Pipeline.chain (L.map StableHlo.seq) : Prog (TpuEff nD τ sig (Elt F) (Pipeline.Sig Λ₀ (Fin 0) fun p => (pcfgs (F := F) p).Adm) .tc) PUnit)
      = StableHlo.seq L.flatten
  | [] => rfl
  | l :: L => by
    rw [List.map_cons, Pipeline.chain_cons, chain_map_seq L, List.flatten_cons, StableHlo.seq_append]

/-- @main is the chain of its 21 stretches: definitional unfolding peels the `do` block, each call's body inlined,
    against the stretches an operation at a time. -/
theorem main_chain (c : Dev nD) : main (F := F) c = (Pipeline.chain (ropss.map StableHlo.seq)
    : Prog (TpuEff nD τ sig (Elt F) (Pipeline.Sig Λ₀ (Fin 0) fun p => (pcfgs (F := F) p).Adm) .tc) PUnit) := by
  chain_rfl

/-- @main is the straight line of all its operations. -/
theorem main_eq (c : Dev nD) : main (F := F) c = StableHlo.seq (List.flatten ropss) :=
  (main_chain c).trans (chain_map_seq ropss)

/-! ## Side conditions, stretch by stretch -/

/-- A property of every element of every list holds of every element of the concatenation. -/
theorem forall_flatten {α : Type} {p : α → Prop} {L : List (List α)} (h : L.Forall fun l => l.Forall p) :
    L.flatten.Forall p := by
  rw [List.forall_iff_forall_mem] at h ⊢
  intro a ha
  obtain ⟨l, hl, hal⟩ := List.mem_flatten.mp ha
  exact List.forall_iff_forall_mem.mp (h l hl) a hal

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ropss_sub : (ropss : List (List (HloOp τ sig (Elt F)))).Forall fun l => l.Forall fun op => op.bufs ⊆ StableHlo.tcRefs τ sig :=
  ⟨rops0_sub, rops1_sub, rops2_sub, rops3_sub, rops4_sub, rops5_sub, rops6_sub, rops7_sub, rops8_sub, rops9_sub, rops10_sub, rops11_sub, rops12_sub, rops13_sub, rops14_sub, rops15_sub, rops16_sub, rops17_sub, rops18_sub, rops19_sub, rops20_sub⟩

/-- An operation whose one result buffer is not the argument's does not write the argument. -/
theorem not_mem_writes_of {op : HloOp τ sig (Elt F)} {y : Ref sig .tc} (hw : op.writes = {Proc.devRef .tc y})
    (h : main_arg0 ≠ y) : Proc.devRef (τ := τ) .tc main_arg0 ∉ op.writes := by
  rw [hw, Finset.mem_singleton]; exact StableHlo.devRef_ne_of_ne h

/-- Each operation of stretch 0 determines its result, and none writes the argument. -/
theorem rops0_fresh : (rops0 : List (HloOp τ sig (Elt F))).Forall fun op => op.fresh = ∅ :=
  ⟨rfl, rfl, rfl⟩
theorem rops0_keep : (rops0 : List (HloOp τ sig (Elt F))).Forall fun op => Proc.devRef (τ := τ) .tc main_arg0 ∉ op.writes :=
  ⟨not_mem_writes_of (StableHlo.nullary_writes ..) (by decide),
   not_mem_writes_of (StableHlo.unary_writes ..) (by decide),
   not_mem_writes_of (StableHlo.binary_writes ..) (by decide)⟩

/-- Each operation of stretch 1 determines its result, and none writes the argument. -/
theorem rops1_fresh : (rops1 : List (HloOp τ sig (Elt F))).Forall fun op => op.fresh = ∅ :=
  ⟨rfl, rfl, rfl, rfl, rfl⟩
theorem rops1_keep : (rops1 : List (HloOp τ sig (Elt F))).Forall fun op => Proc.devRef (τ := τ) .tc main_arg0 ∉ op.writes :=
  ⟨not_mem_writes_of (StableHlo.reshape_writes ..) (by decide),
   not_mem_writes_of (StableHlo.unary_writes ..) (by decide),
   not_mem_writes_of (StableHlo.nullary_writes ..) (by decide),
   not_mem_writes_of (StableHlo.unary_writes ..) (by decide),
   not_mem_writes_of (StableHlo.binary_writes ..) (by decide)⟩

/-- Each operation of stretch 2 determines its result, and none writes the argument. -/
theorem rops2_fresh : (rops2 : List (HloOp τ sig (Elt F))).Forall fun op => op.fresh = ∅ :=
  ⟨rfl, rfl, rfl⟩
theorem rops2_keep : (rops2 : List (HloOp τ sig (Elt F))).Forall fun op => Proc.devRef (τ := τ) .tc main_arg0 ∉ op.writes :=
  ⟨not_mem_writes_of (StableHlo.nullary_writes ..) (by decide),
   not_mem_writes_of (StableHlo.unary_writes ..) (by decide),
   not_mem_writes_of (StableHlo.nullary_writes ..) (by decide)⟩

/-- Each operation of stretch 3 determines its result, and none writes the argument. -/
theorem rops3_fresh : (rops3 : List (HloOp τ sig (Elt F))).Forall fun op => op.fresh = ∅ :=
  ⟨rfl, rfl, rfl⟩
theorem rops3_keep : (rops3 : List (HloOp τ sig (Elt F))).Forall fun op => Proc.devRef (τ := τ) .tc main_arg0 ∉ op.writes :=
  ⟨not_mem_writes_of (StableHlo.unary_writes ..) (by decide),
   not_mem_writes_of (StableHlo.unary_writes ..) (by decide),
   not_mem_writes_of (StableHlo.binary_writes ..) (by decide)⟩

/-- Each operation of stretch 4 determines its result, and none writes the argument. -/
theorem rops4_fresh : (rops4 : List (HloOp τ sig (Elt F))).Forall fun op => op.fresh = ∅ :=
  ⟨rfl, rfl, rfl, rfl, rfl, rfl, rfl, rfl, rfl, rfl, rfl⟩
theorem rops4_keep : (rops4 : List (HloOp τ sig (Elt F))).Forall fun op => Proc.devRef (τ := τ) .tc main_arg0 ∉ op.writes :=
  ⟨not_mem_writes_of (StableHlo.nullary_writes ..) (by decide),
   not_mem_writes_of (StableHlo.unary_writes ..) (by decide),
   not_mem_writes_of (StableHlo.binary_writes ..) (by decide),
   not_mem_writes_of (StableHlo.nullary_writes ..) (by decide),
   not_mem_writes_of (StableHlo.unary_writes ..) (by decide),
   not_mem_writes_of (StableHlo.binary_writes ..) (by decide),
   not_mem_writes_of (StableHlo.ternary_writes ..) (by decide),
   not_mem_writes_of (StableHlo.unary_writes ..) (by decide),
   not_mem_writes_of (StableHlo.nullary_writes ..) (by decide),
   not_mem_writes_of (StableHlo.unary_writes ..) (by decide),
   not_mem_writes_of (StableHlo.ternary_writes ..) (by decide)⟩

/-- Each operation of stretch 5 determines its result, and none writes the argument. -/
theorem rops5_fresh : (rops5 : List (HloOp τ sig (Elt F))).Forall fun op => op.fresh = ∅ :=
  ⟨rfl, rfl, rfl⟩
theorem rops5_keep : (rops5 : List (HloOp τ sig (Elt F))).Forall fun op => Proc.devRef (τ := τ) .tc main_arg0 ∉ op.writes :=
  ⟨not_mem_writes_of (StableHlo.nullary_writes ..) (by decide),
   not_mem_writes_of (StableHlo.unary_writes ..) (by decide),
   not_mem_writes_of (StableHlo.binary_writes ..) (by decide)⟩

/-- Each operation of stretch 6 determines its result, and none writes the argument. -/
theorem rops6_fresh : (rops6 : List (HloOp τ sig (Elt F))).Forall fun op => op.fresh = ∅ :=
  rfl
theorem rops6_keep : (rops6 : List (HloOp τ sig (Elt F))).Forall fun op => Proc.devRef (τ := τ) .tc main_arg0 ∉ op.writes :=
  not_mem_writes_of (StableHlo.nullary_writes ..) (by decide)

/-- Each operation of stretch 7 determines its result, and none writes the argument. -/
theorem rops7_fresh : (rops7 : List (HloOp τ sig (Elt F))).Forall fun op => op.fresh = ∅ :=
  ⟨rfl, rfl, rfl, rfl, rfl, rfl, rfl, rfl, rfl, rfl, rfl, rfl, rfl, rfl, rfl, rfl⟩
theorem rops7_keep : (rops7 : List (HloOp τ sig (Elt F))).Forall fun op => Proc.devRef (τ := τ) .tc main_arg0 ∉ op.writes :=
  ⟨not_mem_writes_of (StableHlo.unary_writes ..) (by decide),
   not_mem_writes_of (StableHlo.binary_writes ..) (by decide),
   not_mem_writes_of (StableHlo.unary_writes ..) (by decide),
   not_mem_writes_of (StableHlo.unary_writes ..) (by decide),
   not_mem_writes_of (StableHlo.unary_writes ..) (by decide),
   not_mem_writes_of (StableHlo.binary_writes ..) (by decide),
   not_mem_writes_of (StableHlo.unary_writes ..) (by decide),
   not_mem_writes_of (StableHlo.binary_writes ..) (by decide),
   not_mem_writes_of (StableHlo.nullary_writes ..) (by decide),
   not_mem_writes_of (StableHlo.unary_writes ..) (by decide),
   not_mem_writes_of (StableHlo.binary_writes ..) (by decide),
   not_mem_writes_of (StableHlo.binary_writes ..) (by decide),
   not_mem_writes_of (StableHlo.nullary_writes ..) (by decide),
   not_mem_writes_of (StableHlo.unary_writes ..) (by decide),
   not_mem_writes_of (StableHlo.binary_writes ..) (by decide),
   not_mem_writes_of (StableHlo.ternary_writes ..) (by decide)⟩

/-- Each operation of stretch 8 determines its result, and none writes the argument. -/
theorem rops8_fresh : (rops8 : List (HloOp τ sig (Elt F))).Forall fun op => op.fresh = ∅ :=
  rfl
theorem rops8_keep : (rops8 : List (HloOp τ sig (Elt F))).Forall fun op => Proc.devRef (τ := τ) .tc main_arg0 ∉ op.writes :=
  not_mem_writes_of (StableHlo.nullary_writes ..) (by decide)

/-- Each operation of stretch 9 determines its result, and none writes the argument. -/
theorem rops9_fresh : (rops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem rops9_keep : (rops9 : List (HloOp τ sig (Elt F))).Forall fun op => Proc.devRef (τ := τ) .tc main_arg0 ∉ op.writes :=
  ⟨not_mem_writes_of (StableHlo.unary_writes ..) (by decide),
   not_mem_writes_of (StableHlo.nullary_writes ..) (by decide),
   not_mem_writes_of (StableHlo.binary_writes ..) (by decide),
   not_mem_writes_of (StableHlo.nullary_writes ..) (by decide),
   not_mem_writes_of (StableHlo.ternary_writes ..) (by decide),
   not_mem_writes_of (StableHlo.unary_writes ..) (by decide),
   not_mem_writes_of (StableHlo.binary_writes ..) (by decide),
   not_mem_writes_of (StableHlo.nullary_writes ..) (by decide),
   not_mem_writes_of (StableHlo.unary_writes ..) (by decide),
   not_mem_writes_of (StableHlo.binary_writes ..) (by decide),
   not_mem_writes_of (StableHlo.nullary_writes ..) (by decide),
   not_mem_writes_of (StableHlo.unary_writes ..) (by decide),
   not_mem_writes_of (StableHlo.binary_writes ..) (by decide),
   not_mem_writes_of (StableHlo.nullary_writes ..) (by decide),
   not_mem_writes_of (StableHlo.binary_writes ..) (by decide),
   not_mem_writes_of (StableHlo.unary_writes ..) (by decide),
   not_mem_writes_of (StableHlo.binary_writes ..) (by decide),
   not_mem_writes_of (StableHlo.binary_writes ..) (by decide),
   not_mem_writes_of (StableHlo.unary_writes ..) (by decide),
   not_mem_writes_of (StableHlo.binary_writes ..) (by decide),
   not_mem_writes_of (StableHlo.ternary_writes ..) (by decide)⟩

/-- Each operation of stretch 10 determines its result, and none writes the argument. -/
theorem rops10_fresh : (rops10 : List (HloOp τ sig (Elt F))).Forall fun op => op.fresh = ∅ :=
  rfl
theorem rops10_keep : (rops10 : List (HloOp τ sig (Elt F))).Forall fun op => Proc.devRef (τ := τ) .tc main_arg0 ∉ op.writes :=
  not_mem_writes_of (StableHlo.nullary_writes ..) (by decide)

/-- Each operation of stretch 11 determines its result, and none writes the argument. -/
theorem rops11_fresh : (rops11 : List (HloOp τ sig (Elt F))).Forall fun op => op.fresh = ∅ :=
  ⟨rfl, rfl, rfl, rfl, rfl, rfl, rfl, rfl, rfl, rfl, rfl, rfl, rfl, rfl, rfl, rfl⟩
theorem rops11_keep : (rops11 : List (HloOp τ sig (Elt F))).Forall fun op => Proc.devRef (τ := τ) .tc main_arg0 ∉ op.writes :=
  ⟨not_mem_writes_of (StableHlo.unary_writes ..) (by decide),
   not_mem_writes_of (StableHlo.binary_writes ..) (by decide),
   not_mem_writes_of (StableHlo.unary_writes ..) (by decide),
   not_mem_writes_of (StableHlo.unary_writes ..) (by decide),
   not_mem_writes_of (StableHlo.unary_writes ..) (by decide),
   not_mem_writes_of (StableHlo.binary_writes ..) (by decide),
   not_mem_writes_of (StableHlo.unary_writes ..) (by decide),
   not_mem_writes_of (StableHlo.binary_writes ..) (by decide),
   not_mem_writes_of (StableHlo.nullary_writes ..) (by decide),
   not_mem_writes_of (StableHlo.unary_writes ..) (by decide),
   not_mem_writes_of (StableHlo.binary_writes ..) (by decide),
   not_mem_writes_of (StableHlo.binary_writes ..) (by decide),
   not_mem_writes_of (StableHlo.nullary_writes ..) (by decide),
   not_mem_writes_of (StableHlo.unary_writes ..) (by decide),
   not_mem_writes_of (StableHlo.binary_writes ..) (by decide),
   not_mem_writes_of (StableHlo.ternary_writes ..) (by decide)⟩

/-- Each operation of stretch 12 determines its result, and none writes the argument. -/
theorem rops12_fresh : (rops12 : List (HloOp τ sig (Elt F))).Forall fun op => op.fresh = ∅ :=
  rfl
theorem rops12_keep : (rops12 : List (HloOp τ sig (Elt F))).Forall fun op => Proc.devRef (τ := τ) .tc main_arg0 ∉ op.writes :=
  not_mem_writes_of (StableHlo.nullary_writes ..) (by decide)

/-- Each operation of stretch 13 determines its result, and none writes the argument. -/
theorem rops13_fresh : (rops13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem rops13_keep : (rops13 : List (HloOp τ sig (Elt F))).Forall fun op => Proc.devRef (τ := τ) .tc main_arg0 ∉ op.writes :=
  ⟨not_mem_writes_of (StableHlo.unary_writes ..) (by decide),
   not_mem_writes_of (StableHlo.nullary_writes ..) (by decide),
   not_mem_writes_of (StableHlo.binary_writes ..) (by decide),
   not_mem_writes_of (StableHlo.nullary_writes ..) (by decide),
   not_mem_writes_of (StableHlo.ternary_writes ..) (by decide),
   not_mem_writes_of (StableHlo.unary_writes ..) (by decide),
   not_mem_writes_of (StableHlo.binary_writes ..) (by decide),
   not_mem_writes_of (StableHlo.nullary_writes ..) (by decide),
   not_mem_writes_of (StableHlo.unary_writes ..) (by decide),
   not_mem_writes_of (StableHlo.binary_writes ..) (by decide),
   not_mem_writes_of (StableHlo.nullary_writes ..) (by decide),
   not_mem_writes_of (StableHlo.unary_writes ..) (by decide),
   not_mem_writes_of (StableHlo.binary_writes ..) (by decide),
   not_mem_writes_of (StableHlo.nullary_writes ..) (by decide),
   not_mem_writes_of (StableHlo.binary_writes ..) (by decide),
   not_mem_writes_of (StableHlo.unary_writes ..) (by decide),
   not_mem_writes_of (StableHlo.binary_writes ..) (by decide),
   not_mem_writes_of (StableHlo.binary_writes ..) (by decide),
   not_mem_writes_of (StableHlo.unary_writes ..) (by decide),
   not_mem_writes_of (StableHlo.binary_writes ..) (by decide),
   not_mem_writes_of (StableHlo.ternary_writes ..) (by decide)⟩

/-- Each operation of stretch 14 determines its result, and none writes the argument. -/
theorem rops14_fresh : (rops14 : List (HloOp τ sig (Elt F))).Forall fun op => op.fresh = ∅ :=
  ⟨rfl, rfl, rfl, rfl, rfl, rfl, rfl⟩
theorem rops14_keep : (rops14 : List (HloOp τ sig (Elt F))).Forall fun op => Proc.devRef (τ := τ) .tc main_arg0 ∉ op.writes :=
  ⟨not_mem_writes_of (StableHlo.nullary_writes ..) (by decide),
   not_mem_writes_of (StableHlo.unary_writes ..) (by decide),
   not_mem_writes_of (StableHlo.nullary_writes ..) (by decide),
   not_mem_writes_of (StableHlo.binary_writes ..) (by decide),
   not_mem_writes_of (StableHlo.unary_writes ..) (by decide),
   not_mem_writes_of (StableHlo.binary_writes ..) (by decide),
   not_mem_writes_of (StableHlo.nullary_writes ..) (by decide)⟩

/-- Each operation of stretch 15 determines its result, and none writes the argument. -/
theorem rops15_fresh : (rops15 : List (HloOp τ sig (Elt F))).Forall fun op => op.fresh = ∅ :=
  ⟨rfl, rfl, rfl⟩
theorem rops15_keep : (rops15 : List (HloOp τ sig (Elt F))).Forall fun op => Proc.devRef (τ := τ) .tc main_arg0 ∉ op.writes :=
  ⟨not_mem_writes_of (StableHlo.unary_writes ..) (by decide),
   not_mem_writes_of (StableHlo.unary_writes ..) (by decide),
   not_mem_writes_of (StableHlo.ternary_writes ..) (by decide)⟩

/-- Each operation of stretch 16 determines its result, and none writes the argument. -/
theorem rops16_fresh : (rops16 : List (HloOp τ sig (Elt F))).Forall fun op => op.fresh = ∅ :=
  rfl
theorem rops16_keep : (rops16 : List (HloOp τ sig (Elt F))).Forall fun op => Proc.devRef (τ := τ) .tc main_arg0 ∉ op.writes :=
  not_mem_writes_of (StableHlo.nullary_writes ..) (by decide)

/-- Each operation of stretch 17 determines its result, and none writes the argument. -/
theorem rops17_fresh : (rops17 : List (HloOp τ sig (Elt F))).Forall fun op => op.fresh = ∅ :=
  ⟨rfl, rfl, rfl⟩
theorem rops17_keep : (rops17 : List (HloOp τ sig (Elt F))).Forall fun op => Proc.devRef (τ := τ) .tc main_arg0 ∉ op.writes :=
  ⟨not_mem_writes_of (StableHlo.unary_writes ..) (by decide),
   not_mem_writes_of (StableHlo.unary_writes ..) (by decide),
   not_mem_writes_of (StableHlo.ternary_writes ..) (by decide)⟩

/-- Each operation of stretch 18 determines its result, and none writes the argument. -/
theorem rops18_fresh : (rops18 : List (HloOp τ sig (Elt F))).Forall fun op => op.fresh = ∅ :=
  rfl
theorem rops18_keep : (rops18 : List (HloOp τ sig (Elt F))).Forall fun op => Proc.devRef (τ := τ) .tc main_arg0 ∉ op.writes :=
  not_mem_writes_of (StableHlo.unary_writes ..) (by decide)

/-- Each operation of stretch 19 determines its result, and none writes the argument. -/
theorem rops19_fresh : (rops19 : List (HloOp τ sig (Elt F))).Forall fun op => op.fresh = ∅ :=
  rfl
theorem rops19_keep : (rops19 : List (HloOp τ sig (Elt F))).Forall fun op => Proc.devRef (τ := τ) .tc main_arg0 ∉ op.writes :=
  not_mem_writes_of (StableHlo.unary_writes ..) (by decide)

/-- Each operation of stretch 20 determines its result, and none writes the argument. -/
theorem rops20_fresh : (rops20 : List (HloOp τ sig (Elt F))).Forall fun op => op.fresh = ∅ :=
  ⟨rfl, rfl, rfl, rfl, rfl, rfl⟩
theorem rops20_keep : (rops20 : List (HloOp τ sig (Elt F))).Forall fun op => Proc.devRef (τ := τ) .tc main_arg0 ∉ op.writes :=
  ⟨not_mem_writes_of (StableHlo.binary_writes ..) (by decide),
   not_mem_writes_of (StableHlo.unary_writes ..) (by decide),
   not_mem_writes_of (StableHlo.unary_writes ..) (by decide),
   not_mem_writes_of (StableHlo.reshape_writes ..) (by decide),
   not_mem_writes_of (StableHlo.unary_writes ..) (by decide),
   not_mem_writes_of (StableHlo.reshape_writes ..) (by decide)⟩

theorem ropss_fresh : (ropss : List (List (HloOp τ sig (Elt F)))).Forall fun l => l.Forall fun op => op.fresh = ∅ :=
  ⟨rops0_fresh, rops1_fresh, rops2_fresh, rops3_fresh, rops4_fresh, rops5_fresh, rops6_fresh, rops7_fresh, rops8_fresh, rops9_fresh, rops10_fresh, rops11_fresh, rops12_fresh, rops13_fresh, rops14_fresh, rops15_fresh, rops16_fresh, rops17_fresh, rops18_fresh, rops19_fresh, rops20_fresh⟩
theorem ropss_keep : (ropss : List (List (HloOp τ sig (Elt F)))).Forall fun l => l.Forall fun op => Proc.devRef (τ := τ) .tc main_arg0 ∉ op.writes :=
  ⟨rops0_keep, rops1_keep, rops2_keep, rops3_keep, rops4_keep, rops5_keep, rops6_keep, rops7_keep, rops8_keep, rops9_keep, rops10_keep, rops11_keep, rops12_keep, rops13_keep, rops14_keep, rops15_keep, rops16_keep, rops17_keep, rops18_keep, rops19_keep, rops20_keep⟩

/-! ## The run -/

/-- On every device, for any float values, from any memory with zero counters: every weakly fair execution of
    @main terminates with each buffer at the fold of the operations' results over the launch contents. -/
theorem run (m : (ℓ : Loc nD τ sig) → Buf (Elt F) ℓ) (ρ : Dev nD → PrngReg) :
    θ_run (defs (F := F)) (onTc (τ := τ) (main (F := F))) ⟨m, fun _ => 0, ρ⟩ (fun r => ∀ (d : Dev nD) (b : Ref sig .tc),
      r.2.mem ((d.tc : Thread nD τ).loc b) = StableHlo.after (List.flatten ropss) (StableHlo.launchContents m d) (Proc.devRef .tc b)) :=
  StableHlo.run_seq scopedRefs_eq scopedSems_eq defs main (fun _ => List.flatten ropss) main_eq (fun _ => forall_flatten ropss_sub) m ρ
    (fun _ => List.forall_iff_forall_mem.mp (forall_flatten ropss_fresh))

/-- No operation writes the argument: it keeps its contents through the whole line. -/
theorem kept_arg0 (W : Valuation τ sig (Elt F)) :
    StableHlo.after (List.flatten ropss) W (Proc.devRef .tc main_arg0) = W (Proc.devRef .tc main_arg0) :=
  StableHlo.after_of_forall_not_mem _ W (List.forall_iff_forall_mem.mp (forall_flatten ropss_keep))

/-- Every execution ends with the argument as the launch left it. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run _ _ _).mono (fun _ h c => (h c main_arg0).trans (kept_arg0 _)) (run m ρ)

end Cert.ReferenceIdeal.HRun

end
-- ==== Proof.RTailA.lean ====
/- The reference program's stretches, one at a time, over an arbitrary valuation: what each stretch leaves at its
   result buffer is its stage function of the contents of the buffers it reads, and a buffer a stretch does not
   write keeps its contents through it. -/
import proofs.«180157_j7541962572511_2_alg».proof.Proof.ROps
import proofs.«180157_j7541962572511_2_alg».proof.Proof.Tail
import Idealize.ShloMosaic.Lib.StableHlo.RunLoop

noncomputable section

namespace Cert.ReferenceIdeal.HTail

open Cert.ReferenceIdeal Cert.ReferenceIdeal.Gen Cert.ReferenceIdeal.HRun Idealize.ShloMosaic Idealize.ShloMosaic.TcCoe Idealize.SL.Sem
open Idealize.ShloMosaic.StableHlo (after after_cons after_nil)

variable {F : FTy → Type} [FloatOps F]

/-! ## Each stretch's result as its stage function -/

theorem st0 (W : Valuation τ sig (Elt F)) :
    after rops0 W (Proc.devRef .tc main_v1) = Cert.Tail.maskOfFloats (W (Proc.devRef .tc main_arg0)) := by
  after_results_simp
  rfl

theorem st1 (W : Valuation τ sig (Elt F)) :
    after rops1 W (Proc.devRef .tc main_v3) = Cert.Tail.cumsumFlat (W (Proc.devRef .tc main_v1)) := by
  after_results_simp
  simp only [StableHlo.TRef.toBuf, StableHlo.TRef.ofBuf, cast_eq]
  rfl

theorem st2a (W : Valuation τ sig (Elt F)) :
    after rops2 W (Proc.devRef .tc main_v4) = Cert.Tail.zerosShort := by
  after_results_simp
  rfl

theorem st2b (W : Valuation τ sig (Elt F)) :
    after rops2 W (Proc.devRef .tc main_c_0) = (constantI S_ 32 0#32) := by
  after_results_simp

theorem st3 (W : Valuation τ sig (Elt F)) :
    after rops3 W (Proc.devRef .tc main_v5) = Cert.Tail.clipLow (W (Proc.devRef .tc main_c_0)) (W (Proc.devRef .tc main_v3)) := by
  after_results_simp
  simp only [StableHlo.TRef.toBuf, StableHlo.TRef.ofBuf, cast_eq]
  rfl

theorem st4 (W : Valuation τ sig (Elt F)) :
    after rops4 W (Proc.devRef .tc main_v13) = Cert.Tail.scatterOnes (W (Proc.devRef .tc main_v4)) (W (Proc.devRef .tc main_v5)) := by
  after_results_simp
  rfl

theorem st5 (W : Valuation τ sig (Elt F)) :
    after rops5 W (Proc.devRef .tc main_v14) = Cert.Tail.cumsumShort (W (Proc.devRef .tc main_v13)) := by
  after_results_simp
  simp only [StableHlo.TRef.toBuf, StableHlo.TRef.ofBuf, cast_eq]
  rfl

theorem st6 (W : Valuation τ sig (Elt F)) :
    after rops6 W (Proc.devRef .tc main_c_4) = (constantI S_ 32 12288#32) := by
  after_results_simp

theorem st7 (W : Valuation τ sig (Elt F)) :
    after rops7 W (Proc.devRef .tc main_v15) = Cert.Tail.floorDivide (W (Proc.devRef .tc main_v14)) (W (Proc.devRef .tc main_c_4)) := by
  after_results_simp
  simp only [StableHlo.TRef.toBuf, StableHlo.TRef.ofBuf, cast_eq]
  rfl

theorem st8 (W : Valuation τ sig (Elt F)) :
    after rops8 W (Proc.devRef .tc main_c_5) = (constantI S_ 32 12288#32) := by
  after_results_simp

theorem st9 (W : Valuation τ sig (Elt F)) :
    after rops9 W (Proc.devRef .tc main_v16) = Cert.Tail.remainderOf (W (Proc.devRef .tc main_v15)) (W (Proc.devRef .tc main_c_5)) := by
  after_results_simp
  simp only [StableHlo.TRef.toBuf, StableHlo.TRef.ofBuf, cast_eq]
  rfl

theorem st10 (W : Valuation τ sig (Elt F)) :
    after rops10 W (Proc.devRef .tc main_c_6) = (constantI S_ 32 1#32) := by
  after_results_simp

theorem st11 (W : Valuation τ sig (Elt F)) :
    after rops11 W (Proc.devRef .tc main_v17) = Cert.Tail.floorDivide (W (Proc.devRef .tc main_v14)) (W (Proc.devRef .tc main_c_6)) := by
  after_results_simp
  simp only [StableHlo.TRef.toBuf, StableHlo.TRef.ofBuf, cast_eq]
  rfl

theorem st12 (W : Valuation τ sig (Elt F)) :
    after rops12 W (Proc.devRef .tc main_c_7) = (constantI S_ 32 12288#32) := by
  after_results_simp

theorem st13 (W : Valuation τ sig (Elt F)) :
    after rops13 W (Proc.devRef .tc main_v18) = Cert.Tail.remainderOf (W (Proc.devRef .tc main_v17)) (W (Proc.devRef .tc main_c_7)) := by
  after_results_simp
  simp only [StableHlo.TRef.toBuf, StableHlo.TRef.ofBuf, cast_eq]
  rfl

theorem st14a (W : Valuation τ sig (Elt F)) :
    after rops14 W (Proc.devRef .tc main_v23) = Cert.Tail.fillMask (W (Proc.devRef .tc main_v1)) := by
  after_results_simp
  rfl

theorem st14b (W : Valuation τ sig (Elt F)) :
    after rops14 W (Proc.devRef .tc main_c_9) = (constantI S_ 32 4294967295#32) := by
  after_results_simp

theorem st15 (W : Valuation τ sig (Elt F)) :
    after rops15 W (Proc.devRef .tc main_v24) = Cert.Tail.whereScalar (W (Proc.devRef .tc main_v23)) (W (Proc.devRef .tc main_c_9)) (W (Proc.devRef .tc main_v16)) := by
  after_results_simp
  simp only [StableHlo.TRef.toBuf, StableHlo.TRef.ofBuf, cast_eq]
  rfl

theorem st16 (W : Valuation τ sig (Elt F)) :
    after rops16 W (Proc.devRef .tc main_c_10) = (constantI S_ 32 4294967295#32) := by
  after_results_simp

theorem st17 (W : Valuation τ sig (Elt F)) :
    after rops17 W (Proc.devRef .tc main_v25) = Cert.Tail.whereScalar (W (Proc.devRef .tc main_v23)) (W (Proc.devRef .tc main_c_10)) (W (Proc.devRef .tc main_v18)) := by
  after_results_simp
  simp only [StableHlo.TRef.toBuf, StableHlo.TRef.ofBuf, cast_eq]
  rfl

theorem st18 (W : Valuation τ sig (Elt F)) :
    after rops18 W (Proc.devRef .tc main_v26) = Cert.Tail.asRow (W (Proc.devRef .tc main_v24)) := by
  after_results_simp
  simp only [StableHlo.TRef.toBuf, StableHlo.TRef.ofBuf, cast_eq]
  rfl

theorem st19 (W : Valuation τ sig (Elt F)) :
    after rops19 W (Proc.devRef .tc main_v27) = Cert.Tail.asRow (W (Proc.devRef .tc main_v25)) := by
  after_results_simp
  simp only [StableHlo.TRef.toBuf, StableHlo.TRef.ofBuf, cast_eq]
  rfl

theorem st20a (W : Valuation τ sig (Elt F)) :
    after rops20 W (Proc.devRef .tc main_v31) = Cert.Tail.column0 (Cert.Tail.pairs (W (Proc.devRef .tc main_v26)) (W (Proc.devRef .tc main_v27))) := by
  after_results_simp
  rfl

theorem st20b (W : Valuation τ sig (Elt F)) :
    after rops20 W (Proc.devRef .tc main_v33) = Cert.Tail.column1 (Cert.Tail.pairs (W (Proc.devRef .tc main_v26)) (W (Proc.devRef .tc main_v27))) := by
  after_results_simp
  rfl

/-! ## What a stretch does not write, it keeps -/

/-- An operation whose one result buffer is in a list of references writes only device buffers of that list. -/
theorem writes_sub_of {op : HloOp τ sig (Elt F)} {y : Ref sig .tc} {Wl : List (Ref sig .tc)}
    (hw : op.writes = {Proc.devRef .tc y}) (h : y ∈ Wl) :
    op.writes ⊆ (Wl.map (Proc.devRef (τ := τ) .tc)).toFinset := by
  rw [hw, Finset.singleton_subset_iff, List.mem_toFinset]
  exact List.mem_map.mpr ⟨y, h, rfl⟩

/-- The buffers stretch 0 writes. -/
abbrev w0 : List (Ref sig .tc) := [main_cst, main_v0, main_v1]
theorem w0_sub : (rops0 : List (HloOp τ sig (Elt F))).Forall fun op => op.writes ⊆ (w0.map (Proc.devRef (τ := τ) .tc)).toFinset :=
  ⟨writes_sub_of (StableHlo.nullary_writes ..) (by decide),
   writes_sub_of (StableHlo.unary_writes ..) (by decide),
   writes_sub_of (StableHlo.binary_writes ..) (by decide)⟩
theorem keep0 (V : Valuation τ sig (Elt F)) {r : Ref sig .tc} (hr : r ∉ w0) :
    after rops0 V (Proc.devRef .tc r) = V (Proc.devRef .tc r) :=
  StableHlo.after_of_writes_sub rops0 V w0_sub hr

/-- The buffers stretch 1 writes. -/
abbrev w1 : List (Ref sig .tc) := [main_call1_v0, main_call1_v1, main_call1_call0_c, main_call1_call0_v0, main_v3]
theorem w1_sub : (rops1 : List (HloOp τ sig (Elt F))).Forall fun op => op.writes ⊆ (w1.map (Proc.devRef (τ := τ) .tc)).toFinset :=
  ⟨writes_sub_of (StableHlo.reshape_writes ..) (by decide),
   writes_sub_of (StableHlo.unary_writes ..) (by decide),
   writes_sub_of (StableHlo.nullary_writes ..) (by decide),
   writes_sub_of (StableHlo.unary_writes ..) (by decide),
   writes_sub_of (StableHlo.binary_writes ..) (by decide)⟩
theorem keep1 (V : Valuation τ sig (Elt F)) {r : Ref sig .tc} (hr : r ∉ w1) :
    after rops1 V (Proc.devRef .tc r) = V (Proc.devRef .tc r) :=
  StableHlo.after_of_writes_sub rops1 V w1_sub hr

/-- The buffers stretch 2 writes. -/
abbrev w2 : List (Ref sig .tc) := [main_c, main_v4, main_c_0]
theorem w2_sub : (rops2 : List (HloOp τ sig (Elt F))).Forall fun op => op.writes ⊆ (w2.map (Proc.devRef (τ := τ) .tc)).toFinset :=
  ⟨writes_sub_of (StableHlo.nullary_writes ..) (by decide),
   writes_sub_of (StableHlo.unary_writes ..) (by decide),
   writes_sub_of (StableHlo.nullary_writes ..) (by decide)⟩
theorem keep2 (V : Valuation τ sig (Elt F)) {r : Ref sig .tc} (hr : r ∉ w2) :
    after rops2 V (Proc.devRef .tc r) = V (Proc.devRef .tc r) :=
  StableHlo.after_of_writes_sub rops2 V w2_sub hr

/-- The buffers stretch 3 writes. -/
abbrev w3 : List (Ref sig .tc) := [main_call2_v0, main_call2_v1, main_v5]
theorem w3_sub : (rops3 : List (HloOp τ sig (Elt F))).Forall fun op => op.writes ⊆ (w3.map (Proc.devRef (τ := τ) .tc)).toFinset :=
  ⟨writes_sub_of (StableHlo.unary_writes ..) (by decide),
   writes_sub_of (StableHlo.unary_writes ..) (by decide),
   writes_sub_of (StableHlo.binary_writes ..) (by decide)⟩
theorem keep3 (V : Valuation τ sig (Elt F)) {r : Ref sig .tc} (hr : r ∉ w3) :
    after rops3 V (Proc.devRef .tc r) = V (Proc.devRef .tc r) :=
  StableHlo.after_of_writes_sub rops3 V w3_sub hr

/-- The buffers stretch 4 writes. -/
abbrev w4 : List (Ref sig .tc) := [main_c_1, main_v6, main_v7, main_c_2, main_v8, main_v9, main_v10, main_v11, main_c_3, main_v12, main_v13]
theorem w4_sub : (rops4 : List (HloOp τ sig (Elt F))).Forall fun op => op.writes ⊆ (w4.map (Proc.devRef (τ := τ) .tc)).toFinset :=
  ⟨writes_sub_of (StableHlo.nullary_writes ..) (by decide),
   writes_sub_of (StableHlo.unary_writes ..) (by decide),
   writes_sub_of (StableHlo.binary_writes ..) (by decide),
   writes_sub_of (StableHlo.nullary_writes ..) (by decide),
   writes_sub_of (StableHlo.unary_writes ..) (by decide),
   writes_sub_of (StableHlo.binary_writes ..) (by decide),
   writes_sub_of (StableHlo.ternary_writes ..) (by decide),
   writes_sub_of (StableHlo.unary_writes ..) (by decide),
   writes_sub_of (StableHlo.nullary_writes ..) (by decide),
   writes_sub_of (StableHlo.unary_writes ..) (by decide),
   writes_sub_of (StableHlo.ternary_writes ..) (by decide)⟩
theorem keep4 (V : Valuation τ sig (Elt F)) {r : Ref sig .tc} (hr : r ∉ w4) :
    after rops4 V (Proc.devRef .tc r) = V (Proc.devRef .tc r) :=
  StableHlo.after_of_writes_sub rops4 V w4_sub hr

/-- The buffers stretch 5 writes. -/
abbrev w5 : List (Ref sig .tc) := [main_call3_call0_c, main_call3_call0_v0, main_v14]
theorem w5_sub : (rops5 : List (HloOp τ sig (Elt F))).Forall fun op => op.writes ⊆ (w5.map (Proc.devRef (τ := τ) .tc)).toFinset :=
  ⟨writes_sub_of (StableHlo.nullary_writes ..) (by decide),
   writes_sub_of (StableHlo.unary_writes ..) (by decide),
   writes_sub_of (StableHlo.binary_writes ..) (by decide)⟩
theorem keep5 (V : Valuation τ sig (Elt F)) {r : Ref sig .tc} (hr : r ∉ w5) :
    after rops5 V (Proc.devRef .tc r) = V (Proc.devRef .tc r) :=
  StableHlo.after_of_writes_sub rops5 V w5_sub hr

/-- The buffers stretch 6 writes. -/
abbrev w6 : List (Ref sig .tc) := [main_c_4]
theorem w6_sub : (rops6 : List (HloOp τ sig (Elt F))).Forall fun op => op.writes ⊆ (w6.map (Proc.devRef (τ := τ) .tc)).toFinset :=
  writes_sub_of (StableHlo.nullary_writes ..) (by decide)
theorem keep6 (V : Valuation τ sig (Elt F)) {r : Ref sig .tc} (hr : r ∉ w6) :
    after rops6 V (Proc.devRef .tc r) = V (Proc.devRef .tc r) :=
  StableHlo.after_of_writes_sub rops6 V w6_sub hr

/-- The buffers stretch 7 writes. -/
abbrev w7 : List (Ref sig .tc) := [main_call4_v0, main_call4_v1, main_call4_v2, main_call4_v3, main_call4_v4, main_call4_v5, main_call4_v6, main_call4_v7, main_call4_c, main_call4_v8, main_call4_v9, main_call4_v10, main_call4_c_0, main_call4_v11, main_call4_v12, main_v15]
theorem w7_sub : (rops7 : List (HloOp τ sig (Elt F))).Forall fun op => op.writes ⊆ (w7.map (Proc.devRef (τ := τ) .tc)).toFinset :=
  ⟨writes_sub_of (StableHlo.unary_writes ..) (by decide),
   writes_sub_of (StableHlo.binary_writes ..) (by decide),
   writes_sub_of (StableHlo.unary_writes ..) (by decide),
   writes_sub_of (StableHlo.unary_writes ..) (by decide),
   writes_sub_of (StableHlo.unary_writes ..) (by decide),
   writes_sub_of (StableHlo.binary_writes ..) (by decide),
   writes_sub_of (StableHlo.unary_writes ..) (by decide),
   writes_sub_of (StableHlo.binary_writes ..) (by decide),
   writes_sub_of (StableHlo.nullary_writes ..) (by decide),
   writes_sub_of (StableHlo.unary_writes ..) (by decide),
   writes_sub_of (StableHlo.binary_writes ..) (by decide),
   writes_sub_of (StableHlo.binary_writes ..) (by decide),
   writes_sub_of (StableHlo.nullary_writes ..) (by decide),
   writes_sub_of (StableHlo.unary_writes ..) (by decide),
   writes_sub_of (StableHlo.binary_writes ..) (by decide),
   writes_sub_of (StableHlo.ternary_writes ..) (by decide)⟩
theorem keep7 (V : Valuation τ sig (Elt F)) {r : Ref sig .tc} (hr : r ∉ w7) :
    after rops7 V (Proc.devRef .tc r) = V (Proc.devRef .tc r) :=
  StableHlo.after_of_writes_sub rops7 V w7_sub hr

/-- The buffers stretch 8 writes. -/
abbrev w8 : List (Ref sig .tc) := [main_c_5]
theorem w8_sub : (rops8 : List (HloOp τ sig (Elt F))).Forall fun op => op.writes ⊆ (w8.map (Proc.devRef (τ := τ) .tc)).toFinset :=
  writes_sub_of (StableHlo.nullary_writes ..) (by decide)
theorem keep8 (V : Valuation τ sig (Elt F)) {r : Ref sig .tc} (hr : r ∉ w8) :
    after rops8 V (Proc.devRef .tc r) = V (Proc.devRef .tc r) :=
  StableHlo.after_of_writes_sub rops8 V w8_sub hr

/-- The buffers stretch 9 writes. -/
abbrev w9 : List (Ref sig .tc) := [main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v16]
theorem w9_sub : (rops9 : List (HloOp τ sig (Elt F))).Forall fun op => op.writes ⊆ (w9.map (Proc.devRef (τ := τ) .tc)).toFinset :=
  ⟨writes_sub_of (StableHlo.unary_writes ..) (by decide),
   writes_sub_of (StableHlo.nullary_writes ..) (by decide),
   writes_sub_of (StableHlo.binary_writes ..) (by decide),
   writes_sub_of (StableHlo.nullary_writes ..) (by decide),
   writes_sub_of (StableHlo.ternary_writes ..) (by decide),
   writes_sub_of (StableHlo.unary_writes ..) (by decide),
   writes_sub_of (StableHlo.binary_writes ..) (by decide),
   writes_sub_of (StableHlo.nullary_writes ..) (by decide),
   writes_sub_of (StableHlo.unary_writes ..) (by decide),
   writes_sub_of (StableHlo.binary_writes ..) (by decide),
   writes_sub_of (StableHlo.nullary_writes ..) (by decide),
   writes_sub_of (StableHlo.unary_writes ..) (by decide),
   writes_sub_of (StableHlo.binary_writes ..) (by decide),
   writes_sub_of (StableHlo.nullary_writes ..) (by decide),
   writes_sub_of (StableHlo.binary_writes ..) (by decide),
   writes_sub_of (StableHlo.unary_writes ..) (by decide),
   writes_sub_of (StableHlo.binary_writes ..) (by decide),
   writes_sub_of (StableHlo.binary_writes ..) (by decide),
   writes_sub_of (StableHlo.unary_writes ..) (by decide),
   writes_sub_of (StableHlo.binary_writes ..) (by decide),
   writes_sub_of (StableHlo.ternary_writes ..) (by decide)⟩
theorem keep9 (V : Valuation τ sig (Elt F)) {r : Ref sig .tc} (hr : r ∉ w9) :
    after rops9 V (Proc.devRef .tc r) = V (Proc.devRef .tc r) :=
  StableHlo.after_of_writes_sub rops9 V w9_sub hr

/-- The buffers stretch 10 writes. -/
abbrev w10 : List (Ref sig .tc) := [main_c_6]
theorem w10_sub : (rops10 : List (HloOp τ sig (Elt F))).Forall fun op => op.writes ⊆ (w10.map (Proc.devRef (τ := τ) .tc)).toFinset :=
  writes_sub_of (StableHlo.nullary_writes ..) (by decide)
theorem keep10 (V : Valuation τ sig (Elt F)) {r : Ref sig .tc} (hr : r ∉ w10) :
    after rops10 V (Proc.devRef .tc r) = V (Proc.devRef .tc r) :=
  StableHlo.after_of_writes_sub rops10 V w10_sub hr

/-- The buffers stretch 11 writes. -/
abbrev w11 : List (Ref sig .tc) := [main_call6_v0, main_call6_v1, main_call6_v2, main_call6_v3, main_call6_v4, main_call6_v5, main_call6_v6, main_call6_v7, main_call6_c, main_call6_v8, main_call6_v9, main_call6_v10, main_call6_c_0, main_call6_v11, main_call6_v12, main_v17]
theorem w11_sub : (rops11 : List (HloOp τ sig (Elt F))).Forall fun op => op.writes ⊆ (w11.map (Proc.devRef (τ := τ) .tc)).toFinset :=
  ⟨writes_sub_of (StableHlo.unary_writes ..) (by decide),
   writes_sub_of (StableHlo.binary_writes ..) (by decide),
   writes_sub_of (StableHlo.unary_writes ..) (by decide),
   writes_sub_of (StableHlo.unary_writes ..) (by decide),
   writes_sub_of (StableHlo.unary_writes ..) (by decide),
   writes_sub_of (StableHlo.binary_writes ..) (by decide),
   writes_sub_of (StableHlo.unary_writes ..) (by decide),
   writes_sub_of (StableHlo.binary_writes ..) (by decide),
   writes_sub_of (StableHlo.nullary_writes ..) (by decide),
   writes_sub_of (StableHlo.unary_writes ..) (by decide),
   writes_sub_of (StableHlo.binary_writes ..) (by decide),
   writes_sub_of (StableHlo.binary_writes ..) (by decide),
   writes_sub_of (StableHlo.nullary_writes ..) (by decide),
   writes_sub_of (StableHlo.unary_writes ..) (by decide),
   writes_sub_of (StableHlo.binary_writes ..) (by decide),
   writes_sub_of (StableHlo.ternary_writes ..) (by decide)⟩
theorem keep11 (V : Valuation τ sig (Elt F)) {r : Ref sig .tc} (hr : r ∉ w11) :
    after rops11 V (Proc.devRef .tc r) = V (Proc.devRef .tc r) :=
  StableHlo.after_of_writes_sub rops11 V w11_sub hr

/-- The buffers stretch 12 writes. -/
abbrev w12 : List (Ref sig .tc) := [main_c_7]
theorem w12_sub : (rops12 : List (HloOp τ sig (Elt F))).Forall fun op => op.writes ⊆ (w12.map (Proc.devRef (τ := τ) .tc)).toFinset :=
  writes_sub_of (StableHlo.nullary_writes ..) (by decide)
theorem keep12 (V : Valuation τ sig (Elt F)) {r : Ref sig .tc} (hr : r ∉ w12) :
    after rops12 V (Proc.devRef .tc r) = V (Proc.devRef .tc r) :=
  StableHlo.after_of_writes_sub rops12 V w12_sub hr

/-- The buffers stretch 13 writes. -/
abbrev w13 : List (Ref sig .tc) := [main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v18]
theorem w13_sub : (rops13 : List (HloOp τ sig (Elt F))).Forall fun op => op.writes ⊆ (w13.map (Proc.devRef (τ := τ) .tc)).toFinset :=
  ⟨writes_sub_of (StableHlo.unary_writes ..) (by decide),
   writes_sub_of (StableHlo.nullary_writes ..) (by decide),
   writes_sub_of (StableHlo.binary_writes ..) (by decide),
   writes_sub_of (StableHlo.nullary_writes ..) (by decide),
   writes_sub_of (StableHlo.ternary_writes ..) (by decide),
   writes_sub_of (StableHlo.unary_writes ..) (by decide),
   writes_sub_of (StableHlo.binary_writes ..) (by decide),
   writes_sub_of (StableHlo.nullary_writes ..) (by decide),
   writes_sub_of (StableHlo.unary_writes ..) (by decide),
   writes_sub_of (StableHlo.binary_writes ..) (by decide),
   writes_sub_of (StableHlo.nullary_writes ..) (by decide),
   writes_sub_of (StableHlo.unary_writes ..) (by decide),
   writes_sub_of (StableHlo.binary_writes ..) (by decide),
   writes_sub_of (StableHlo.nullary_writes ..) (by decide),
   writes_sub_of (StableHlo.binary_writes ..) (by decide),
   writes_sub_of (StableHlo.unary_writes ..) (by decide),
   writes_sub_of (StableHlo.binary_writes ..) (by decide),
   writes_sub_of (StableHlo.binary_writes ..) (by decide),
   writes_sub_of (StableHlo.unary_writes ..) (by decide),
   writes_sub_of (StableHlo.binary_writes ..) (by decide),
   writes_sub_of (StableHlo.ternary_writes ..) (by decide)⟩
theorem keep13 (V : Valuation τ sig (Elt F)) {r : Ref sig .tc} (hr : r ∉ w13) :
    after rops13 V (Proc.devRef .tc r) = V (Proc.devRef .tc r) :=
  StableHlo.after_of_writes_sub rops13 V w13_sub hr

/-- The buffers stretch 14 writes. -/
abbrev w14 : List (Ref sig .tc) := [main_v19, main_v20, main_c_8, main_v21, main_v22, main_v23, main_c_9]
theorem w14_sub : (rops14 : List (HloOp τ sig (Elt F))).Forall fun op => op.writes ⊆ (w14.map (Proc.devRef (τ := τ) .tc)).toFinset :=
  ⟨writes_sub_of (StableHlo.nullary_writes ..) (by decide),
   writes_sub_of (StableHlo.unary_writes ..) (by decide),
   writes_sub_of (StableHlo.nullary_writes ..) (by decide),
   writes_sub_of (StableHlo.binary_writes ..) (by decide),
   writes_sub_of (StableHlo.unary_writes ..) (by decide),
   writes_sub_of (StableHlo.binary_writes ..) (by decide),
   writes_sub_of (StableHlo.nullary_writes ..) (by decide)⟩
theorem keep14 (V : Valuation τ sig (Elt F)) {r : Ref sig .tc} (hr : r ∉ w14) :
    after rops14 V (Proc.devRef .tc r) = V (Proc.devRef .tc r) :=
  StableHlo.after_of_writes_sub rops14 V w14_sub hr

/-- The buffers stretch 15 writes. -/
abbrev w15 : List (Ref sig .tc) := [main_call8_v0, main_call8_v1, main_v24]
theorem w15_sub : (rops15 : List (HloOp τ sig (Elt F))).Forall fun op => op.writes ⊆ (w15.map (Proc.devRef (τ := τ) .tc)).toFinset :=
  ⟨writes_sub_of (StableHlo.unary_writes ..) (by decide),
   writes_sub_of (StableHlo.unary_writes ..) (by decide),
   writes_sub_of (StableHlo.ternary_writes ..) (by decide)⟩
theorem keep15 (V : Valuation τ sig (Elt F)) {r : Ref sig .tc} (hr : r ∉ w15) :
    after rops15 V (Proc.devRef .tc r) = V (Proc.devRef .tc r) :=
  StableHlo.after_of_writes_sub rops15 V w15_sub hr

/-- The buffers stretch 16 writes. -/
abbrev w16 : List (Ref sig .tc) := [main_c_10]
theorem w16_sub : (rops16 : List (HloOp τ sig (Elt F))).Forall fun op => op.writes ⊆ (w16.map (Proc.devRef (τ := τ) .tc)).toFinset :=
  writes_sub_of (StableHlo.nullary_writes ..) (by decide)
theorem keep16 (V : Valuation τ sig (Elt F)) {r : Ref sig .tc} (hr : r ∉ w16) :
    after rops16 V (Proc.devRef .tc r) = V (Proc.devRef .tc r) :=
  StableHlo.after_of_writes_sub rops16 V w16_sub hr

/-- The buffers stretch 17 writes. -/
abbrev w17 : List (Ref sig .tc) := [main_call9_v0, main_call9_v1, main_v25]
theorem w17_sub : (rops17 : List (HloOp τ sig (Elt F))).Forall fun op => op.writes ⊆ (w17.map (Proc.devRef (τ := τ) .tc)).toFinset :=
  ⟨writes_sub_of (StableHlo.unary_writes ..) (by decide),
   writes_sub_of (StableHlo.unary_writes ..) (by decide),
   writes_sub_of (StableHlo.ternary_writes ..) (by decide)⟩
theorem keep17 (V : Valuation τ sig (Elt F)) {r : Ref sig .tc} (hr : r ∉ w17) :
    after rops17 V (Proc.devRef .tc r) = V (Proc.devRef .tc r) :=
  StableHlo.after_of_writes_sub rops17 V w17_sub hr

/-- The buffers stretch 18 writes. -/
abbrev w18 : List (Ref sig .tc) := [main_v26]
theorem w18_sub : (rops18 : List (HloOp τ sig (Elt F))).Forall fun op => op.writes ⊆ (w18.map (Proc.devRef (τ := τ) .tc)).toFinset :=
  writes_sub_of (StableHlo.unary_writes ..) (by decide)
theorem keep18 (V : Valuation τ sig (Elt F)) {r : Ref sig .tc} (hr : r ∉ w18) :
    after rops18 V (Proc.devRef .tc r) = V (Proc.devRef .tc r) :=
  StableHlo.after_of_writes_sub rops18 V w18_sub hr

/-- The buffers stretch 19 writes. -/
abbrev w19 : List (Ref sig .tc) := [main_v27]
theorem w19_sub : (rops19 : List (HloOp τ sig (Elt F))).Forall fun op => op.writes ⊆ (w19.map (Proc.devRef (τ := τ) .tc)).toFinset :=
  writes_sub_of (StableHlo.unary_writes ..) (by decide)
theorem keep19 (V : Valuation τ sig (Elt F)) {r : Ref sig .tc} (hr : r ∉ w19) :
    after rops19 V (Proc.devRef .tc r) = V (Proc.devRef .tc r) :=
  StableHlo.after_of_writes_sub rops19 V w19_sub hr

/-- The buffers stretch 20 writes. -/
abbrev w20 : List (Ref sig .tc) := [main_v28, main_v29, main_v30, main_v31, main_v32, main_v33]
theorem w20_sub : (rops20 : List (HloOp τ sig (Elt F))).Forall fun op => op.writes ⊆ (w20.map (Proc.devRef (τ := τ) .tc)).toFinset :=
  ⟨writes_sub_of (StableHlo.binary_writes ..) (by decide),
   writes_sub_of (StableHlo.unary_writes ..) (by decide),
   writes_sub_of (StableHlo.unary_writes ..) (by decide),
   writes_sub_of (StableHlo.reshape_writes ..) (by decide),
   writes_sub_of (StableHlo.unary_writes ..) (by decide),
   writes_sub_of (StableHlo.reshape_writes ..) (by decide)⟩
theorem keep20 (V : Valuation τ sig (Elt F)) {r : Ref sig .tc} (hr : r ∉ w20) :
    after rops20 V (Proc.devRef .tc r) = V (Proc.devRef .tc r) :=
  StableHlo.after_of_writes_sub rops20 V w20_sub hr

end Cert.ReferenceIdeal.HTail

end
-- ==== Proof.RTail.lean ====
/- The reference program's two results as functions of the mask: the 21 stretches walked in order, each needed
   buffer followed from the stretch that writes it to the stretches that read it. -/
import proofs.«180157_j7541962572511_2_alg».proof.Proof.RTailA

noncomputable section

namespace Cert.ReferenceIdeal.HTail

open Cert.ReferenceIdeal Cert.ReferenceIdeal.Gen Cert.ReferenceIdeal.HRun Idealize.ShloMosaic Idealize.ShloMosaic.TcCoe Idealize.SL.Sem
open Idealize.ShloMosaic.StableHlo (after)

variable {F : FTy → Type} [FloatOps F]

/-! ## The valuations between the stretches -/

/-- The contents before stretch 0: the given ones. -/
def V0 (W : Valuation τ sig (Elt F)) : Valuation τ sig (Elt F) := W
/-- The contents after stretches 0 … 0. -/
def V1 (W : Valuation τ sig (Elt F)) : Valuation τ sig (Elt F) := after rops0 (V0 W)
/-- The contents after stretches 0 … 1. -/
def V2 (W : Valuation τ sig (Elt F)) : Valuation τ sig (Elt F) := after rops1 (V1 W)
/-- The contents after stretches 0 … 2. -/
def V3 (W : Valuation τ sig (Elt F)) : Valuation τ sig (Elt F) := after rops2 (V2 W)
/-- The contents after stretches 0 … 3. -/
def V4 (W : Valuation τ sig (Elt F)) : Valuation τ sig (Elt F) := after rops3 (V3 W)
/-- The contents after stretches 0 … 4. -/
def V5 (W : Valuation τ sig (Elt F)) : Valuation τ sig (Elt F) := after rops4 (V4 W)
/-- The contents after stretches 0 … 5. -/
def V6 (W : Valuation τ sig (Elt F)) : Valuation τ sig (Elt F) := after rops5 (V5 W)
/-- The contents after stretches 0 … 6. -/
def V7 (W : Valuation τ sig (Elt F)) : Valuation τ sig (Elt F) := after rops6 (V6 W)
/-- The contents after stretches 0 … 7. -/
def V8 (W : Valuation τ sig (Elt F)) : Valuation τ sig (Elt F) := after rops7 (V7 W)
/-- The contents after stretches 0 … 8. -/
def V9 (W : Valuation τ sig (Elt F)) : Valuation τ sig (Elt F) := after rops8 (V8 W)
/-- The contents after stretches 0 … 9. -/
def V10 (W : Valuation τ sig (Elt F)) : Valuation τ sig (Elt F) := after rops9 (V9 W)
/-- The contents after stretches 0 … 10. -/
def V11 (W : Valuation τ sig (Elt F)) : Valuation τ sig (Elt F) := after rops10 (V10 W)
/-- The contents after stretches 0 … 11. -/
def V12 (W : Valuation τ sig (Elt F)) : Valuation τ sig (Elt F) := after rops11 (V11 W)
/-- The contents after stretches 0 … 12. -/
def V13 (W : Valuation τ sig (Elt F)) : Valuation τ sig (Elt F) := after rops12 (V12 W)
/-- The contents after stretches 0 … 13. -/
def V14 (W : Valuation τ sig (Elt F)) : Valuation τ sig (Elt F) := after rops13 (V13 W)
/-- The contents after stretches 0 … 14. -/
def V15 (W : Valuation τ sig (Elt F)) : Valuation τ sig (Elt F) := after rops14 (V14 W)
/-- The contents after stretches 0 … 15. -/
def V16 (W : Valuation τ sig (Elt F)) : Valuation τ sig (Elt F) := after rops15 (V15 W)
/-- The contents after stretches 0 … 16. -/
def V17 (W : Valuation τ sig (Elt F)) : Valuation τ sig (Elt F) := after rops16 (V16 W)
/-- The contents after stretches 0 … 17. -/
def V18 (W : Valuation τ sig (Elt F)) : Valuation τ sig (Elt F) := after rops17 (V17 W)
/-- The contents after stretches 0 … 18. -/
def V19 (W : Valuation τ sig (Elt F)) : Valuation τ sig (Elt F) := after rops18 (V18 W)
/-- The contents after stretches 0 … 19. -/
def V20 (W : Valuation τ sig (Elt F)) : Valuation τ sig (Elt F) := after rops19 (V19 W)
/-- The contents after stretches 0 … 20. -/
def V21 (W : Valuation τ sig (Elt F)) : Valuation τ sig (Elt F) := after rops20 (V20 W)

/-- The whole line's fold is the last of them. -/
theorem after_all (W : Valuation τ sig (Elt F)) : after (List.flatten ropss) W = V21 W := by
  rw [← StableHlo.afterL_eq_after_flatten]; rfl

/-! ## Each needed buffer, from the stretch that writes it to the last that reads it -/

theorem val_main_v1_1 (W : Valuation τ sig (Elt F)) : V1 W (Proc.devRef .tc main_v1) = (Cert.Tail.maskOfFloats (W (Proc.devRef .tc main_arg0))) :=
  (st0 (V0 W)).trans rfl
theorem val_main_v1_2 (W : Valuation τ sig (Elt F)) : V2 W (Proc.devRef .tc main_v1) = (Cert.Tail.maskOfFloats (W (Proc.devRef .tc main_arg0))) :=
  (keep1 (V1 W) (by decide)).trans (val_main_v1_1 W)
theorem val_main_v1_3 (W : Valuation τ sig (Elt F)) : V3 W (Proc.devRef .tc main_v1) = (Cert.Tail.maskOfFloats (W (Proc.devRef .tc main_arg0))) :=
  (keep2 (V2 W) (by decide)).trans (val_main_v1_2 W)
theorem val_main_v1_4 (W : Valuation τ sig (Elt F)) : V4 W (Proc.devRef .tc main_v1) = (Cert.Tail.maskOfFloats (W (Proc.devRef .tc main_arg0))) :=
  (keep3 (V3 W) (by decide)).trans (val_main_v1_3 W)
theorem val_main_v1_5 (W : Valuation τ sig (Elt F)) : V5 W (Proc.devRef .tc main_v1) = (Cert.Tail.maskOfFloats (W (Proc.devRef .tc main_arg0))) :=
  (keep4 (V4 W) (by decide)).trans (val_main_v1_4 W)
theorem val_main_v1_6 (W : Valuation τ sig (Elt F)) : V6 W (Proc.devRef .tc main_v1) = (Cert.Tail.maskOfFloats (W (Proc.devRef .tc main_arg0))) :=
  (keep5 (V5 W) (by decide)).trans (val_main_v1_5 W)
theorem val_main_v1_7 (W : Valuation τ sig (Elt F)) : V7 W (Proc.devRef .tc main_v1) = (Cert.Tail.maskOfFloats (W (Proc.devRef .tc main_arg0))) :=
  (keep6 (V6 W) (by decide)).trans (val_main_v1_6 W)
theorem val_main_v1_8 (W : Valuation τ sig (Elt F)) : V8 W (Proc.devRef .tc main_v1) = (Cert.Tail.maskOfFloats (W (Proc.devRef .tc main_arg0))) :=
  (keep7 (V7 W) (by decide)).trans (val_main_v1_7 W)
theorem val_main_v1_9 (W : Valuation τ sig (Elt F)) : V9 W (Proc.devRef .tc main_v1) = (Cert.Tail.maskOfFloats (W (Proc.devRef .tc main_arg0))) :=
  (keep8 (V8 W) (by decide)).trans (val_main_v1_8 W)
theorem val_main_v1_10 (W : Valuation τ sig (Elt F)) : V10 W (Proc.devRef .tc main_v1) = (Cert.Tail.maskOfFloats (W (Proc.devRef .tc main_arg0))) :=
  (keep9 (V9 W) (by decide)).trans (val_main_v1_9 W)
theorem val_main_v1_11 (W : Valuation τ sig (Elt F)) : V11 W (Proc.devRef .tc main_v1) = (Cert.Tail.maskOfFloats (W (Proc.devRef .tc main_arg0))) :=
  (keep10 (V10 W) (by decide)).trans (val_main_v1_10 W)
theorem val_main_v1_12 (W : Valuation τ sig (Elt F)) : V12 W (Proc.devRef .tc main_v1) = (Cert.Tail.maskOfFloats (W (Proc.devRef .tc main_arg0))) :=
  (keep11 (V11 W) (by decide)).trans (val_main_v1_11 W)
theorem val_main_v1_13 (W : Valuation τ sig (Elt F)) : V13 W (Proc.devRef .tc main_v1) = (Cert.Tail.maskOfFloats (W (Proc.devRef .tc main_arg0))) :=
  (keep12 (V12 W) (by decide)).trans (val_main_v1_12 W)
theorem val_main_v1_14 (W : Valuation τ sig (Elt F)) : V14 W (Proc.devRef .tc main_v1) = (Cert.Tail.maskOfFloats (W (Proc.devRef .tc main_arg0))) :=
  (keep13 (V13 W) (by decide)).trans (val_main_v1_13 W)

theorem val_main_v3_2 (W : Valuation τ sig (Elt F)) : V2 W (Proc.devRef .tc main_v3) = (Cert.Tail.cumsumFlat (Cert.Tail.maskOfFloats (W (Proc.devRef .tc main_arg0)))) :=
  (st1 (V1 W)).trans (by rw [val_main_v1_1 W])
theorem val_main_v3_3 (W : Valuation τ sig (Elt F)) : V3 W (Proc.devRef .tc main_v3) = (Cert.Tail.cumsumFlat (Cert.Tail.maskOfFloats (W (Proc.devRef .tc main_arg0)))) :=
  (keep2 (V2 W) (by decide)).trans (val_main_v3_2 W)

theorem val_main_v4_3 (W : Valuation τ sig (Elt F)) : V3 W (Proc.devRef .tc main_v4) = Cert.Tail.zerosShort :=
  (st2a (V2 W)).trans rfl
theorem val_main_v4_4 (W : Valuation τ sig (Elt F)) : V4 W (Proc.devRef .tc main_v4) = Cert.Tail.zerosShort :=
  (keep3 (V3 W) (by decide)).trans (val_main_v4_3 W)

theorem val_main_c_0_3 (W : Valuation τ sig (Elt F)) : V3 W (Proc.devRef .tc main_c_0) = (constantI S_ 32 0#32) :=
  (st2b (V2 W)).trans rfl

theorem val_main_v5_4 (W : Valuation τ sig (Elt F)) : V4 W (Proc.devRef .tc main_v5) = (Cert.Tail.clipLow (constantI S_ 32 0#32) (Cert.Tail.cumsumFlat (Cert.Tail.maskOfFloats (W (Proc.devRef .tc main_arg0))))) :=
  (st3 (V3 W)).trans (by rw [val_main_c_0_3 W, val_main_v3_3 W])

theorem val_main_v13_5 (W : Valuation τ sig (Elt F)) : V5 W (Proc.devRef .tc main_v13) = (Cert.Tail.scatterOnes Cert.Tail.zerosShort (Cert.Tail.clipLow (constantI S_ 32 0#32) (Cert.Tail.cumsumFlat (Cert.Tail.maskOfFloats (W (Proc.devRef .tc main_arg0)))))) :=
  (st4 (V4 W)).trans (by rw [val_main_v4_4 W, val_main_v5_4 W])

theorem val_main_v14_6 (W : Valuation τ sig (Elt F)) : V6 W (Proc.devRef .tc main_v14) = (Cert.Tail.positions (Cert.Tail.maskOfFloats (W (Proc.devRef .tc main_arg0)))) :=
  (st5 (V5 W)).trans (by rw [val_main_v13_5 W]; rfl)
theorem val_main_v14_7 (W : Valuation τ sig (Elt F)) : V7 W (Proc.devRef .tc main_v14) = (Cert.Tail.positions (Cert.Tail.maskOfFloats (W (Proc.devRef .tc main_arg0)))) :=
  (keep6 (V6 W) (by decide)).trans (val_main_v14_6 W)
theorem val_main_v14_8 (W : Valuation τ sig (Elt F)) : V8 W (Proc.devRef .tc main_v14) = (Cert.Tail.positions (Cert.Tail.maskOfFloats (W (Proc.devRef .tc main_arg0)))) :=
  (keep7 (V7 W) (by decide)).trans (val_main_v14_7 W)
theorem val_main_v14_9 (W : Valuation τ sig (Elt F)) : V9 W (Proc.devRef .tc main_v14) = (Cert.Tail.positions (Cert.Tail.maskOfFloats (W (Proc.devRef .tc main_arg0)))) :=
  (keep8 (V8 W) (by decide)).trans (val_main_v14_8 W)
theorem val_main_v14_10 (W : Valuation τ sig (Elt F)) : V10 W (Proc.devRef .tc main_v14) = (Cert.Tail.positions (Cert.Tail.maskOfFloats (W (Proc.devRef .tc main_arg0)))) :=
  (keep9 (V9 W) (by decide)).trans (val_main_v14_9 W)
theorem val_main_v14_11 (W : Valuation τ sig (Elt F)) : V11 W (Proc.devRef .tc main_v14) = (Cert.Tail.positions (Cert.Tail.maskOfFloats (W (Proc.devRef .tc main_arg0)))) :=
  (keep10 (V10 W) (by decide)).trans (val_main_v14_10 W)

theorem val_main_c_4_7 (W : Valuation τ sig (Elt F)) : V7 W (Proc.devRef .tc main_c_4) = (constantI S_ 32 12288#32) :=
  (st6 (V6 W)).trans rfl

theorem val_main_v15_8 (W : Valuation τ sig (Elt F)) : V8 W (Proc.devRef .tc main_v15) = (Cert.Tail.floorDivide (Cert.Tail.positions (Cert.Tail.maskOfFloats (W (Proc.devRef .tc main_arg0)))) (constantI S_ 32 12288#32)) :=
  (st7 (V7 W)).trans (by rw [val_main_v14_7 W, val_main_c_4_7 W])
theorem val_main_v15_9 (W : Valuation τ sig (Elt F)) : V9 W (Proc.devRef .tc main_v15) = (Cert.Tail.floorDivide (Cert.Tail.positions (Cert.Tail.maskOfFloats (W (Proc.devRef .tc main_arg0)))) (constantI S_ 32 12288#32)) :=
  (keep8 (V8 W) (by decide)).trans (val_main_v15_8 W)

theorem val_main_c_5_9 (W : Valuation τ sig (Elt F)) : V9 W (Proc.devRef .tc main_c_5) = (constantI S_ 32 12288#32) :=
  (st8 (V8 W)).trans rfl

theorem val_main_v16_10 (W : Valuation τ sig (Elt F)) : V10 W (Proc.devRef .tc main_v16) = (Cert.Tail.remainderOf (Cert.Tail.floorDivide (Cert.Tail.positions (Cert.Tail.maskOfFloats (W (Proc.devRef .tc main_arg0)))) (constantI S_ 32 12288#32)) (constantI S_ 32 12288#32)) :=
  (st9 (V9 W)).trans (by rw [val_main_v15_9 W, val_main_c_5_9 W])
theorem val_main_v16_11 (W : Valuation τ sig (Elt F)) : V11 W (Proc.devRef .tc main_v16) = (Cert.Tail.remainderOf (Cert.Tail.floorDivide (Cert.Tail.positions (Cert.Tail.maskOfFloats (W (Proc.devRef .tc main_arg0)))) (constantI S_ 32 12288#32)) (constantI S_ 32 12288#32)) :=
  (keep10 (V10 W) (by decide)).trans (val_main_v16_10 W)
theorem val_main_v16_12 (W : Valuation τ sig (Elt F)) : V12 W (Proc.devRef .tc main_v16) = (Cert.Tail.remainderOf (Cert.Tail.floorDivide (Cert.Tail.positions (Cert.Tail.maskOfFloats (W (Proc.devRef .tc main_arg0)))) (constantI S_ 32 12288#32)) (constantI S_ 32 12288#32)) :=
  (keep11 (V11 W) (by decide)).trans (val_main_v16_11 W)
theorem val_main_v16_13 (W : Valuation τ sig (Elt F)) : V13 W (Proc.devRef .tc main_v16) = (Cert.Tail.remainderOf (Cert.Tail.floorDivide (Cert.Tail.positions (Cert.Tail.maskOfFloats (W (Proc.devRef .tc main_arg0)))) (constantI S_ 32 12288#32)) (constantI S_ 32 12288#32)) :=
  (keep12 (V12 W) (by decide)).trans (val_main_v16_12 W)
theorem val_main_v16_14 (W : Valuation τ sig (Elt F)) : V14 W (Proc.devRef .tc main_v16) = (Cert.Tail.remainderOf (Cert.Tail.floorDivide (Cert.Tail.positions (Cert.Tail.maskOfFloats (W (Proc.devRef .tc main_arg0)))) (constantI S_ 32 12288#32)) (constantI S_ 32 12288#32)) :=
  (keep13 (V13 W) (by decide)).trans (val_main_v16_13 W)
theorem val_main_v16_15 (W : Valuation τ sig (Elt F)) : V15 W (Proc.devRef .tc main_v16) = (Cert.Tail.remainderOf (Cert.Tail.floorDivide (Cert.Tail.positions (Cert.Tail.maskOfFloats (W (Proc.devRef .tc main_arg0)))) (constantI S_ 32 12288#32)) (constantI S_ 32 12288#32)) :=
  (keep14 (V14 W) (by decide)).trans (val_main_v16_14 W)

theorem val_main_c_6_11 (W : Valuation τ sig (Elt F)) : V11 W (Proc.devRef .tc main_c_6) = (constantI S_ 32 1#32) :=
  (st10 (V10 W)).trans rfl

theorem val_main_v17_12 (W : Valuation τ sig (Elt F)) : V12 W (Proc.devRef .tc main_v17) = (Cert.Tail.floorDivide (Cert.Tail.positions (Cert.Tail.maskOfFloats (W (Proc.devRef .tc main_arg0)))) (constantI S_ 32 1#32)) :=
  (st11 (V11 W)).trans (by rw [val_main_v14_11 W, val_main_c_6_11 W])
theorem val_main_v17_13 (W : Valuation τ sig (Elt F)) : V13 W (Proc.devRef .tc main_v17) = (Cert.Tail.floorDivide (Cert.Tail.positions (Cert.Tail.maskOfFloats (W (Proc.devRef .tc main_arg0)))) (constantI S_ 32 1#32)) :=
  (keep12 (V12 W) (by decide)).trans (val_main_v17_12 W)

theorem val_main_c_7_13 (W : Valuation τ sig (Elt F)) : V13 W (Proc.devRef .tc main_c_7) = (constantI S_ 32 12288#32) :=
  (st12 (V12 W)).trans rfl

theorem val_main_v18_14 (W : Valuation τ sig (Elt F)) : V14 W (Proc.devRef .tc main_v18) = (Cert.Tail.remainderOf (Cert.Tail.floorDivide (Cert.Tail.positions (Cert.Tail.maskOfFloats (W (Proc.devRef .tc main_arg0)))) (constantI S_ 32 1#32)) (constantI S_ 32 12288#32)) :=
  (st13 (V13 W)).trans (by rw [val_main_v17_13 W, val_main_c_7_13 W])
theorem val_main_v18_15 (W : Valuation τ sig (Elt F)) : V15 W (Proc.devRef .tc main_v18) = (Cert.Tail.remainderOf (Cert.Tail.floorDivide (Cert.Tail.positions (Cert.Tail.maskOfFloats (W (Proc.devRef .tc main_arg0)))) (constantI S_ 32 1#32)) (constantI S_ 32 12288#32)) :=
  (keep14 (V14 W) (by decide)).trans (val_main_v18_14 W)
theorem val_main_v18_16 (W : Valuation τ sig (Elt F)) : V16 W (Proc.devRef .tc main_v18) = (Cert.Tail.remainderOf (Cert.Tail.floorDivide (Cert.Tail.positions (Cert.Tail.maskOfFloats (W (Proc.devRef .tc main_arg0)))) (constantI S_ 32 1#32)) (constantI S_ 32 12288#32)) :=
  (keep15 (V15 W) (by decide)).trans (val_main_v18_15 W)
theorem val_main_v18_17 (W : Valuation τ sig (Elt F)) : V17 W (Proc.devRef .tc main_v18) = (Cert.Tail.remainderOf (Cert.Tail.floorDivide (Cert.Tail.positions (Cert.Tail.maskOfFloats (W (Proc.devRef .tc main_arg0)))) (constantI S_ 32 1#32)) (constantI S_ 32 12288#32)) :=
  (keep16 (V16 W) (by decide)).trans (val_main_v18_16 W)

theorem val_main_v23_15 (W : Valuation τ sig (Elt F)) : V15 W (Proc.devRef .tc main_v23) = (Cert.Tail.fillMask (Cert.Tail.maskOfFloats (W (Proc.devRef .tc main_arg0)))) :=
  (st14a (V14 W)).trans (by rw [val_main_v1_14 W])
theorem val_main_v23_16 (W : Valuation τ sig (Elt F)) : V16 W (Proc.devRef .tc main_v23) = (Cert.Tail.fillMask (Cert.Tail.maskOfFloats (W (Proc.devRef .tc main_arg0)))) :=
  (keep15 (V15 W) (by decide)).trans (val_main_v23_15 W)
theorem val_main_v23_17 (W : Valuation τ sig (Elt F)) : V17 W (Proc.devRef .tc main_v23) = (Cert.Tail.fillMask (Cert.Tail.maskOfFloats (W (Proc.devRef .tc main_arg0)))) :=
  (keep16 (V16 W) (by decide)).trans (val_main_v23_16 W)

theorem val_main_c_9_15 (W : Valuation τ sig (Elt F)) : V15 W (Proc.devRef .tc main_c_9) = (constantI S_ 32 4294967295#32) :=
  (st14b (V14 W)).trans rfl

theorem val_main_v24_16 (W : Valuation τ sig (Elt F)) : V16 W (Proc.devRef .tc main_v24) = (Cert.Tail.rows (Cert.Tail.maskOfFloats (W (Proc.devRef .tc main_arg0)))) :=
  (st15 (V15 W)).trans (by rw [val_main_v23_15 W, val_main_c_9_15 W, val_main_v16_15 W]; rfl)
theorem val_main_v24_17 (W : Valuation τ sig (Elt F)) : V17 W (Proc.devRef .tc main_v24) = (Cert.Tail.rows (Cert.Tail.maskOfFloats (W (Proc.devRef .tc main_arg0)))) :=
  (keep16 (V16 W) (by decide)).trans (val_main_v24_16 W)
theorem val_main_v24_18 (W : Valuation τ sig (Elt F)) : V18 W (Proc.devRef .tc main_v24) = (Cert.Tail.rows (Cert.Tail.maskOfFloats (W (Proc.devRef .tc main_arg0)))) :=
  (keep17 (V17 W) (by decide)).trans (val_main_v24_17 W)

theorem val_main_c_10_17 (W : Valuation τ sig (Elt F)) : V17 W (Proc.devRef .tc main_c_10) = (constantI S_ 32 4294967295#32) :=
  (st16 (V16 W)).trans rfl

theorem val_main_v25_18 (W : Valuation τ sig (Elt F)) : V18 W (Proc.devRef .tc main_v25) = (Cert.Tail.cols (Cert.Tail.maskOfFloats (W (Proc.devRef .tc main_arg0)))) :=
  (st17 (V17 W)).trans (by rw [val_main_v23_17 W, val_main_c_10_17 W, val_main_v18_17 W]; rfl)
theorem val_main_v25_19 (W : Valuation τ sig (Elt F)) : V19 W (Proc.devRef .tc main_v25) = (Cert.Tail.cols (Cert.Tail.maskOfFloats (W (Proc.devRef .tc main_arg0)))) :=
  (keep18 (V18 W) (by decide)).trans (val_main_v25_18 W)

theorem val_main_v26_19 (W : Valuation τ sig (Elt F)) : V19 W (Proc.devRef .tc main_v26) = (Cert.Tail.asRow (Cert.Tail.rows (Cert.Tail.maskOfFloats (W (Proc.devRef .tc main_arg0))))) :=
  (st18 (V18 W)).trans (by rw [val_main_v24_18 W])
theorem val_main_v26_20 (W : Valuation τ sig (Elt F)) : V20 W (Proc.devRef .tc main_v26) = (Cert.Tail.asRow (Cert.Tail.rows (Cert.Tail.maskOfFloats (W (Proc.devRef .tc main_arg0))))) :=
  (keep19 (V19 W) (by decide)).trans (val_main_v26_19 W)

theorem val_main_v27_20 (W : Valuation τ sig (Elt F)) : V20 W (Proc.devRef .tc main_v27) = (Cert.Tail.asRow (Cert.Tail.cols (Cert.Tail.maskOfFloats (W (Proc.devRef .tc main_arg0))))) :=
  (st19 (V19 W)).trans (by rw [val_main_v25_19 W])

theorem val_main_v31_21 (W : Valuation τ sig (Elt F)) : V21 W (Proc.devRef .tc main_v31) = (Cert.Tail.res0 (Cert.Tail.maskOfFloats (W (Proc.devRef .tc main_arg0)))) :=
  (st20a (V20 W)).trans (by rw [val_main_v26_20 W, val_main_v27_20 W]; rfl)

theorem val_main_v33_21 (W : Valuation τ sig (Elt F)) : V21 W (Proc.devRef .tc main_v33) = (Cert.Tail.res1 (Cert.Tail.maskOfFloats (W (Proc.devRef .tc main_arg0)))) :=
  (st20b (V20 W)).trans (by rw [val_main_v26_20 W, val_main_v27_20 W]; rfl)

/-! ## The two results -/

/-- The first result is the rows of the true entries of the mask of the argument. -/
theorem read0 (W : Valuation τ sig (Elt F)) :
    after (List.flatten Cert.ReferenceIdeal.HRun.ropss) W (Proc.devRef .tc main_v31) = Cert.Tail.res0 (Cert.Tail.maskOfFloats (W (Proc.devRef .tc main_arg0))) := by
  rw [after_all]; exact val_main_v31_21 W

/-- The second result is the columns of the true entries of the mask of the argument. -/
theorem read1 (W : Valuation τ sig (Elt F)) :
    after (List.flatten Cert.ReferenceIdeal.HRun.ropss) W (Proc.devRef .tc main_v33) = Cert.Tail.res1 (Cert.Tail.maskOfFloats (W (Proc.devRef .tc main_arg0))) := by
  rw [after_all]; exact val_main_v33_21 W

end Cert.ReferenceIdeal.HTail

end
-- ==== Proof.lean ====
/-
  The certificate of the thresholding kernel against its reference.

  Both programs compute the positions of the entries of a 12288 × 12288 distance matrix that lie below a threshold,
  as two padded index vectors.  The kernel program thresholds the matrix in ONE tiled region (72 tiles of
  1024 × 2048), leaving a matrix of 0/1 words, and turns the words into a boolean mask on the host; the reference
  compares on the host.  From the mask on, the two programs run the same host operations (the running count of
  true entries, a scatter of ones, a second running count, division and remainder by the side length, padding by
  -1).  The proof: (1) the region's frame run, with every host line after it (KFrameI / KFrameB); (2) the word matrix
  the region leaves is one pointwise function of the distance matrix (KMask) and its mask of nonzero words is the
  reference's mask (Bridge); (3) in either program the two results are ONE function of the mask, read off the host
  lines stretch by stretch (Tail, KTail, RTail); (4) the reference's run, all on the host (RRun).  No extended-real
  algebra is needed: the one float operation, the comparison with the threshold word, is the same on both sides.
-/
import proofs.«180157_j7541962572511_2_alg».proof.Defs
import proofs.«180157_j7541962572511_2_alg».proof.Proof.Gen.Kernel
import proofs.«180157_j7541962572511_2_alg».proof.Proof.Gen.KernelIdeal
import proofs.«180157_j7541962572511_2_alg».proof.Proof.Gen.ReferenceIdeal
import proofs.«180157_j7541962572511_2_alg».proof.Proof.Gen.Pre_finite_inputs
import proofs.«180157_j7541962572511_2_alg».proof.Proof.KFrameI
import proofs.«180157_j7541962572511_2_alg».proof.Proof.KFrameB
import proofs.«180157_j7541962572511_2_alg».proof.Proof.KMask
import proofs.«180157_j7541962572511_2_alg».proof.Proof.Bridge
import proofs.«180157_j7541962572511_2_alg».proof.Proof.KTail
import proofs.«180157_j7541962572511_2_alg».proof.Proof.RRun
import proofs.«180157_j7541962572511_2_alg».proof.Proof.RTail
import Idealize.ShloMosaic.Adequacy
import Idealize.ShloMosaic.Init

noncomputable section

namespace Cert.Proof

open Idealize.ShloMosaic Idealize.ShloMosaic.TcCoe Idealize.SL.Sem

/-! ## The kernel program's results, as functions of the launched distance matrix -/

section KernelSide

open Cert.KernelIdeal Cert.KernelIdeal.Gen Cert.KernelIdeal.HFrame

variable (m : (ℓ : Loc nD τ sig) → Buf (Elt Ideal) ℓ)

/-- The host lines after the region find, at the word matrix, `words` of the launched distance matrix. -/
theorem tail_entry (c : Dev nD) :
    Pipeline.withArrays (cfgs 0).spec c (V0 m c) (fun w => (dats m 0 c).arrAt w (cfgs 0).N) (Proc.devRef .tc main_v0)
      = Cert.KernelIdeal.HValue.words (m ((c.tc : Thread nD τ).loc main_arg0)) :=
  (Pipeline.withArrays_arr spec0 launch0.win.arr_inj c _ _ 1).trans (Cert.KernelIdeal.HValue.final1 m c)

/-- The first result: the rows of the entries below the threshold. -/
theorem kernel_res0 (c : Dev nD) :
    Pipeline.afterTail₀ cfgs (dats m) 0 (V0 m) opss c main_v33
      = Cert.Tail.res0 (Cert.Tail.maskOfFloats (m ((c.tc : Thread nD τ).loc main_arg0))) := by
  unfold Pipeline.afterTail₀
  rw [Cert.KernelIdeal.HTail.read0, tail_entry, Cert.Bridge.mask_eq]

/-- The second result: their columns. -/
theorem kernel_res1 (c : Dev nD) :
    Pipeline.afterTail₀ cfgs (dats m) 0 (V0 m) opss c main_v35
      = Cert.Tail.res1 (Cert.Tail.maskOfFloats (m ((c.tc : Thread nD τ).loc main_arg0))) := by
  unfold Pipeline.afterTail₀
  rw [Cert.KernelIdeal.HTail.read1, tail_entry, Cert.Bridge.mask_eq]

end KernelSide

/-! ## The claims -/

theorem frame_k : Cert.frame_Kernel := fun m ρ _ => Cert.Kernel.HFrame.frame m ρ
theorem frame_ki : Cert.frame_KernelIdeal := fun m ρ _ => Cert.KernelIdeal.HFrame.frame m ρ
theorem frame_ri : Cert.frame_ReferenceIdeal := fun m ρ _ => Cert.ReferenceIdeal.HRun.frame m ρ

/-- At the ideal instance both programs end with the rows and the columns of the entries below the threshold, as
    the same function of the same mask: the kernel's mask of nonzero words is the reference's comparison. -/
theorem algebraic : Cert.algebraic_KernelIdeal_ReferenceIdeal := by
  intro m ρ m' ρ' _ hagree
  refine ⟨fun c => Cert.Tail.res0 (Cert.Tail.maskOfFloats (m ((c.tc : Thread Cert.KernelIdeal.nD Cert.KernelIdeal.τ).loc Cert.KernelIdeal.main_arg0))),
    fun c => Cert.Tail.res1 (Cert.Tail.maskOfFloats (m ((c.tc : Thread Cert.KernelIdeal.nD Cert.KernelIdeal.τ).loc Cert.KernelIdeal.main_arg0))), ?_, ?_⟩
  · refine (θ_run Cert.KernelIdeal.defs _ _).mono (fun r h c => ⟨?_, ?_, ?_⟩) (Cert.KernelIdeal.HFrame.run_main (F := Ideal) m ρ)
    · exact ((h c).2 Cert.KernelIdeal.main_v33 (Pipeline.mem_restRefs_of Cert.KernelIdeal.main_v33 (by decide) (by decide))).trans (kernel_res0 m c)
    · exact ((h c).2 Cert.KernelIdeal.main_v35 (Pipeline.mem_restRefs_of Cert.KernelIdeal.main_v35 (by decide) (by decide))).trans (kernel_res1 m c)
    · exact Cert.KernelIdeal.HFrame.kept_arg0 m r h c
  · refine (θ_run Cert.ReferenceIdeal.defs _ _).mono (fun r h c => ⟨?_, ?_, ?_⟩) (Cert.ReferenceIdeal.HRun.run (F := Ideal) m' ρ')
    · rw [h c Cert.ReferenceIdeal.main_v31, Cert.ReferenceIdeal.HTail.read0]
      exact congrArg (fun x => Cert.Tail.res0 (Cert.Tail.maskOfFloats x)) (hagree c)
    · rw [h c Cert.ReferenceIdeal.main_v33, Cert.ReferenceIdeal.HTail.read1]
      exact congrArg (fun x => Cert.Tail.res1 (Cert.Tail.maskOfFloats x)) (hagree c)
    · rw [h c Cert.ReferenceIdeal.main_arg0, Cert.ReferenceIdeal.HRun.kept_arg0]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
